-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2x2048 : Shape := ⟨2, ![2, 2048]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg8 : FVec F S1024x1024 .f32) (main_arg9 : FVec F S1024 .f32) (main_arg10 : FVec F S1024x1024 .f32) (main_arg11 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg10
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S2x2048x1024 .f32) (main_arg1 : FVec F S2x2048x1024 .f32) (main_arg2 : FVec F S2x2048x1024 .f32) (main_arg3 : IVec S2x2048 1) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_arg9 main_arg10 main_arg11 main_v13 main_v16
-- ==== Kernel.lean ====
abbrev S2x2048x1024 : Shape := ⟨3, ![2, 2048, 1024]⟩
abbrev S2x2048 : Shape := ⟨2, ![2, 2048]⟩
abbrev S1024x1024 : Shape := ⟨2, ![1024, 1024]⟩
abbrev S1024 : Shape := ⟨1, ![1024]⟩
abbrev S4096x1024 : Shape := ⟨2, ![4096, 1024]⟩
abbrev S512x1024 : Shape := ⟨2, ![512, 1024]⟩
abbrev S1x1024 : Shape := ⟨2, ![1, 1024]⟩
abbrev S_ : Shape := ⟨0, ![]⟩
abbrev S2x1x2048 : Shape := ⟨3, ![2, 1, 2048]⟩
abbrev S1x512x1024 : Shape := ⟨3, ![1, 512, 1024]⟩
abbrev S1x2048x1024 : Shape := ⟨3, ![1, 2048, 1024]⟩
abbrev S1x1x2048 : Shape := ⟨3, ![1, 1, 2048]⟩
abbrev S2048x1024 : Shape := ⟨2, ![2048, 1024]⟩
abbrev S1x2048 : Shape := ⟨2, ![1, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x512x64 : Shape := ⟨3, ![1, 512, 64]⟩

abbrev nBuf : Space → Nat
  | .hbm => 36
  | .vmem => 34
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048, .i1⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S2x2048x1024, .bf16⟩
  | .hbm, ⟨23, _⟩ => ⟨S2x2048x1024, .bf16⟩
  | .hbm, ⟨24, _⟩ => ⟨S2x2048x1024, .bf16⟩
  | .hbm, ⟨25, _⟩ => ⟨S_, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S2x2048, .f32⟩
  | .hbm, ⟨31, _⟩ => ⟨S2x1x2048, .f32⟩
  | .hbm, ⟨32, _⟩ => ⟨S2x2048x1024, .bf16⟩
  | .hbm, ⟨33, _⟩ => ⟨S4096x1024, .bf16⟩
  | .hbm, ⟨34, _⟩ => ⟨S4096x1024, .f32⟩
  | .hbm, ⟨35, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S1024, .f32⟩
  | .local _ .vmem, ⟨16, _⟩ => ⟨S512x1024, .bf16⟩
  | .local _ .vmem, ⟨17, _⟩ => ⟨S512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1x2048x1024, .bf16⟩
  | .local _ .vmem, ⟨23, _⟩ => ⟨S1x2048x1024, .bf16⟩
  | .local _ .vmem, ⟨24, _⟩ => ⟨S1x1x2048, .f32⟩
  | .local _ .vmem, ⟨25, _⟩ => ⟨S1x1x2048, .f32⟩
  | .local _ .vmem, ⟨26, _⟩ => ⟨S1x512x1024, .bf16⟩
  | .local _ .vmem, ⟨27, _⟩ => ⟨S1x512x1024, .bf16⟩
  | .local _ .vmem, ⟨28, _⟩ => ⟨S512x1024, .bf16⟩
  | .local _ .vmem, ⟨29, _⟩ => ⟨S512x1024, .bf16⟩
  | .local _ .vmem, ⟨30, _⟩ => ⟨S1024x1024, .f32⟩
  | .local _ .vmem, ⟨31, _⟩ => ⟨S1024, .f32⟩
  | .local _ .vmem, ⟨32, _⟩ => ⟨S512x1024, .f32⟩
  | .local _ .vmem, ⟨33, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x512x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  transposes_S1024x1024_S1024x1024_1_0 : S1024x1024.Transposes [1, 0] S1024x1024
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  shapeCasts_S4096x1024_S2x2048x1024 : S4096x1024.ShapeCasts S2x2048x1024
  bcast_S_S2x2048 : S_.BroadcastsInDim S2x2048 (![] : Fin 0 → Fin S2x2048.rank)
  shapeCasts_S2x2048_S2x1x2048 : S2x2048.ShapeCasts S2x1x2048
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  slices_S512x1024_o0_0_S512x64 : S512x1024.Slices ![0, 0] S512x64
  slices_S2048x1024_o0_0_S2048x64 : S2048x1024.Slices ![0, 0] S2048x64
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  inb_S1x512x1024_S1x512x64_0_0_0 : ∀ a, (![0, 0, 0] : Fin 3 → Nat) a + S1x512x64.size a ≤ S1x512x1024.size a
  h_S1x512x64 : 0 < S1x512x64.numel
  shapeCasts_S1x512x64_S512x64 : S1x512x64.ShapeCasts S512x64
  shapeCasts_S512x64_S1x512x64 : S512x64.ShapeCasts S1x512x64
  packedbf16_S1x512x1024_S1x512x64_0_0_0 : (Rect.unit (s := S1x512x1024) ![0, 0, 0] S1x512x64.size inb_S1x512x1024_S1x512x64_0_0_0).PackedRows (EltTy.packing .bf16)
  slices_S512x1024_o0_64_S512x64 : S512x1024.Slices ![0, 64] S512x64
  slices_S2048x1024_o0_64_S2048x64 : S2048x1024.Slices ![0, 64] S2048x64
  inb_S1x512x1024_S1x512x64_0_0_64 : ∀ a, (![0, 0, 64] : Fin 3 → Nat) a + S1x512x64.size a ≤ S1x512x1024.size a
  packedbf16_S1x512x1024_S1x512x64_0_0_64 : (Rect.unit (s := S1x512x1024) ![0, 0, 64] S1x512x64.size inb_S1x512x1024_S1x512x64_0_0_64).PackedRows (EltTy.packing .bf16)
  slices_S512x1024_o0_128_S512x64 : S512x1024.Slices ![0, 128] S512x64
  slices_S2048x1024_o0_128_S2048x64 : S2048x1024.Slices ![0, 128] S2048x64
  inb_S1x512x1024_S1x512x64_0_0_128 : ∀ a, (![0, 0, 128] : Fin 3 → Nat) a + S1x512x64.size a ≤ S1x512x1024.size a
  packedbf16_S1x512x1024_S1x512x64_0_0_128 : (Rect.unit (s := S1x512x1024) ![0, 0, 128] S1x512x64.size inb_S1x512x1024_S1x512x64_0_0_128).PackedRows (EltTy.packing .bf16)
  slices_S512x1024_o0_192_S512x64 : S512x1024.Slices ![0, 192] S512x64
  slices_S2048x1024_o0_192_S2048x64 : S2048x1024.Slices ![0, 192] S2048x64
  inb_S1x512x1024_S1x512x64_0_0_192 : ∀ a, (![0, 0, 192] : Fin 3 → Nat) a + S1x512x64.size a ≤ S1x512x1024.size a
  packedbf16_S1x512x1024_S1x512x64_0_0_192 : (Rect.unit (s := S1x512x1024) ![0, 0, 192] S1x512x64.size inb_S1x512x1024_S1x512x64_0_0_192).PackedRows (EltTy.packing .bf16)
  slices_S512x1024_o0_256_S512x64 : S512x1024.Slices ![0, 256] S512x64
  slices_S2048x1024_o0_256_S2048x64 : S2048x1024.Slices ![0, 256] S2048x64
  inb_S1x512x1024_S1x512x64_0_0_256 : ∀ a, (![0, 0, 256] : Fin 3 → Nat) a + S1x512x64.size a ≤ S1x512x1024.size a
  packedbf16_S1x512x1024_S1x512x64_0_0_256 : (Rect.unit (s := S1x512x1024) ![0, 0, 256] S1x512x64.size inb_S1x512x1024_S1x512x64_0_0_256).PackedRows (EltTy.packing .bf16)
  slices_S512x1024_o0_320_S512x64 : S512x1024.Slices ![0, 320] S512x64
  slices_S2048x1024_o0_320_S2048x64 : S2048x1024.Slices ![0, 320] S2048x64
  inb_S1x512x1024_S1x512x64_0_0_320 : ∀ a, (![0, 0, 320] : Fin 3 → Nat) a + S1x512x64.size a ≤ S1x512x1024.size a
  packedbf16_S1x512x1024_S1x512x64_0_0_320 : (Rect.unit (s := S1x512x1024) ![0, 0, 320] S1x512x64.size inb_S1x512x1024_S1x512x64_0_0_320).PackedRows (EltTy.packing .bf16)
  slices_S512x1024_o0_384_S512x64 : S512x1024.Slices ![0, 384] S512x64
  slices_S2048x1024_o0_384_S2048x64 : S2048x1024.Slices ![0, 384] S2048x64
  inb_S1x512x1024_S1x512x64_0_0_384 : ∀ a, (![0, 0, 384] : Fin 3 → Nat) a + S1x512x64.size a ≤ S1x512x1024.size a
  packedbf16_S1x512x1024_S1x512x64_0_0_384 : (Rect.unit (s := S1x512x1024) ![0, 0, 384] S1x512x64.size inb_S1x512x1024_S1x512x64_0_0_384).PackedRows (EltTy.packing .bf16)
  slices_S512x1024_o0_448_S512x64 : S512x1024.Slices ![0, 448] S512x64
  slices_S2048x1024_o0_448_S2048x64 : S2048x1024.Slices ![0, 448] S2048x64
  inb_S1x512x1024_S1x512x64_0_0_448 : ∀ a, (![0, 0, 448] : Fin 3 → Nat) a + S1x512x64.size a ≤ S1x512x1024.size a
  packedbf16_S1x512x1024_S1x512x64_0_0_448 : (Rect.unit (s := S1x512x1024) ![0, 0, 448] S1x512x64.size inb_S1x512x1024_S1x512x64_0_0_448).PackedRows (EltTy.packing .bf16)
  slices_S512x1024_o0_512_S512x64 : S512x1024.Slices ![0, 512] S512x64
  slices_S2048x1024_o0_512_S2048x64 : S2048x1024.Slices ![0, 512] S2048x64
  inb_S1x512x1024_S1x512x64_0_0_512 : ∀ a, (![0, 0, 512] : Fin 3 → Nat) a + S1x512x64.size a ≤ S1x512x1024.size a
  packedbf16_S1x512x1024_S1x512x64_0_0_512 : (Rect.unit (s := S1x512x1024) ![0, 0, 512] S1x512x64.size inb_S1x512x1024_S1x512x64_0_0_512).PackedRows (EltTy.packing .bf16)
  slices_S512x1024_o0_576_S512x64 : S512x1024.Slices ![0, 576] S512x64
  slices_S2048x1024_o0_576_S2048x64 : S2048x1024.Slices ![0, 576] S2048x64
  inb_S1x512x1024_S1x512x64_0_0_576 : ∀ a, (![0, 0, 576] : Fin 3 → Nat) a + S1x512x64.size a ≤ S1x512x1024.size a
  packedbf16_S1x512x1024_S1x512x64_0_0_576 : (Rect.unit (s := S1x512x1024) ![0, 0, 576] S1x512x64.size inb_S1x512x1024_S1x512x64_0_0_576).PackedRows (EltTy.packing .bf16)
  slices_S512x1024_o0_640_S512x64 : S512x1024.Slices ![0, 640] S512x64
  slices_S2048x1024_o0_640_S2048x64 : S2048x1024.Slices ![0, 640] S2048x64
  inb_S1x512x1024_S1x512x64_0_0_640 : ∀ a, (![0, 0, 640] : Fin 3 → Nat) a + S1x512x64.size a ≤ S1x512x1024.size a
  packedbf16_S1x512x1024_S1x512x64_0_0_640 : (Rect.unit (s := S1x512x1024) ![0, 0, 640] S1x512x64.size inb_S1x512x1024_S1x512x64_0_0_640).PackedRows (EltTy.packing .bf16)
  slices_S512x1024_o0_704_S512x64 : S512x1024.Slices ![0, 704] S512x64
  slices_S2048x1024_o0_704_S2048x64 : S2048x1024.Slices ![0, 704] S2048x64
  inb_S1x512x1024_S1x512x64_0_0_704 : ∀ a, (![0, 0, 704] : Fin 3 → Nat) a + S1x512x64.size a ≤ S1x512x1024.size a
  packedbf16_S1x512x1024_S1x512x64_0_0_704 : (Rect.unit (s := S1x512x1024) ![0, 0, 704] S1x512x64.size inb_S1x512x1024_S1x512x64_0_0_704).PackedRows (EltTy.packing .bf16)
  slices_S512x1024_o0_768_S512x64 : S512x1024.Slices ![0, 768] S512x64
  slices_S2048x1024_o0_768_S2048x64 : S2048x1024.Slices ![0, 768] S2048x64
  inb_S1x512x1024_S1x512x64_0_0_768 : ∀ a, (![0, 0, 768] : Fin 3 → Nat) a + S1x512x64.size a ≤ S1x512x1024.size a
  packedbf16_S1x512x1024_S1x512x64_0_0_768 : (Rect.unit (s := S1x512x1024) ![0, 0, 768] S1x512x64.size inb_S1x512x1024_S1x512x64_0_0_768).PackedRows (EltTy.packing .bf16)
  slices_S512x1024_o0_832_S512x64 : S512x1024.Slices ![0, 832] S512x64
  slices_S2048x1024_o0_832_S2048x64 : S2048x1024.Slices ![0, 832] S2048x64
  inb_S1x512x1024_S1x512x64_0_0_832 : ∀ a, (![0, 0, 832] : Fin 3 → Nat) a + S1x512x64.size a ≤ S1x512x1024.size a
  packedbf16_S1x512x1024_S1x512x64_0_0_832 : (Rect.unit (s := S1x512x1024) ![0, 0, 832] S1x512x64.size inb_S1x512x1024_S1x512x64_0_0_832).PackedRows (EltTy.packing .bf16)
  slices_S512x1024_o0_896_S512x64 : S512x1024.Slices ![0, 896] S512x64
  slices_S2048x1024_o0_896_S2048x64 : S2048x1024.Slices ![0, 896] S2048x64
  inb_S1x512x1024_S1x512x64_0_0_896 : ∀ a, (![0, 0, 896] : Fin 3 → Nat) a + S1x512x64.size a ≤ S1x512x1024.size a
  packedbf16_S1x512x1024_S1x512x64_0_0_896 : (Rect.unit (s := S1x512x1024) ![0, 0, 896] S1x512x64.size inb_S1x512x1024_S1x512x64_0_0_896).PackedRows (EltTy.packing .bf16)
  slices_S512x1024_o0_960_S512x64 : S512x1024.Slices ![0, 960] S512x64
  slices_S2048x1024_o0_960_S2048x64 : S2048x1024.Slices ![0, 960] S2048x64
  inb_S1x512x1024_S1x512x64_0_0_960 : ∀ a, (![0, 0, 960] : Fin 3 → Nat) a + S1x512x64.size a ≤ S1x512x1024.size a
  packedbf16_S1x512x1024_S1x512x64_0_0_960 : (Rect.unit (s := S1x512x1024) ![0, 0, 960] S1x512x64.size inb_S1x512x1024_S1x512x64_0_0_960).PackedRows (EltTy.packing .bf16)
  dot_S512x1024_S1024x1024_S512x1024_1_0_0_1_n_n_wf : DotDims.WF S512x1024 S1024x1024 S512x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .bf16 = 32 ∨ (Rect.block (s := S4096x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .bf16 = 32 ∨ (Rect.block (s := S4096x1024) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x1024.size a ≤ S2x2048x1024.size a
  hwx3_0 : ∀ i : grid3.Coords, EltTy.bits .bf16 = 32 ∨ (Rect.block (s := S2x2048x1024) S1x512x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x1024.size a ≤ S2x2048x1024.size a
  hwx3_1 : ∀ i : grid3.Coords, EltTy.bits .bf16 = 32 ∨ (Rect.block (s := S2x2048x1024) S1x2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x1024.size a ≤ S2x2048x1024.size a
  hwx3_2 : ∀ i : grid3.Coords, EltTy.bits .bf16 = 32 ∨ (Rect.block (s := S2x2048x1024) S1x2048x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x2048.size a ≤ S2x1x2048.size a
  hwx3_3 : ∀ i : grid3.Coords, EltTy.bits .f32 = 32 ∨ (Rect.block (s := S2x1x2048) S1x1x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x512x1024.size a ≤ S2x2048x1024.size a
  hwx3_4 : ∀ i : grid3.Coords, EltTy.bits .bf16 = 32 ∨ (Rect.block (s := S2x2048x1024) S1x512x1024.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S4096x1024.size a
  hwx4_0 : ∀ i : grid4.Coords, EltTy.bits .bf16 = 32 ∨ (Rect.block (s := S4096x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1024.size a ≤ S1024.size a
  hwx4_2 : ∀ i : grid4.Coords, EltTy.bits .f32 = 32 ∨ (Rect.block (s := S1024) S1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S4096x1024.size a
  hwx4_3 : ∀ i : grid4.Coords, EltTy.bits .f32 = 32 ∨ (Rect.block (s := S4096x1024) S512x1024.size (cc4_transform_3 i) (hinb4_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v4) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v10) S1x512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1x2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1x2048x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15) S1x1x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v16) S1x512x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v17) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v18) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S2x2048 : Shape := ⟨2, ![2, 2048]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x1x1x2048 : Shape := ⟨4, ![2, 1, 1, 2048]⟩
abbrev S2x16x2048 : Shape := ⟨3, ![2, 16, 2048]⟩
abbrev S2x16x2048x1 : Shape := ⟨4, ![2, 16, 2048, 1]⟩

abbrev nBuf : Space → Nat
  | .hbm => 61
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048, .i1⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S2x2048x1024, .f32⟩
  | .hbm, ⟨13, _⟩ => ⟨S1x1x1024, .f32⟩
  | .hbm, ⟨14, _⟩ => ⟨S2x2048x1024, .f32⟩
  | .hbm, ⟨15, _⟩ => ⟨S2x2048x1024, .f32⟩
  | .hbm, ⟨16, _⟩ => ⟨S2x2048x16x64, .f32⟩
  | .hbm, ⟨17, _⟩ => ⟨S2x16x2048x64, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x2048x16x64, .f32⟩
  | .hbm, ⟨23, _⟩ => ⟨S2x16x2048x64, .f32⟩
  | .hbm, ⟨24, _⟩ => ⟨S2x2048x1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S2x2048x16x64, .f32⟩
  | .hbm, ⟨29, _⟩ => ⟨S2x16x2048x64, .f32⟩
  | .hbm, ⟨30, _⟩ => ⟨S2x16x2048x2048, .f32⟩
  | .hbm, ⟨31, _⟩ => ⟨S_, .f32⟩
  | .hbm, ⟨32, _⟩ => ⟨S2x16x2048x2048, .f32⟩
  | .hbm, ⟨33, _⟩ => ⟨S2x16x2048x2048, .f32⟩
  | .hbm, ⟨34, _⟩ => ⟨S2x1x1x2048, .i1⟩
  | .hbm, ⟨35, _⟩ => ⟨S_, .f32⟩
  | .hbm, ⟨36, _⟩ => ⟨S_, .f32⟩
  | .hbm, ⟨37, _⟩ => ⟨S2x16x2048x2048, .i1⟩
  | .hbm, ⟨38, _⟩ => ⟨S2x16x2048x2048, .f32⟩
  | .hbm, ⟨39, _⟩ => ⟨S2x16x2048x2048, .f32⟩
  | .hbm, ⟨40, _⟩ => ⟨S_, .f32⟩
  | .hbm, ⟨41, _⟩ => ⟨S2x16x2048, .f32⟩
  | .hbm, ⟨42, _⟩ => ⟨S_, .f32⟩
  | .hbm, ⟨43, _⟩ => ⟨S2x16x2048, .f32⟩
  | .hbm, ⟨44, _⟩ => ⟨S2x16x2048, .f32⟩
  | .hbm, ⟨45, _⟩ => ⟨S2x16x2048x1, .f32⟩
  | .hbm, ⟨46, _⟩ => ⟨S2x16x2048x2048, .f32⟩
  | .hbm, ⟨47, _⟩ => ⟨S2x16x2048x2048, .f32⟩
  | .hbm, ⟨48, _⟩ => ⟨S2x16x2048x2048, .f32⟩
  | .hbm, ⟨49, _⟩ => ⟨S_, .f32⟩
  | .hbm, ⟨50, _⟩ => ⟨S2x16x2048, .f32⟩
  | .hbm, ⟨51, _⟩ => ⟨S2x16x2048x1, .f32⟩
  | .hbm, ⟨52, _⟩ => ⟨S2x16x2048x2048, .f32⟩
  | .hbm, ⟨53, _⟩ => ⟨S2x16x2048x2048, .f32⟩
  | .hbm, ⟨54, _⟩ => ⟨S2x16x2048x64, .f32⟩
  | .hbm, ⟨55, _⟩ => ⟨S2x2048x16x64, .f32⟩
  | .hbm, ⟨56, _⟩ => ⟨S2x2048x1024, .f32⟩
  | .hbm, ⟨57, _⟩ => ⟨S2x2048x1024, .f32⟩
  | .hbm, ⟨58, _⟩ => ⟨S1x1x1024, .f32⟩
  | .hbm, ⟨59, _⟩ => ⟨S2x2048x1024, .f32⟩
  | .hbm, ⟨60, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S2x2048_S2x1x1x2048_0_3 : S2x2048.BroadcastsInDim S2x1x1x2048 (![0, 3] : Fin 2 → Fin S2x1x1x2048.rank)
  bcast_S2x1x1x2048_S2x16x2048x2048_0_1_2_3 : S2x1x1x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.RunValue.lean ====
/-
  The idealized kernel program's run with its result named.

  The program is five kernel launches among stretches of host operations.  Folding the host operations and each
  launch's write-backs over the launch memory gives the contents of every buffer at the return; the run below says that
  every weakly fair execution terminates with the result buffer at those contents and the argument arrays unchanged.
-/
import proofs.«126842_j55808805044352_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the folded
    contents and every argument array as launched. -/
theorem run : θ_run defs (onTc (τ := τ) (main (F := F))) ⟨m, fun _ => 0, ρ⟩ (fun r => ∀ c : Dev nD,
      r.2.mem ((c.tc : Thread nD τ).loc main_v19) = W11 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v19 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.RunValue

end
-- ==== Proof.HostReads.lean ====
/-
  What the host operations between the kernel launches leave in the buffers the launches read.

  Before the first launch the host transposes the four weight matrices and flattens the three activations to
  [4096, 1024].  Between the third and fourth launch it folds the three projected activations back to [2, 2048, 1024]
  and builds the additive bias: −∞ at a masked key, 0 elsewhere, as a [2, 1, 2048] array.  Before the last launch it
  flattens the attention output, and after it folds the result back.  No host operation and no launch writes an
  argument array, a transposed weight matrix, or a buffer another launch produced.
-/
import proofs.«126842_j55808805044352_2_alg».proof.Proof.Gen.KernelIdeal.Frame
import Idealize.ShloMosaic.Lib.StableHlo.Run
import Idealize.ShloMosaic.PureOps.Ideal

noncomputable section

namespace Cert.MHA.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first launch -/

theorem w1_v4 : (W1 m ρ c (Proc.devRef .tc main_v4) : S4096x1024.Idx → EReal)
    = shapeCast S4096x1024 (m ((c : Thread nD τ).loc main_arg0)) shapeCasts_S2x2048x1024_S4096x1024 := by
  show StableHlo.after hostOps0 (W0 m ρ c) (Proc.devRef .tc main_v4) = _
  after_results <;> rfl

theorem w1_v5 : (W1 m ρ c (Proc.devRef .tc main_v5) : S4096x1024.Idx → EReal)
    = shapeCast S4096x1024 (m ((c : Thread nD τ).loc main_arg1)) shapeCasts_S2x2048x1024_S4096x1024 := by
  show StableHlo.after hostOps0 (W0 m ρ c) (Proc.devRef .tc main_v5) = _
  after_results <;> rfl

theorem w1_v6 : (W1 m ρ c (Proc.devRef .tc main_v6) : S4096x1024.Idx → EReal)
    = shapeCast S4096x1024 (m ((c : Thread nD τ).loc main_arg2)) shapeCasts_S2x2048x1024_S4096x1024 := by
  show StableHlo.after hostOps0 (W0 m ρ c) (Proc.devRef .tc main_v6) = _
  after_results <;> rfl

theorem w1_v0 : (W1 m ρ c (Proc.devRef .tc main_v0) : S1024x1024.Idx → EReal)
    = transpose S1024x1024 [1, 0] (m ((c : Thread nD τ).loc main_arg4)) transposes_S1024x1024_S1024x1024_1_0 := by
  show StableHlo.after hostOps0 (W0 m ρ c) (Proc.devRef .tc main_v0) = _
  after_results <;> rfl

theorem w1_v1 : (W1 m ρ c (Proc.devRef .tc main_v1) : S1024x1024.Idx → EReal)
    = transpose S1024x1024 [1, 0] (m ((c : Thread nD τ).loc main_arg6)) transposes_S1024x1024_S1024x1024_1_0 := by
  show StableHlo.after hostOps0 (W0 m ρ c) (Proc.devRef .tc main_v1) = _
  after_results <;> rfl

theorem w1_v2 : (W1 m ρ c (Proc.devRef .tc main_v2) : S1024x1024.Idx → EReal)
    = transpose S1024x1024 [1, 0] (m ((c : Thread nD τ).loc main_arg8)) transposes_S1024x1024_S1024x1024_1_0 := by
  show StableHlo.after hostOps0 (W0 m ρ c) (Proc.devRef .tc main_v2) = _
  after_results <;> rfl

theorem w1_v3 : (W1 m ρ c (Proc.devRef .tc main_v3) : S1024x1024.Idx → EReal)
    = transpose S1024x1024 [1, 0] (m ((c : Thread nD τ).loc main_arg10)) transposes_S1024x1024_S1024x1024_1_0 := by
  show StableHlo.after hostOps0 (W0 m ρ c) (Proc.devRef .tc main_v3) = _
  after_results <;> rfl

theorem w1_arg3 : W1 m ρ c (Proc.devRef .tc main_arg3) = m ((c : Thread nD τ).loc main_arg3) := by
  show StableHlo.after hostOps0 (W0 m ρ c) (Proc.devRef .tc main_arg3) = _
  after_results <;> rfl
theorem w1_arg5 : W1 m ρ c (Proc.devRef .tc main_arg5) = m ((c : Thread nD τ).loc main_arg5) := by
  show StableHlo.after hostOps0 (W0 m ρ c) (Proc.devRef .tc main_arg5) = _
  after_results <;> rfl
theorem w1_arg7 : W1 m ρ c (Proc.devRef .tc main_arg7) = m ((c : Thread nD τ).loc main_arg7) := by
  show StableHlo.after hostOps0 (W0 m ρ c) (Proc.devRef .tc main_arg7) = _
  after_results <;> rfl
theorem w1_arg9 : W1 m ρ c (Proc.devRef .tc main_arg9) = m ((c : Thread nD τ).loc main_arg9) := by
  show StableHlo.after hostOps0 (W0 m ρ c) (Proc.devRef .tc main_arg9) = _
  after_results <;> rfl
theorem w1_arg11 : W1 m ρ c (Proc.devRef .tc main_arg11) = m ((c : Thread nD τ).loc main_arg11) := by
  show StableHlo.after hostOps0 (W0 m ρ c) (Proc.devRef .tc main_arg11) = _
  after_results <;> rfl

/-! ## What the later launches read of the earlier contents -/

theorem w2_v5 : W2 m ρ c (Proc.devRef .tc main_v5) = W1 m ρ c (Proc.devRef .tc main_v5) := W2_of_ne m ρ c main_v5 (by decide)
theorem w2_v1 : W2 m ρ c (Proc.devRef .tc main_v1) = W1 m ρ c (Proc.devRef .tc main_v1) := W2_of_ne m ρ c main_v1 (by decide)
theorem w2_arg7 : W2 m ρ c (Proc.devRef .tc main_arg7) = W1 m ρ c (Proc.devRef .tc main_arg7) := W2_of_ne m ρ c main_arg7 (by decide)

theorem w3_v6 : W3 m ρ c (Proc.devRef .tc main_v6) = W1 m ρ c (Proc.devRef .tc main_v6) :=
  (W3_of_ne m ρ c main_v6 (by decide)).trans (W2_of_ne m ρ c main_v6 (by decide))
theorem w3_v2 : W3 m ρ c (Proc.devRef .tc main_v2) = W1 m ρ c (Proc.devRef .tc main_v2) :=
  (W3_of_ne m ρ c main_v2 (by decide)).trans (W2_of_ne m ρ c main_v2 (by decide))
theorem w3_arg9 : W3 m ρ c (Proc.devRef .tc main_arg9) = W1 m ρ c (Proc.devRef .tc main_arg9) :=
  (W3_of_ne m ρ c main_arg9 (by decide)).trans (W2_of_ne m ρ c main_arg9 (by decide))

/-- The three projections as the third launch leaves them. -/
theorem w4_v7 : W4 m ρ c (Proc.devRef .tc main_v7) = (dat0 (V1 m ρ) c).arrAt 3 cfg0.N :=
  ((W4_of_ne m ρ c main_v7 (by decide)).trans (W3_of_ne m ρ c main_v7 (by decide))).trans (W2_arr m ρ c 3)
theorem w4_v8 : W4 m ρ c (Proc.devRef .tc main_v8) = (dat1 (V2 m ρ) c).arrAt 3 cfg1.N :=
  (W4_of_ne m ρ c main_v8 (by decide)).trans (W3_arr m ρ c 3)
theorem w4_v9 : W4 m ρ c (Proc.devRef .tc main_v9) = (dat2 (V3 m ρ) c).arrAt 3 cfg2.N := W4_arr m ρ c 3
theorem w4_arg3 : W4 m ρ c (Proc.devRef .tc main_arg3) = m ((c : Thread nD τ).loc main_arg3) :=
  (((W4_of_ne m ρ c main_arg3 (by decide)).trans (W3_of_ne m ρ c main_arg3 (by decide))).trans (W2_of_ne m ρ c main_arg3 (by decide))).trans (w1_arg3 m ρ c)
theorem w4_v3 : W4 m ρ c (Proc.devRef .tc main_v3) = W1 m ρ c (Proc.devRef .tc main_v3) :=
  ((W4_of_ne m ρ c main_v3 (by decide)).trans (W3_of_ne m ρ c main_v3 (by decide))).trans (W2_of_ne m ρ c main_v3 (by decide))
theorem w4_arg11 : W4 m ρ c (Proc.devRef .tc main_arg11) = W1 m ρ c (Proc.devRef .tc main_arg11) :=
  ((W4_of_ne m ρ c main_arg11 (by decide)).trans (W3_of_ne m ρ c main_arg11 (by decide))).trans (W2_of_ne m ρ c main_arg11 (by decide))

/-! ## Before the attention launch -/

theorem w7_v10 : (W7 m ρ c (Proc.devRef .tc main_v10) : S2x2048x1024.Idx → EReal)
    = shapeCast S2x2048x1024 (W4 m ρ c (Proc.devRef .tc main_v7) : S4096x1024.Idx → EReal) shapeCasts_S4096x1024_S2x2048x1024 := by
  show StableHlo.after hostOps3_2 (StableHlo.after hostOps3_1 (StableHlo.after hostOps3 (W4 m ρ c))) (Proc.devRef .tc main_v10) = _
  after_results <;> rfl

theorem w7_v11 : (W7 m ρ c (Proc.devRef .tc main_v11) : S2x2048x1024.Idx → EReal)
    = shapeCast S2x2048x1024 (W4 m ρ c (Proc.devRef .tc main_v8) : S4096x1024.Idx → EReal) shapeCasts_S4096x1024_S2x2048x1024 := by
  show StableHlo.after hostOps3_2 (StableHlo.after hostOps3_1 (StableHlo.after hostOps3 (W4 m ρ c))) (Proc.devRef .tc main_v11) = _
  after_results <;> rfl

theorem w7_v12 : (W7 m ρ c (Proc.devRef .tc main_v12) : S2x2048x1024.Idx → EReal)
    = shapeCast S2x2048x1024 (W4 m ρ c (Proc.devRef .tc main_v9) : S4096x1024.Idx → EReal) shapeCasts_S4096x1024_S2x2048x1024 := by
  show StableHlo.after hostOps3_2 (StableHlo.after hostOps3_1 (StableHlo.after hostOps3 (W4 m ρ c))) (Proc.devRef .tc main_v12) = _
  after_results <;> rfl

/-- The additive bias: the mask selects the −∞ word or the zero word, and the [2, 2048] result is recast to
    [2, 1, 2048]. -/
theorem w7_v15 : (W7 m ρ c (Proc.devRef .tc main_v15) : S2x1x2048.Idx → EReal)
    = shapeCast S2x1x2048 (select (W4 m ρ c (Proc.devRef .tc main_arg3) : S2x2048.Idx → BitVec 1)
        (broadcastInDim S2x2048 ![] bcast_S_S2x2048 (constant (F := Ideal) S_ .f32 0xFF800000#32))
        (broadcastInDim S2x2048 ![] bcast_S_S2x2048 (constant (F := Ideal) S_ .f32 0x00000000#32))) shapeCasts_S2x2048_S2x1x2048 := by
  show StableHlo.after hostOps3_2 (StableHlo.after hostOps3_1 (StableHlo.after hostOps3 (W4 m ρ c))) (Proc.devRef .tc main_v15) = _
  after_results <;> rfl

theorem w7_v3 : W7 m ρ c (Proc.devRef .tc main_v3) = W4 m ρ c (Proc.devRef .tc main_v3) := by
  show StableHlo.after hostOps3_2 (StableHlo.after hostOps3_1 (StableHlo.after hostOps3 (W4 m ρ c))) (Proc.devRef .tc main_v3) = _
  after_results <;> rfl
theorem w7_arg11 : W7 m ρ c (Proc.devRef .tc main_arg11) = W4 m ρ c (Proc.devRef .tc main_arg11) := by
  show StableHlo.after hostOps3_2 (StableHlo.after hostOps3_1 (StableHlo.after hostOps3 (W4 m ρ c))) (Proc.devRef .tc main_arg11) = _
  after_results <;> rfl

/-! ## Before and after the last launch -/

theorem w9_v17 : (W9 m ρ c (Proc.devRef .tc main_v17) : S4096x1024.Idx → EReal)
    = shapeCast S4096x1024 ((dat3 (V7 m ρ) c).arrAt 4 cfg3.N : S2x2048x1024.Idx → EReal) shapeCasts_S2x2048x1024_S4096x1024 := by
  show StableHlo.after hostOps4 (W8 m ρ c) (Proc.devRef .tc main_v17) = _
  after_results
  rw [show W8 m ρ c (Proc.devRef .tc main_v16) = (dat3 (V7 m ρ) c).arrAt 4 cfg3.N from W8_arr m ρ c 4]
  rfl

theorem w9_v3 : W9 m ρ c (Proc.devRef .tc main_v3) = W1 m ρ c (Proc.devRef .tc main_v3) := by
  have h : W9 m ρ c (Proc.devRef .tc main_v3) = W8 m ρ c (Proc.devRef .tc main_v3) := by
    show StableHlo.after hostOps4 (W8 m ρ c) (Proc.devRef .tc main_v3) = _
    after_results <;> rfl
  exact ((h.trans (W8_of_ne m ρ c main_v3 (by decide))).trans (w7_v3 m ρ c)).trans (w4_v3 m ρ c)

theorem w9_arg11 : W9 m ρ c (Proc.devRef .tc main_arg11) = m ((c : Thread nD τ).loc main_arg11) := by
  have h : W9 m ρ c (Proc.devRef .tc main_arg11) = W8 m ρ c (Proc.devRef .tc main_arg11) := by
    show StableHlo.after hostOps4 (W8 m ρ c) (Proc.devRef .tc main_arg11) = _
    after_results <;> rfl
  exact (((h.trans (W8_of_ne m ρ c main_arg11 (by decide))).trans (w7_arg11 m ρ c)).trans (w4_arg11 m ρ c)).trans (w1_arg11 m ρ c)

theorem w11_v19 : (W11 m ρ c (Proc.devRef .tc main_v19) : S2x2048x1024.Idx → EReal)
    = shapeCast S2x2048x1024 ((dat4 (V9 m ρ) c).arrAt 3 cfg4.N : S4096x1024.Idx → EReal) shapeCasts_S4096x1024_S2x2048x1024 := by
  show StableHlo.after hostOps5 (W10 m ρ c) (Proc.devRef .tc main_v19) = _
  after_results
  rw [show W10 m ρ c (Proc.devRef .tc main_v18) = (dat4 (V9 m ρ) c).arrAt 3 cfg4.N from W10_arr m ρ c 3]
  rfl

end Cert.MHA.Chain

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«126842_j55808805044352_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibDenseRows.lean ====
/-
  Dense layers and a row-wise softmax, read one row at a time on the extended reals.

  A dense layer sends a row x to x Wᵀ + b: entry f is the sum over d of x d · W f d, plus b f.  A graph layer adds a
  second product and a tanh: entry f is tanh ((∑ a d · Wl f d) + bl f + ∑ h d · Wr f d), the sum associated in that
  order.  A softmax sends a row l to exp (l q − m) / ∑ exp (l k − m) with m the maximum of the row (taken once more
  against −∞, which changes nothing).  On the extended reals a change of float format is the identity, a matrix product
  accumulated into zero is the plain sum of products, a reduction along the last axis is the sum or supremum over that
  axis, and the layout operations only move coordinates.  So each of these, written with a kernel's vector operations on
  an [M, ·] block or with the host's operations on an [M, ·] array, is at (p, f) the row function of row p: the lemmas
  below say so for any extents M, K, N.
-/
import Idealize.ShloMosaic.PureOps.Ideal.Laws
import Idealize.ShloMosaic.Lib.ValueIdx
import Idealize.ShloMosaic.Lib.ValueLayout
import Idealize.ShloMosaic.Lib.Pipeline.Value
import proofs.«126842_j55808805044352_2_alg».proof.Proof.LibInnerProducts
import proofs.«126842_j55808805044352_2_alg».proof.Proof.LibInDimRow
import proofs.«126842_j55808805044352_2_alg».proof.Proof.LibKeepdims
import proofs.«126842_j55808805044352_2_alg».proof.Proof.LibInDimLayout
import proofs.«126842_j55808805044352_2_alg».proof.Proof.LibExtremeReduce

noncomputable section

namespace Cert.DenseRows

open Idealize.ShloMosaic Idealize.ShloMosaic.ValueIdx
open scoped BigOperators

/-! ## The row functions -/

/-- A dense layer on one row: entry f of x Wᵀ + b. -/
def dense {K N : ℕ} (x : Fin K → EReal) (W : Fin N → Fin K → EReal) (b : Fin N → EReal) (f : Fin N) : EReal :=
  (∑ d : Fin K, x d * W f d) + b f

/-- A graph layer on one node: tanh of (a Wlᵀ + bl) + h Wrᵀ, at entry f. -/
def sage {K N : ℕ} (a h : Fin K → EReal) (Wl : Fin N → Fin K → EReal) (bl : Fin N → EReal) (Wr : Fin N → Fin K → EReal)
    (f : Fin N) : EReal :=
  Ideal.tanh (((∑ d : Fin K, a d * Wl f d) + bl f) + ∑ d : Fin K, h d * Wr f d)

/-- The softmax of one row, the row maximum taken once more against −∞. -/
def softmax {n : ℕ} (l : Fin n → EReal) (q : Fin n) : EReal :=
  Ideal.div (Ideal.exp (l q - max ⊥ (⨆ k : Fin n, l k))) (∑ k : Fin n, Ideal.exp (l k - max ⊥ (⨆ j : Fin n, l j)))

/-! ## A product against a transposed weight matrix -/

/-- An [M, K] block times the transpose of an [N, K] matrix, accumulated into zero: at (p, f) the sum over d of
    a (p, d) · w (f, d). -/
theorem matmulT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    matmul D prec a (transpose ⟨2, ![K, N]⟩ [1, 0] w ht) (constant (F := Ideal) ⟨2, ![M, N]⟩ .f32 0x00000000#32) (ix2 p f)
      = ∑ d : Fin K, a (ix2 p d) * w (ix2 f d) :=
  (InnerProducts.matmul_zero_apply D hD prec a (transpose ⟨2, ![K, N]⟩ [1, 0] w ht) p f).trans
    (Finset.sum_congr rfl fun d _ => congrArg (a (ix2 p d) * ·) (transpose_ix2_apply w ht d f))

/-- The host's product of an [M, K] array with the transpose of an [N, K] matrix: the same sum. -/
theorem dotGeneralT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    Host.dotGeneral D prec a (transpose ⟨2, ![K, N]⟩ [1, 0] w ht) (ix2 p f) = ∑ d : Fin K, a (ix2 p d) * w (ix2 f d) :=
  (InnerProducts.dotGeneral_apply D hD prec a (transpose ⟨2, ![K, N]⟩ [1, 0] w ht) p f).trans
    (Finset.sum_congr rfl fun d _ => congrArg (a (ix2 p d) * ·) (transpose_ix2_apply w ht d f))

/-! ## A bias row spread over the rows -/

/-- A vector [N] cast to a row [1, N] and broadcast over M rows reads entry f at (p, f). -/
theorem biasRow_apply {M N : ℕ} {α : Type} (b : (⟨1, ![N]⟩ : Shape).Idx → α) (hc : (⟨1, ![N]⟩ : Shape).ShapeCasts ⟨2, ![1, N]⟩)
    (hb : (⟨2, ![1, N]⟩ : Shape).Broadcasts ⟨2, ![M, N]⟩) (p : Fin M) (f : Fin N) :
    broadcastTo ⟨2, ![M, N]⟩ (shapeCast ⟨2, ![1, N]⟩ b hc) hb (ix2 p f) = b (ix1 f) :=
  (broadcastTo_1b_ab_apply _ hb p f).trans (shapeCast_a_1a_apply b hc 0 f)

/-- The host's two broadcasts of a bias vector [N] to [1, N] and on to [M, N] read entry f at (p, f). -/
theorem biasRowHost_apply {M N : ℕ} {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    broadcastInDim ⟨2, ![M, N]⟩ ![0, 1] h2 (broadcastInDim ⟨2, ![1, N]⟩ ![1] h1 b) (ix2 p f) = b (ix1 f) :=
  (Cert.LibInDimRow.inDim_1b_ab_apply _ h2 p f).trans (Cert.LibInDimRow.inDim_b_1b_apply b h1 0 f)

/-! ## A dense layer -/

/-- A kernel's dense layer on a block X (of any float format): X times the transposed, format-changed weights into
    zero, plus the bias row. -/
theorem dense_kernel_apply {M K N : ℕ} {φ : FTy} (D : DotDims ⟨2, ![M, K]⟩ ⟨2, ![K, N]⟩ ⟨2, ![M, N]⟩)
    (hD : D = DotDims.plain M K N) (X : FVec Ideal ⟨2, ![M, K]⟩ φ) (w : FVec Ideal ⟨2, ![N, K]⟩ .f32)
    (b : FVec Ideal ⟨1, ![N]⟩ .f32) (hbits : FTy.bf16.bits < FTy.f32.bits)
    (ht : (⟨2, ![N, K]⟩ : Shape).Transposes [1, 0] ⟨2, ![K, N]⟩) (hc : (⟨1, ![N]⟩ : Shape).ShapeCasts ⟨2, ![1, N]⟩)
    (hb : (⟨2, ![1, N]⟩ : Shape).Broadcasts ⟨2, ![M, N]⟩) (p : Fin M) (f : Fin N) :
    addf (matmul D none X (transpose ⟨2, ![K, N]⟩ [1, 0] (truncf .bf16 w hbits) ht)
        (constant (F := Ideal) ⟨2, ![M, N]⟩ .f32 0x00000000#32))
      (broadcastTo ⟨2, ![M, N]⟩ (shapeCast ⟨2, ![1, N]⟩ b hc) hb) (ix2 p f)
      = dense (fun d => (X (ix2 p d) : EReal)) (fun f d => w (ix2 f d)) (fun f => b (ix1 f)) f := by
  show _ + _ = _
  rw [matmulT_apply D hD none X (truncf .bf16 w hbits) ht p f, biasRow_apply b hc hb p f]
  rfl

/-- The host's dense layer on an array X. -/
theorem dense_host_apply {M K N : ℕ} (D : DotDims ⟨2, ![M, K]⟩ ⟨2, ![K, N]⟩ ⟨2, ![M, N]⟩)
    (hD : D = DotDims.plain M K N) (X : FVec Ideal ⟨2, ![M, K]⟩ .f32) (w : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    addf (Host.dotGeneral D none X (transpose ⟨2, ![K, N]⟩ [1, 0] w ht))
      (broadcastInDim ⟨2, ![M, N]⟩ ![0, 1] h2 (broadcastInDim ⟨2, ![1, N]⟩ ![1] h1 b)) (ix2 p f)
      = dense (fun d => X (ix2 p d)) (fun f d => w (ix2 f d)) (fun f => b (ix1 f)) f := by
  show _ + _ = _
  rw [dotGeneralT_apply D hD none X w ht p f, biasRowHost_apply b h1 h2 p f]
  rfl

/-! ## A graph layer -/

/-- A kernel's graph layer on two [M, K] blocks. -/
theorem sage_kernel_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (hs : (⟨2, ![M, K]⟩ : Shape).ShapeCasts ⟨2, ![M, K]⟩)
    (hbits : FTy.bf16.bits < FTy.f32.bits) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩)
    (p : Fin M) (f : Fin N) :
    tanh (addf (addf (matmul D none (truncf .bf16 (shapeCast ⟨2, ![M, K]⟩ x hs) hbits)
            (transpose ⟨2, ![K, N]⟩ [1, 0] (truncf .bf16 wl hbits) ht) (constant (F := Ideal) ⟨2, ![M, N]⟩ .f32 0x00000000#32))
          (broadcastTo ⟨2, ![M, N]⟩ (shapeCast ⟨2, ![1, N]⟩ b hc) hb))
        (matmul D none (truncf .bf16 (shapeCast ⟨2, ![M, K]⟩ y hs) hbits)
          (transpose ⟨2, ![K, N]⟩ [1, 0] (truncf .bf16 wr hbits) ht) (constant (F := Ideal) ⟨2, ![M, N]⟩ .f32 0x00000000#32)))
      (ix2 p f)
      = sage (fun d => x (ix2 p d)) (fun d => y (ix2 p d)) (fun f d => wl (ix2 f d)) (fun f => b (ix1 f))
          (fun f d => wr (ix2 f d)) f := by
  show Ideal.tanh ((_ + _) + _) = _
  rw [matmulT_apply D hD none (truncf .bf16 (shapeCast ⟨2, ![M, K]⟩ x hs) hbits) (truncf .bf16 wl hbits) ht p f,
    matmulT_apply D hD none (truncf .bf16 (shapeCast ⟨2, ![M, K]⟩ y hs) hbits) (truncf .bf16 wr hbits) ht p f,
    biasRow_apply b hc hb p f, shapeCast_self x hs, shapeCast_self y hs]
  rfl

/-- The host's graph layer on two [M, K] arrays. -/
theorem sage_host_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    Host.tanh (addf (addf (Host.dotGeneral D none x (transpose ⟨2, ![K, N]⟩ [1, 0] wl ht))
          (broadcastInDim ⟨2, ![M, N]⟩ ![0, 1] h2 (broadcastInDim ⟨2, ![1, N]⟩ ![1] h1 b)))
        (Host.dotGeneral D none y (transpose ⟨2, ![K, N]⟩ [1, 0] wr ht))) (ix2 p f)
      = sage (fun d => x (ix2 p d)) (fun d => y (ix2 p d)) (fun f d => wl (ix2 f d)) (fun f => b (ix1 f))
          (fun f d => wr (ix2 f d)) f := by
  show Ideal.tanh ((_ + _) + _) = _
  rw [dotGeneralT_apply D hD none x wl ht p f, dotGeneralT_apply D hD none y wr ht p f, biasRowHost_apply b h1 h2 p f]
  rfl

end Cert.DenseRows

end
-- ==== Proof.LinBlock.lean ====
/-
  A linear-layer kernel's block, read at an index.

  Each of the four linear kernels loads a [512, 1024] block x of rows, the whole [1024, 1024] matrix w (already
  transposed: row d, column f) and the whole bias b, and stores x · w + b.  On the extended reals a change of float
  format is the identity and a matrix product into the zero accumulator is the plain sum of products, so the stored
  block holds, at row p and column f, (∑ d, x(p,d) · w(d,f)) + b(f).
-/
import proofs.«126842_j55808805044352_2_alg».proof.Proof.Gen.KernelIdeal.Frame
import proofs.«126842_j55808805044352_2_alg».proof.Proof.LibInnerProducts
import proofs.«126842_j55808805044352_2_alg».proof.Proof.LibDenseRows
import Idealize.ShloMosaic.Lib.Pipeline.Value
import Idealize.ShloMosaic.Lib.ValueIdx
import Idealize.ShloMosaic.Lib.ValueLayout

noncomputable section

namespace Cert.MHA.LinBlock

open Cert.KernelIdeal Cert.KernelIdeal.Gen
open Idealize.ShloMosaic Idealize.ShloMosaic.ValueIdx
open scoped BigOperators

theorem hz2 : (![0, 0] : Fin 2 → Nat) = fun _ => 0 := funext fun a => by fin_cases a <;> rfl
theorem hz1 : (![0] : Fin 1 → Nat) = fun _ => 0 := funext fun a => by fin_cases a; rfl

/-- x · w + b at (p, f), for a block of any float format. -/
theorem xwb_apply {φ : FTy} (x : FVec Ideal S512x1024 φ) (w : FVec Ideal S1024x1024 .f32) (b : FVec Ideal S1024 .f32)
    (p : Fin 512) (f : Fin 1024) :
    addf (matmul dot_S512x1024_S1024x1024_S512x1024_1_0_0_1_n_n none x w (constant (F := Ideal) S512x1024 .f32 0x00000000#32))
        (broadcastTo S512x1024 (shapeCast S1x1024 b shapeCasts_S1024_S1x1024) broadcasts_S1x1024_S512x1024) (ix2 p f)
      = (∑ d : Fin 1024, x (ix2 p d) * w (ix2 d f)) + b (ix1 f) := by
  show _ + _ = _
  rw [InnerProducts.matmul_zero_apply dot_S512x1024_S1024x1024_S512x1024_1_0_0_1_n_n rfl none x w p f,
    Cert.DenseRows.biasRow_apply b shapeCasts_S1024_S1x1024 broadcasts_S1x1024_S512x1024 p f]

theorem pay0_apply (x : Vec Ideal S512x1024 .f32) (w : Vec Ideal S1024x1024 .f32) (b : Vec Ideal S1024 .f32) (p : Fin 512) (f : Fin 1024) :
    k0_pay1 (F := Ideal) x w b (ix2 p f) = (∑ d : Fin 1024, x (ix2 p d) * w (ix2 d f)) + b (ix1 f) := by
  unfold k0_pay1
  rw [shapeCast_self, shapeCast_self]
  exact xwb_apply x w b p f

theorem pay1_apply (x : Vec Ideal S512x1024 .f32) (w : Vec Ideal S1024x1024 .f32) (b : Vec Ideal S1024 .f32) (p : Fin 512) (f : Fin 1024) :
    k1_pay1 (F := Ideal) x w b (ix2 p f) = (∑ d : Fin 1024, x (ix2 p d) * w (ix2 d f)) + b (ix1 f) := by
  unfold k1_pay1
  rw [shapeCast_self, shapeCast_self]
  exact xwb_apply x w b p f

theorem pay2_apply (x : Vec Ideal S512x1024 .f32) (w : Vec Ideal S1024x1024 .f32) (b : Vec Ideal S1024 .f32) (p : Fin 512) (f : Fin 1024) :
    k2_pay1 (F := Ideal) x w b (ix2 p f) = (∑ d : Fin 1024, x (ix2 p d) * w (ix2 d f)) + b (ix1 f) := by
  unfold k2_pay1
  rw [shapeCast_self, shapeCast_self]
  exact xwb_apply x w b p f

theorem pay4_apply (x : Vec Ideal S512x1024 .bf16) (w : Vec Ideal S1024x1024 .f32) (b : Vec Ideal S1024 .f32) (p : Fin 512) (f : Fin 1024) :
    k4_pay1 (F := Ideal) x w b (ix2 p f) = (∑ d : Fin 1024, x (ix2 p d) * w (ix2 d f)) + b (ix1 f) := by
  unfold k4_pay1
  rw [shapeCast_self, shapeCast_self]
  exact xwb_apply (extf .f32 x bitsLt_bf16_f32) w b p f

/-- The block a linear kernel leaves, at (p, f). -/
theorem out0_apply (x : Vec Ideal S512x1024 .f32) (w : Vec Ideal S1024x1024 .f32) (b : Vec Ideal S1024 .f32) (p : Fin 512) (f : Fin 1024) :
    out0_3 (F := Ideal) x w b (ix2 p f) = (∑ d : Fin 1024, x (ix2 p d) * w (ix2 d f)) + b (ix1 f) := by
  unfold out0_3
  rw [View.canon_unit_zero hz2]
  simp only [View.ld_unit_zero (S := S512x1024) hz2, View.ld_unit_zero (S := S1024x1024) hz2, View.ld_unit_zero (S := S1024) hz1]
  exact pay0_apply x w b p f

theorem out1_apply (x : Vec Ideal S512x1024 .f32) (w : Vec Ideal S1024x1024 .f32) (b : Vec Ideal S1024 .f32) (p : Fin 512) (f : Fin 1024) :
    out1_3 (F := Ideal) x w b (ix2 p f) = (∑ d : Fin 1024, x (ix2 p d) * w (ix2 d f)) + b (ix1 f) := by
  unfold out1_3
  rw [View.canon_unit_zero hz2]
  simp only [View.ld_unit_zero (S := S512x1024) hz2, View.ld_unit_zero (S := S1024x1024) hz2, View.ld_unit_zero (S := S1024) hz1]
  exact pay1_apply x w b p f

theorem out2_apply (x : Vec Ideal S512x1024 .f32) (w : Vec Ideal S1024x1024 .f32) (b : Vec Ideal S1024 .f32) (p : Fin 512) (f : Fin 1024) :
    out2_3 (F := Ideal) x w b (ix2 p f) = (∑ d : Fin 1024, x (ix2 p d) * w (ix2 d f)) + b (ix1 f) := by
  unfold out2_3
  rw [View.canon_unit_zero hz2]
  simp only [View.ld_unit_zero (S := S512x1024) hz2, View.ld_unit_zero (S := S1024x1024) hz2, View.ld_unit_zero (S := S1024) hz1]
  exact pay2_apply x w b p f

theorem out4_apply (x : Vec Ideal S512x1024 .bf16) (w : Vec Ideal S1024x1024 .f32) (b : Vec Ideal S1024 .f32) (p : Fin 512) (f : Fin 1024) :
    out4_3 (F := Ideal) x w b (ix2 p f) = (∑ d : Fin 1024, x (ix2 p d) * w (ix2 d f)) + b (ix1 f) := by
  unfold out4_3
  rw [View.canon_unit_zero hz2]
  simp only [View.ld_unit_zero (S := S512x1024) hz2, View.ld_unit_zero (S := S1024x1024) hz2, View.ld_unit_zero (S := S1024) hz1]
  exact pay4_apply x w b p f

end Cert.MHA.LinBlock

end
-- ==== Proof.Glin.lean ====
/-
  A linear layer's output array and its blocks.

  The output of x · w + b over a [4096, 1024] activation is, at (r, f), (∑ d, X(r,d) · W(d,f)) + B(f).  A [512, 1024]
  block computed from rows 512·t … 512·t + 511 of X and the whole of W and B is the block of that array at the same
  rows.
-/
import Idealize.ShloMosaic.PureOps.Ideal
import Idealize.ShloMosaic.Lib.ValueIdx

noncomputable section

namespace Cert.MHA

open Idealize.ShloMosaic Idealize.ShloMosaic.ValueIdx
open scoped BigOperators

/-- X · W + B at an index of a [4096, 1024] array. -/
def Glin (X : (⟨2, ![4096, 1024]⟩ : Shape).Idx → EReal) (W : (⟨2, ![1024, 1024]⟩ : Shape).Idx → EReal)
    (B : (⟨1, ![1024]⟩ : Shape).Idx → EReal) : (⟨2, ![4096, 1024]⟩ : Shape).Idx → EReal := fun k =>
  (∑ d : Fin 1024, X (ix2 (k 0) d) * W (ix2 d (k 1))) + B (ix1 (k 1))

/-- A [512, 1024] block that holds x · w + b, where x is rows 512·t … of X and w, b are W, B, is the block of
    Glin X W B at rows 512·t …. -/
theorem Glin_block (o : (⟨2, ![512, 1024]⟩ : Shape).Idx → EReal) (x : (⟨2, ![512, 1024]⟩ : Shape).Idx → EReal)
    (w : (⟨2, ![1024, 1024]⟩ : Shape).Idx → EReal) (b : (⟨1, ![1024]⟩ : Shape).Idx → EReal)
    (ho : ∀ (p : Fin 512) (f : Fin 1024), o (ix2 p f) = (∑ d : Fin 1024, x (ix2 p d) * w (ix2 d f)) + b (ix1 f))
    (X : (⟨2, ![4096, 1024]⟩ : Shape).Idx → EReal) (W : (⟨2, ![1024, 1024]⟩ : Shape).Idx → EReal)
    (B : (⟨1, ![1024]⟩ : Shape).Idx → EReal) (t : Nat)
    (hx : ∀ (p : Fin 512) (d : Fin 1024) (r : Fin 4096), r.val = 512 * t + p.val → x (ix2 p d) = X (ix2 r d))
    (hw : ∀ (d f : Fin 1024), w (ix2 d f) = W (ix2 d f)) (hb : ∀ f : Fin 1024, b (ix1 f) = B (ix1 f))
    (y : (⟨2, ![512, 1024]⟩ : Shape).Idx) (k : (⟨2, ![4096, 1024]⟩ : Shape).Idx)
    (hk0 : (k 0).val = 512 * t + (y 0).val) (hk1 : (k 1).val = (y 1).val) :
    o y = Glin X W B k := by
  obtain ⟨p, f, rfl⟩ : ∃ (p : Fin 512) (f : Fin 1024), y = ix2 p f := ⟨y 0, y 1, eq_ix2 y⟩
  obtain ⟨r, g, rfl⟩ : ∃ (r : Fin 4096) (g : Fin 1024), k = ix2 r g := ⟨k 0, k 1, eq_ix2 k⟩
  have hfg : f = g := (Fin.ext hk1).symm
  subst hfg
  rw [ho p f]
  unfold Glin
  show _ = (∑ d : Fin 1024, X (ix2 r d) * W (ix2 d f)) + B (ix1 f)
  rw [hb f]
  refine congrArg (· + B (ix1 f)) (Finset.sum_congr rfl fun d _ => ?_)
  rw [hx p d r hk0, hw d f]

end Cert.MHA

end
-- ==== Proof.Reg0.lean ====
/-
  The first linear kernel, from its blocks to its output array.

  Grid point t loads rows 512·t … 512·t + 511 of the [4096, 1024] activation, the whole weight matrix and the whole
  bias, and writes rows 512·t … 512·t + 511 of the output.  The eight points' blocks tile the output, so after the
  launch the output array is (∑ d, X(r,d) · W(d,f)) + B(f) at every (r, f), X, W, B the arrays as the launch finds them.
-/
import proofs.«126842_j55808805044352_2_alg».proof.Proof.LinBlock
import proofs.«126842_j55808805044352_2_alg».proof.Proof.Glin

noncomputable section

namespace Cert.MHA.Reg0

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The printed index maps over the grid: the activation and output blocks move with the point, the rest stay. -/
theorem idx : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

theorem xblk (c : Dev nD) (t : Fin cfg0.N) (p : Fin 512) (d : Fin 1024) (r : Fin 4096) (hr : r.val = 512 * t.val + p.val) :
    (iblk0 V c 0 t : Vec Ideal S512x1024 .f32) (ix2 p d) = (V c main_v4 : S4096x1024.Idx → EReal) (ix2 r d) := by
  obtain ⟨e0, e1, -⟩ := idx t
  unfold iblk0
  rw [View.read_apply]
  show V c main_v4 _ = V c main_v4 _
  congr 1
  funext a
  apply Fin.ext
  match a with
  | ⟨0, _⟩ => show win0_0.index t 0 * 512 + 1 * p.val = r.val; rw [e0, hr]; omega
  | ⟨1, _⟩ => show win0_0.index t 1 * 1024 + 1 * d.val = d.val; rw [e1]; omega

theorem wblk (c : Dev nD) (t : Fin cfg0.N) (d f : Fin 1024) :
    (iblk0 V c 1 t : Vec Ideal S1024x1024 .f32) (ix2 d f) = (V c main_v0 : S1024x1024.Idx → EReal) (ix2 d f) := by
  obtain ⟨-, -, e2, e3, -⟩ := idx t
  unfold iblk0
  rw [View.read_apply]
  show V c main_v0 _ = V c main_v0 _
  congr 1
  funext a
  apply Fin.ext
  match a with
  | ⟨0, _⟩ => show win0_1.index t 0 * 1024 + 1 * d.val = d.val; rw [e2]; omega
  | ⟨1, _⟩ => show win0_1.index t 1 * 1024 + 1 * f.val = f.val; rw [e3]; omega

theorem bblk (c : Dev nD) (t : Fin cfg0.N) (f : Fin 1024) :
    (iblk0 V c 2 t : Vec Ideal S1024 .f32) (ix1 f) = (V c main_arg5 : S1024.Idx → EReal) (ix1 f) := by
  obtain ⟨-, -, -, -, e4, -⟩ := idx t
  unfold iblk0
  rw [View.read_apply]
  show V c main_arg5 _ = V c main_arg5 _
  congr 1
  funext a
  apply Fin.ext
  match a with
  | ⟨0, _⟩ => show win0_2.index t 0 * 1024 + 1 * f.val = f.val; rw [e4]; omega

/-- What point t writes back is block t of the layer's output. -/
theorem flushed_eq (c : Dev nD) (t : Fin cfg0.N) :
    (dat0 V c).flushed 3 t = ((cfg0.win 3).blk t).view.read (Elt Ideal) (Glin (V c main_v4) (V c main_v0) (V c main_arg5)) := by
  obtain ⟨-, -, -, -, -, e5, e6⟩ := idx t
  show (cfg0.win 3).cut (grid0.coords t) ((dat0 V c).after 3 t) = _
  rw [after0_3]
  funext y
  rw [View.read_apply]
  refine Glin_block _ (iblk0 V c 0 t) (iblk0 V c 1 t) (iblk0 V c 2 t) (LinBlock.out0_apply _ _ _) _ _ _ t.val
    (xblk V c t) (wblk V c t) (bblk V c t) y _ ?_ ?_
  · show win0_3.index t 0 * 512 + 1 * (y 0).val = 512 * t.val + (y 0).val; rw [e5]; omega
  · show win0_3.index t 1 * 1024 + 1 * (y 1).val = (y 1).val; rw [e6]; omega

theorem mem_blk (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v7).slice (win0_3.rect t)).set ↔ _
  rw [View.set_slice_whole, Rect.mem_set_unit]
  exact Iff.rfl

/-- The output array after the launch. -/
theorem final (c : Dev nD) : (dat0 V c).arrAt 3 cfg0.N = Glin (V c main_v4) (V c main_v0) (V c main_arg5) :=
  (dat0 V c).arrAt_eq_of_cover 3 _ (fun t _ => flushed_eq V c t) fun i => by
    have hi0 : (i 0).val < 4096 := (i 0).isLt
    have hi1 : (i 1).val < 1024 := (i 1).isLt
    have hN : cfg0.N = 8 := N_0
    refine ⟨⟨(i 0).val / 512, by rw [hN]; omega⟩, flush0_3 _, ?_⟩
    rw [mem_blk]
    obtain ⟨-, -, -, -, -, e5, e6⟩ := idx ⟨(i 0).val / 512, by rw [hN]; omega⟩
    intro a
    match a with
    | ⟨0, _⟩ => show win0_3.index _ 0 * 512 ≤ (i 0).val ∧ (i 0).val < win0_3.index _ 0 * 512 + 512; rw [e5]; show (i 0).val / 512 * 512 ≤ (i 0).val ∧ (i 0).val < (i 0).val / 512 * 512 + 512; omega
    | ⟨1, _⟩ => show win0_3.index _ 1 * 1024 ≤ (i 1).val ∧ (i 1).val < win0_3.index _ 1 * 1024 + 1024; rw [e6]; omega

end Cert.MHA.Reg0

end
-- ==== Proof.Reg1.lean ====
/-
  The second linear kernel (the key projection), from its blocks to its output array.

  Grid point t loads rows 512·t … 512·t + 511 of the [4096, 1024] activation, the whole weight matrix and the whole
  bias, and writes rows 512·t … 512·t + 511 of the output.  The eight points' blocks tile the output, so after the
  launch the output array is (∑ d, X(r,d) · W(d,f)) + B(f) at every (r, f), X, W, B the arrays as the launch finds them.
-/
import proofs.«126842_j55808805044352_2_alg».proof.Proof.LinBlock
import proofs.«126842_j55808805044352_2_alg».proof.Proof.Glin

noncomputable section

namespace Cert.MHA.Reg1

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The printed index maps over the grid: the activation and output blocks move with the point, the rest stay. -/
theorem idx : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

theorem xblk (c : Dev nD) (t : Fin cfg1.N) (p : Fin 512) (d : Fin 1024) (r : Fin 4096) (hr : r.val = 512 * t.val + p.val) :
    (iblk1 V c 0 t : Vec Ideal S512x1024 .f32) (ix2 p d) = (V c main_v5 : S4096x1024.Idx → EReal) (ix2 r d) := by
  obtain ⟨e0, e1, -⟩ := idx t
  unfold iblk1
  rw [View.read_apply]
  show V c main_v5 _ = V c main_v5 _
  congr 1
  funext a
  apply Fin.ext
  match a with
  | ⟨0, _⟩ => show win1_0.index t 0 * 512 + 1 * p.val = r.val; rw [e0, hr]; omega
  | ⟨1, _⟩ => show win1_0.index t 1 * 1024 + 1 * d.val = d.val; rw [e1]; omega

theorem wblk (c : Dev nD) (t : Fin cfg1.N) (d f : Fin 1024) :
    (iblk1 V c 1 t : Vec Ideal S1024x1024 .f32) (ix2 d f) = (V c main_v1 : S1024x1024.Idx → EReal) (ix2 d f) := by
  obtain ⟨-, -, e2, e3, -⟩ := idx t
  unfold iblk1
  rw [View.read_apply]
  show V c main_v1 _ = V c main_v1 _
  congr 1
  funext a
  apply Fin.ext
  match a with
  | ⟨0, _⟩ => show win1_1.index t 0 * 1024 + 1 * d.val = d.val; rw [e2]; omega
  | ⟨1, _⟩ => show win1_1.index t 1 * 1024 + 1 * f.val = f.val; rw [e3]; omega

theorem bblk (c : Dev nD) (t : Fin cfg1.N) (f : Fin 1024) :
    (iblk1 V c 2 t : Vec Ideal S1024 .f32) (ix1 f) = (V c main_arg7 : S1024.Idx → EReal) (ix1 f) := by
  obtain ⟨-, -, -, -, e4, -⟩ := idx t
  unfold iblk1
  rw [View.read_apply]
  show V c main_arg7 _ = V c main_arg7 _
  congr 1
  funext a
  apply Fin.ext
  match a with
  | ⟨0, _⟩ => show win1_2.index t 0 * 1024 + 1 * f.val = f.val; rw [e4]; omega

/-- What point t writes back is block t of the layer's output. -/
theorem flushed_eq (c : Dev nD) (t : Fin cfg1.N) :
    (dat1 V c).flushed 3 t = ((cfg1.win 3).blk t).view.read (Elt Ideal) (Glin (V c main_v5) (V c main_v1) (V c main_arg7)) := by
  obtain ⟨-, -, -, -, -, e5, e6⟩ := idx t
  show (cfg1.win 3).cut (grid1.coords t) ((dat1 V c).after 3 t) = _
  rw [after1_3]
  funext y
  rw [View.read_apply]
  refine Glin_block _ (iblk1 V c 0 t) (iblk1 V c 1 t) (iblk1 V c 2 t) (LinBlock.out1_apply _ _ _) _ _ _ t.val
    (xblk V c t) (wblk V c t) (bblk V c t) y _ ?_ ?_
  · show win1_3.index t 0 * 512 + 1 * (y 0).val = 512 * t.val + (y 0).val; rw [e5]; omega
  · show win1_3.index t 1 * 1024 + 1 * (y 1).val = (y 1).val; rw [e6]; omega

theorem mem_blk (t : Fin cfg1.N) (i : S4096x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v8).slice (win1_3.rect t)).set ↔ _
  rw [View.set_slice_whole, Rect.mem_set_unit]
  exact Iff.rfl

/-- The output array after the launch. -/
theorem final (c : Dev nD) : (dat1 V c).arrAt 3 cfg1.N = Glin (V c main_v5) (V c main_v1) (V c main_arg7) :=
  (dat1 V c).arrAt_eq_of_cover 3 _ (fun t _ => flushed_eq V c t) fun i => by
    have hi0 : (i 0).val < 4096 := (i 0).isLt
    have hi1 : (i 1).val < 1024 := (i 1).isLt
    have hN : cfg1.N = 8 := N_1
    refine ⟨⟨(i 0).val / 512, by rw [hN]; omega⟩, flush1_3 _, ?_⟩
    rw [mem_blk]
    obtain ⟨-, -, -, -, -, e5, e6⟩ := idx ⟨(i 0).val / 512, by rw [hN]; omega⟩
    intro a
    match a with
    | ⟨0, _⟩ => show win1_3.index _ 0 * 512 ≤ (i 0).val ∧ (i 0).val < win1_3.index _ 0 * 512 + 512; rw [e5]; show (i 0).val / 512 * 512 ≤ (i 0).val ∧ (i 0).val < (i 0).val / 512 * 512 + 512; omega
    | ⟨1, _⟩ => show win1_3.index _ 1 * 1024 ≤ (i 1).val ∧ (i 1).val < win1_3.index _ 1 * 1024 + 1024; rw [e6]; omega

end Cert.MHA.Reg1

end
-- ==== Proof.Reg2.lean ====
/-
  The third linear kernel (the value projection), from its blocks to its output array.

  Grid point t loads rows 512·t … 512·t + 511 of the [4096, 1024] activation, the whole weight matrix and the whole
  bias, and writes rows 512·t … 512·t + 511 of the output.  The eight points' blocks tile the output, so after the
  launch the output array is (∑ d, X(r,d) · W(d,f)) + B(f) at every (r, f), X, W, B the arrays as the launch finds them.
-/
import proofs.«126842_j55808805044352_2_alg».proof.Proof.LinBlock
import proofs.«126842_j55808805044352_2_alg».proof.Proof.Glin

noncomputable section

namespace Cert.MHA.Reg2

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The printed index maps over the grid: the activation and output blocks move with the point, the rest stay. -/
theorem idx : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

theorem xblk (c : Dev nD) (t : Fin cfg2.N) (p : Fin 512) (d : Fin 1024) (r : Fin 4096) (hr : r.val = 512 * t.val + p.val) :
    (iblk2 V c 0 t : Vec Ideal S512x1024 .f32) (ix2 p d) = (V c main_v6 : S4096x1024.Idx → EReal) (ix2 r d) := by
  obtain ⟨e0, e1, -⟩ := idx t
  unfold iblk2
  rw [View.read_apply]
  show V c main_v6 _ = V c main_v6 _
  congr 1
  funext a
  apply Fin.ext
  match a with
  | ⟨0, _⟩ => show win2_0.index t 0 * 512 + 1 * p.val = r.val; rw [e0, hr]; omega
  | ⟨1, _⟩ => show win2_0.index t 1 * 1024 + 1 * d.val = d.val; rw [e1]; omega

theorem wblk (c : Dev nD) (t : Fin cfg2.N) (d f : Fin 1024) :
    (iblk2 V c 1 t : Vec Ideal S1024x1024 .f32) (ix2 d f) = (V c main_v2 : S1024x1024.Idx → EReal) (ix2 d f) := by
  obtain ⟨-, -, e2, e3, -⟩ := idx t
  unfold iblk2
  rw [View.read_apply]
  show V c main_v2 _ = V c main_v2 _
  congr 1
  funext a
  apply Fin.ext
  match a with
  | ⟨0, _⟩ => show win2_1.index t 0 * 1024 + 1 * d.val = d.val; rw [e2]; omega
  | ⟨1, _⟩ => show win2_1.index t 1 * 1024 + 1 * f.val = f.val; rw [e3]; omega

theorem bblk (c : Dev nD) (t : Fin cfg2.N) (f : Fin 1024) :
    (iblk2 V c 2 t : Vec Ideal S1024 .f32) (ix1 f) = (V c main_arg9 : S1024.Idx → EReal) (ix1 f) := by
  obtain ⟨-, -, -, -, e4, -⟩ := idx t
  unfold iblk2
  rw [View.read_apply]
  show V c main_arg9 _ = V c main_arg9 _
  congr 1
  funext a
  apply Fin.ext
  match a with
  | ⟨0, _⟩ => show win2_2.index t 0 * 1024 + 1 * f.val = f.val; rw [e4]; omega

/-- What point t writes back is block t of the layer's output. -/
theorem flushed_eq (c : Dev nD) (t : Fin cfg2.N) :
    (dat2 V c).flushed 3 t = ((cfg2.win 3).blk t).view.read (Elt Ideal) (Glin (V c main_v6) (V c main_v2) (V c main_arg9)) := by
  obtain ⟨-, -, -, -, -, e5, e6⟩ := idx t
  show (cfg2.win 3).cut (grid2.coords t) ((dat2 V c).after 3 t) = _
  rw [after2_3]
  funext y
  rw [View.read_apply]
  refine Glin_block _ (iblk2 V c 0 t) (iblk2 V c 1 t) (iblk2 V c 2 t) (LinBlock.out2_apply _ _ _) _ _ _ t.val
    (xblk V c t) (wblk V c t) (bblk V c t) y _ ?_ ?_
  · show win2_3.index t 0 * 512 + 1 * (y 0).val = 512 * t.val + (y 0).val; rw [e5]; omega
  · show win2_3.index t 1 * 1024 + 1 * (y 1).val = (y 1).val; rw [e6]; omega

theorem mem_blk (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v9).slice (win2_3.rect t)).set ↔ _
  rw [View.set_slice_whole, Rect.mem_set_unit]
  exact Iff.rfl

/-- The output array after the launch. -/
theorem final (c : Dev nD) : (dat2 V c).arrAt 3 cfg2.N = Glin (V c main_v6) (V c main_v2) (V c main_arg9) :=
  (dat2 V c).arrAt_eq_of_cover 3 _ (fun t _ => flushed_eq V c t) fun i => by
    have hi0 : (i 0).val < 4096 := (i 0).isLt
    have hi1 : (i 1).val < 1024 := (i 1).isLt
    have hN : cfg2.N = 8 := N_2
    refine ⟨⟨(i 0).val / 512, by rw [hN]; omega⟩, flush2_3 _, ?_⟩
    rw [mem_blk]
    obtain ⟨-, -, -, -, -, e5, e6⟩ := idx ⟨(i 0).val / 512, by rw [hN]; omega⟩
    intro a
    match a with
    | ⟨0, _⟩ => show win2_3.index _ 0 * 512 ≤ (i 0).val ∧ (i 0).val < win2_3.index _ 0 * 512 + 512; rw [e5]; show (i 0).val / 512 * 512 ≤ (i 0).val ∧ (i 0).val < (i 0).val / 512 * 512 + 512; omega
    | ⟨1, _⟩ => show win2_3.index _ 1 * 1024 ≤ (i 1).val ∧ (i 1).val < win2_3.index _ 1 * 1024 + 1024; rw [e6]; omega

end Cert.MHA.Reg2

end
-- ==== Proof.Spec.lean ====
/-
  Multi-head attention on the extended reals, index by index.

  A linear layer sends row (g, l) of an activation x to (∑ d, x(g,l,d) · W(e,d)) + b(e).  The 1024 columns of a
  projected activation are 16 heads of 64 lanes: lane j of head h is column 64·h + j.  The score of query row q
  against key row k in head h is the inner product of the two rows' lanes of that head, times 1/8; a masked key
  scores −∞.  Each score row is normalised by a softmax over the keys, the weights average the value rows' lanes of
  the head, and the result, again 1024 columns wide, goes through the output layer.
-/
import Idealize.ShloMosaic.PureOps.Ideal
import Idealize.ShloMosaic.Lib.ValueIdx

noncomputable section

namespace Cert.MHA

open Idealize.ShloMosaic Idealize.ShloMosaic.ValueIdx
open scoped BigOperators

/-- An activation [2, 2048, 1024], a weight matrix [1024, 1024], a bias [1024], the key mask [2, 2048]. -/
abbrev Act := (⟨3, ![2, 2048, 1024]⟩ : Shape).Idx → EReal
abbrev Wt := (⟨2, ![1024, 1024]⟩ : Shape).Idx → EReal
abbrev Bias := (⟨1, ![1024]⟩ : Shape).Idx → EReal
abbrev Mask := (⟨2, ![2, 2048]⟩ : Shape).Idx → BitVec 1
/-- A projected activation by its coordinates. -/
abbrev Proj := Fin 2 → Fin 2048 → Fin 1024 → EReal

/-- Lane j of head h is column 64·h + j. -/
def col (h : Fin 16) (j : Fin 64) : Fin 1024 := ⟨64 * h.val + j.val, by omega⟩

/-- The head a column belongs to, and its lane there. -/
def headOf (e : Fin 1024) : Fin 16 := ⟨e.val / 64, by omega⟩
def laneOf (e : Fin 1024) : Fin 64 := ⟨e.val % 64, by omega⟩

theorem col_headOf_laneOf (e : Fin 1024) : col (headOf e) (laneOf e) = e :=
  Fin.ext (by show 64 * (e.val / 64) + e.val % 64 = e.val; omega)

/-- A linear layer x Wᵀ + b at (g, l, e). -/
def lin (x : Act) (W : Wt) (b : Bias) : Proj := fun g l e =>
  (∑ d : Fin 1024, x (ix3 g l d) * W (ix2 e d)) + b (ix1 e)

/-- The scaled inner product of query row q and key row k over the lanes of head h. -/
def dotQK (Q K : Proj) (g : Fin 2) (h : Fin 16) (q k : Fin 2048) : EReal :=
  (∑ j : Fin 64, Q g q (col h j) * K g k (col h j)) * Ideal.ofBits .f32 0x3E000000#32

/-- The score: −∞ at a masked key, else the scaled inner product. -/
def score (Q K : Proj) (mask : Mask) (g : Fin 2) (h : Fin 16) (q k : Fin 2048) : EReal :=
  Scalar.select (mask (ix2 g k)) (Ideal.ofBits .f32 0xFF800000#32) (dotQK Q K g h q k)

/-- The softmax of one score row. -/
def smax (s : Fin 2048 → EReal) (k : Fin 2048) : EReal :=
  Ideal.div (Ideal.exp (s k - ⨆ k' : Fin 2048, s k')) (∑ k' : Fin 2048, Ideal.exp (s k' - ⨆ k'' : Fin 2048, s k''))

/-- Attention output at batch g, query row q, column e: the softmax weights of e's head average column e of the
    value rows. -/
def attn (Q K V : Proj) (mask : Mask) (g : Fin 2) (q : Fin 2048) (e : Fin 1024) : EReal :=
  ∑ k : Fin 2048, smax (score Q K mask g (headOf e) q) k * V g k e

/-- The whole layer: three input projections, attention, the output projection. -/
def mha (x0 x1 x2 : Act) (mask : Mask) (Wq : Wt) (bq : Bias) (Wk : Wt) (bk : Bias) (Wv : Wt) (bv : Bias)
    (Wo : Wt) (bo : Bias) : Act := fun i =>
  (∑ d : Fin 1024, attn (lin x0 Wq bq) (lin x1 Wk bk) (lin x2 Wv bv) mask (i 0) (i 1) d * Wo (ix2 (i 2) d))
    + bo (ix1 (i 2))

end Cert.MHA

end
-- ==== Proof.LibRowPairs.lean ====
/-
  Rows indexed by a pair, read at an index.

  A batch of `a · b` rows of length `c` is held either as a matrix `[n, c]` with `n = a · b`, row `p · b + q` being
  the row of the pair `(p, q)`, or as an array `[a, b, c]`; one value per pair is held either as `[a, b]` or as one line
  `[1, 1, n]`. A shape cast keeps the row-major position of every element, so reading one form at its index reads the
  other form at the index of the same pair. That `n = a · b` is part of the cast's hypothesis; the statements only need
  the row's number written as `p · b + q`.
-/
import Idealize.ShloMosaic.Lib.Pipeline.Value
import Idealize.ShloMosaic.Lib.ValueIdx

namespace Idealize.ShloMosaic.RowPairs

open Idealize.ShloMosaic Idealize.ShloMosaic.ValueIdx

variable {α : Type}

/-- An `[a, b, c]` array cast to the matrix `[n, c]` reads, at row `p · b + q` and column `k`, the array at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The matrix `[n, c]` cast to `[a, b, c]` reads, at `(p, q, k)`, the matrix at row `p · b + q` and column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- An `[a, b]` array of one value per pair, cast to the line `[1, 1, n]`, reads at position `p · b + q` the value of
    the pair `(p, q)`. -/
theorem shapeCast_ab_11n_apply {a b n : ℕ} (z : (⟨2, ![a, b]⟩ : Shape).Idx → α)
    (h : (⟨2, ![a, b]⟩ : Shape).ShapeCasts ⟨3, ![1, 1, n]⟩) (u v : Fin 1) (p : Fin a) (q : Fin b) (j : Fin n)
    (hj : j.val = p.val * b + q.val) :
    shapeCast ⟨3, ![1, 1, n]⟩ z h (ix3 u v j) = z (ix2 p q) :=
  shapeCast_apply z h _ _ (by
    have hu : u.val = 0 := by omega
    have hv : v.val = 0 := by omega
    rw [Shape.rowMajor_val_two, Shape.rowMajor_val_three]
    show p.val * b + q.val = (u.val * 1 + v.val) * n + j.val
    rw [hu, hv, hj]
    simp)

end Idealize.ShloMosaic.RowPairs
-- ==== Proof.Gatt.lean ====
/-
  The attention kernel's output array and its blocks; projections through the host's reshapes.

  The attention kernel forms a score as the scaled inner product plus an additive bias that is −∞ at a masked key and
  0 elsewhere; on the extended reals x + (−∞) = −∞ and x + 0 = x, so this is the masked score.  Its output array is,
  at (g, q, e), the softmax of the score row of e's head averaged against column e of the value rows.  A grid point
  (g, qi) computes rows 512·qi … of batch g from that batch's keys, values and bias.  A [4096, 1024] linear-layer output
  built from a flattened [2, 2048, 1024] activation and a transposed weight matrix, folded back to [2, 2048, 1024],
  is the layer x Wᵀ + b.
-/
import proofs.«126842_j55808805044352_2_alg».proof.Proof.Spec
import proofs.«126842_j55808805044352_2_alg».proof.Proof.Glin
import proofs.«126842_j55808805044352_2_alg».proof.Proof.LibRowPairs
import proofs.«126842_j55808805044352_2_alg».proof.Proof.LibExtremeReduce
import Idealize.ShloMosaic.Lib.Pipeline.Value
import Idealize.ShloMosaic.Lib.ValueIdx

noncomputable section

namespace Cert.MHA

open Idealize.ShloMosaic Idealize.ShloMosaic.ValueIdx
open scoped BigOperators

/-- The score row as the kernel forms it: scaled inner product over the head's lanes plus the key's bias. -/
def krow (Qa Ka : (⟨3, ![2, 2048, 1024]⟩ : Shape).Idx → EReal) (Ba : (⟨3, ![2, 1, 2048]⟩ : Shape).Idx → EReal)
    (g : Fin 2) (h : Fin 16) (q k : Fin 2048) : EReal :=
  (∑ j : Fin 64, Qa (ix3 g q (col h j)) * Ka (ix3 g k (col h j))) * Ideal.ofBits .f32 0x3E000000#32 + Ba (ix3 g (0 : Fin 1) k)

/-- The attention kernel's output array. -/
def Gatt (Qa Ka Va : (⟨3, ![2, 2048, 1024]⟩ : Shape).Idx → EReal) (Ba : (⟨3, ![2, 1, 2048]⟩ : Shape).Idx → EReal) :
    (⟨3, ![2, 2048, 1024]⟩ : Shape).Idx → EReal := fun i =>
  ∑ k : Fin 2048, smax (krow Qa Ka Ba (i 0) (headOf (i 2)) (i 1)) k * Va (ix3 (i 0) k (i 2))

/-- A [1, 512, 1024] block computed from rows 512·qi … of batch g of the queries and from batch g's keys, values and
    bias is the block of the output array at those rows. -/
theorem Gatt_block (o x0 : (⟨3, ![1, 512, 1024]⟩ : Shape).Idx → EReal) (x1 x2 : (⟨3, ![1, 2048, 1024]⟩ : Shape).Idx → EReal)
    (x3 : (⟨3, ![1, 1, 2048]⟩ : Shape).Idx → EReal)
    (ho : ∀ (r : Fin 512) (e : Fin 1024), o (ix3 (0 : Fin 1) r e)
      = ∑ k : Fin 2048, smax (fun k' => (∑ j : Fin 64, x0 (ix3 (0 : Fin 1) r (col (headOf e) j)) * x1 (ix3 (0 : Fin 1) k' (col (headOf e) j)))
          * Ideal.ofBits .f32 0x3E000000#32 + x3 (ix3 (0 : Fin 1) (0 : Fin 1) k')) k * x2 (ix3 (0 : Fin 1) k e))
    (Qa Ka Va : (⟨3, ![2, 2048, 1024]⟩ : Shape).Idx → EReal) (Ba : (⟨3, ![2, 1, 2048]⟩ : Shape).Idx → EReal)
    (g : Fin 2) (qi : Nat)
    (hx0 : ∀ (r : Fin 512) (e : Fin 1024) (q : Fin 2048), q.val = 512 * qi + r.val → x0 (ix3 (0 : Fin 1) r e) = Qa (ix3 g q e))
    (hx1 : ∀ (k : Fin 2048) (e : Fin 1024), x1 (ix3 (0 : Fin 1) k e) = Ka (ix3 g k e))
    (hx2 : ∀ (k : Fin 2048) (e : Fin 1024), x2 (ix3 (0 : Fin 1) k e) = Va (ix3 g k e))
    (hx3 : ∀ k : Fin 2048, x3 (ix3 (0 : Fin 1) (0 : Fin 1) k) = Ba (ix3 g (0 : Fin 1) k))
    (y : (⟨3, ![1, 512, 1024]⟩ : Shape).Idx) (i : (⟨3, ![2, 2048, 1024]⟩ : Shape).Idx)
    (hi0 : (i 0).val = g.val) (hi1 : (i 1).val = 512 * qi + (y 1).val) (hi2 : (i 2).val = (y 2).val) :
    o y = Gatt Qa Ka Va Ba i := by
  obtain ⟨u, r, e, rfl⟩ : ∃ (u : Fin 1) (r : Fin 512) (e : Fin 1024), y = ix3 u r e := ⟨y 0, y 1, y 2, eq_ix3 y⟩
  obtain ⟨g', q, e', rfl⟩ : ∃ (g' : Fin 2) (q : Fin 2048) (e' : Fin 1024), i = ix3 g' q e' := ⟨i 0, i 1, i 2, eq_ix3 i⟩
  have hu : u = 0 := Fin.ext (by omega)
  have hg : g' = g := Fin.ext hi0
  have he : e' = e := Fin.ext hi2
  subst hu hg he
  rw [ho r e']
  show _ = ∑ k : Fin 2048, smax (krow Qa Ka Ba g' (headOf e') q) k * Va (ix3 g' k e')
  refine Finset.sum_congr rfl fun k _ => ?_
  rw [hx2 k e']
  refine congrArg (fun s => smax s k * Va (ix3 g' k e')) (funext fun k' => ?_)
  unfold krow
  rw [hx3 k']
  refine congrArg (fun s => s * Ideal.ofBits .f32 0x3E000000#32 + Ba (ix3 g' (0 : Fin 1) k')) (Finset.sum_congr rfl fun j _ => ?_)
  rw [hx0 r _ q hi1, hx1]

/-- Adding the bias −∞ or 0 is masking. -/
theorem add_bias (b : BitVec 1) (x : EReal) :
    x + Scalar.select b (Ideal.ofBits .f32 0xFF800000#32) (Ideal.ofBits .f32 0x00000000#32)
      = Scalar.select b (Ideal.ofBits .f32 0xFF800000#32) x := by
  rcases BitVec.eq_zero_or_eq_one b with h | h
  · subst h
    rw [select_zero, select_zero, Ideal.ofBits_zero_f32, add_zero]
  · subst h
    rw [select_one, select_one, ExtremeReduce.ofBits_negInf, EReal.add_bot]

/-- A flattened activation through x · wᵀ + b, folded back, is the linear layer. -/
theorem proj_eq (X : (⟨3, ![2, 2048, 1024]⟩ : Shape).Idx → EReal) (W : (⟨2, ![1024, 1024]⟩ : Shape).Idx → EReal)
    (B : (⟨1, ![1024]⟩ : Shape).Idx → EReal)
    (h1 : (⟨3, ![2, 2048, 1024]⟩ : Shape).ShapeCasts ⟨2, ![4096, 1024]⟩)
    (ht : (⟨2, ![1024, 1024]⟩ : Shape).Transposes [1, 0] ⟨2, ![1024, 1024]⟩)
    (h2 : (⟨2, ![4096, 1024]⟩ : Shape).ShapeCasts ⟨3, ![2, 2048, 1024]⟩) (g : Fin 2) (l : Fin 2048) (e : Fin 1024) :
    shapeCast ⟨3, ![2, 2048, 1024]⟩ (Glin (shapeCast ⟨2, ![4096, 1024]⟩ X h1) (transpose ⟨2, ![1024, 1024]⟩ [1, 0] W ht) B) h2 (ix3 g l e)
      = lin X W B g l e := by
  have hr : (⟨g.val * 2048 + l.val, by omega⟩ : Fin 4096).val = g.val * 2048 + l.val := rfl
  rw [RowPairs.shapeCast_nc_abc_apply _ h2 g l e ⟨g.val * 2048 + l.val, by omega⟩ hr]
  unfold Glin lin
  show (∑ d : Fin 1024, shapeCast ⟨2, ![4096, 1024]⟩ X h1 (ix2 (⟨g.val * 2048 + l.val, by omega⟩ : Fin 4096) d)
      * transpose ⟨2, ![1024, 1024]⟩ [1, 0] W ht (ix2 d e)) + B (ix1 e) = _
  refine congrArg (· + B (ix1 e)) (Finset.sum_congr rfl fun d _ => ?_)
  rw [RowPairs.shapeCast_abc_nc_apply X h1 g l d ⟨g.val * 2048 + l.val, by omega⟩ hr,
    transpose_apply [1, 0] W ht (ix2 d e) (ix2 e d) (fun b => by match b with | ⟨0, _⟩ => rfl | ⟨1, _⟩ => rfl)]

end Cert.MHA

end
-- ==== Proof.Reg3.lean ====
/-
  The attention kernel, from its blocks to its output array.

  The grid is 2 × 4: point t is batch g = t div 4 and row block qi = t mod 4.  It loads rows 512·qi … 512·qi + 511 of
  batch g of the queries, all 2048 rows of batch g of the keys and of the values, and batch g's row of the bias, and
  writes rows 512·qi … 512·qi + 511 of batch g of the output.  The eight points' blocks tile the output, so after the
  launch the output array is, at every (g, q, e), the softmax of the score row of e's head averaged against column e
  of the value rows, the four arrays taken as the launch finds them.
-/
import proofs.«126842_j55808805044352_2_alg».proof.Proof.Gen.KernelIdeal.Frame
import proofs.«126842_j55808805044352_2_alg».proof.Proof.Gatt

noncomputable section

namespace Cert.MHA.Reg3

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The printed index maps over the grid: the query and output blocks move with both grid coordinates, the key,
    value and bias blocks with the batch coordinate only. -/
theorem idx : ∀ t : Fin cfg3.N,
    win3_0.index t (0 : Fin 3) = t.val / 4 ∧ win3_0.index t (1 : Fin 3) = t.val % 4 ∧ win3_0.index t (2 : Fin 3) = 0
    ∧ win3_1.index t (0 : Fin 3) = t.val / 4 ∧ win3_1.index t (1 : Fin 3) = 0 ∧ win3_1.index t (2 : Fin 3) = 0
    ∧ win3_2.index t (0 : Fin 3) = t.val / 4 ∧ win3_2.index t (1 : Fin 3) = 0 ∧ win3_2.index t (2 : Fin 3) = 0
    ∧ win3_3.index t (0 : Fin 3) = t.val / 4 ∧ win3_3.index t (1 : Fin 3) = 0 ∧ win3_3.index t (2 : Fin 3) = 0
    ∧ win3_4.index t (0 : Fin 3) = t.val / 4 ∧ win3_4.index t (1 : Fin 3) = t.val % 4 ∧ win3_4.index t (2 : Fin 3) = 0 :=
  (by decide +kernel : ∀ t : Fin grid3.N, _)

/-- The query block of point t is rows 512·(t mod 4) … of batch t div 4. -/
theorem qblk (c : Dev nD) (t : Fin cfg3.N) (g : Fin 2) (hg : g.val = t.val / 4) (r : Fin 512) (e : Fin 1024) (q : Fin 2048)
    (hq : q.val = 512 * (t.val % 4) + r.val) :
    (iblk3 V c 0 t : Vec Ideal S1x512x1024 .bf16) (ix3 (0 : Fin 1) r e) = (V c main_v10 : S2x2048x1024.Idx → EReal) (ix3 g q e) := by
  obtain ⟨e0, e1, e2, -⟩ := idx t
  unfold iblk3
  rw [View.read_apply]
  show V c main_v10 _ = V c main_v10 _
  congr 1
  funext a
  apply Fin.ext
  match a with
  | ⟨0, _⟩ => show win3_0.index t 0 * 1 + 1 * 0 = g.val; rw [e0, hg]; omega
  | ⟨1, _⟩ => show win3_0.index t 1 * 512 + 1 * r.val = q.val; rw [e1, hq]; omega
  | ⟨2, _⟩ => show win3_0.index t 2 * 1024 + 1 * e.val = e.val; rw [e2]; omega

/-- The key block of point t is batch t div 4. -/
theorem kblk (c : Dev nD) (t : Fin cfg3.N) (g : Fin 2) (hg : g.val = t.val / 4) (k : Fin 2048) (e : Fin 1024) :
    (iblk3 V c 1 t : Vec Ideal S1x2048x1024 .bf16) (ix3 (0 : Fin 1) k e) = (V c main_v11 : S2x2048x1024.Idx → EReal) (ix3 g k e) := by
  obtain ⟨-, -, -, e0, e1, e2, -⟩ := idx t
  unfold iblk3
  rw [View.read_apply]
  show V c main_v11 _ = V c main_v11 _
  congr 1
  funext a
  apply Fin.ext
  match a with
  | ⟨0, _⟩ => show win3_1.index t 0 * 1 + 1 * 0 = g.val; rw [e0, hg]; omega
  | ⟨1, _⟩ => show win3_1.index t 1 * 2048 + 1 * k.val = k.val; rw [e1]; omega
  | ⟨2, _⟩ => show win3_1.index t 2 * 1024 + 1 * e.val = e.val; rw [e2]; omega

/-- The value block of point t is batch t div 4. -/
theorem vblk (c : Dev nD) (t : Fin cfg3.N) (g : Fin 2) (hg : g.val = t.val / 4) (k : Fin 2048) (e : Fin 1024) :
    (iblk3 V c 2 t : Vec Ideal S1x2048x1024 .bf16) (ix3 (0 : Fin 1) k e) = (V c main_v12 : S2x2048x1024.Idx → EReal) (ix3 g k e) := by
  obtain ⟨-, -, -, -, -, -, e0, e1, e2, -⟩ := idx t
  unfold iblk3
  rw [View.read_apply]
  show V c main_v12 _ = V c main_v12 _
  congr 1
  funext a
  apply Fin.ext
  match a with
  | ⟨0, _⟩ => show win3_2.index t 0 * 1 + 1 * 0 = g.val; rw [e0, hg]; omega
  | ⟨1, _⟩ => show win3_2.index t 1 * 2048 + 1 * k.val = k.val; rw [e1]; omega
  | ⟨2, _⟩ => show win3_2.index t 2 * 1024 + 1 * e.val = e.val; rw [e2]; omega

/-- The bias block of point t is batch t div 4's row. -/
theorem bblk (c : Dev nD) (t : Fin cfg3.N) (g : Fin 2) (hg : g.val = t.val / 4) (k : Fin 2048) :
    (iblk3 V c 3 t : Vec Ideal S1x1x2048 .f32) (ix3 (0 : Fin 1) (0 : Fin 1) k) = (V c main_v15 : S2x1x2048.Idx → EReal) (ix3 g (0 : Fin 1) k) := by
  obtain ⟨-, -, -, -, -, -, -, -, -, e0, e1, e2, -⟩ := idx t
  unfold iblk3
  rw [View.read_apply]
  show V c main_v15 _ = V c main_v15 _
  congr 1
  funext a
  apply Fin.ext
  match a with
  | ⟨0, _⟩ => show win3_3.index t 0 * 1 + 1 * 0 = g.val; rw [e0, hg]; omega
  | ⟨1, _⟩ => show win3_3.index t 1 * 1 + 1 * 0 = 0; rw [e1]
  | ⟨2, _⟩ => show win3_3.index t 2 * 2048 + 1 * k.val = k.val; rw [e2]; omega

/-- What point t writes back is its block of the attention output. -/
theorem flushed_eq
    (hblk : ∀ (x0 : Vec Ideal S1x512x1024 .bf16) (x1 x2 : Vec Ideal S1x2048x1024 .bf16) (x3 : Vec Ideal S1x1x2048 .f32) (r : Fin 512) (e : Fin 1024),
      out3_4 (F := Ideal) x0 x1 x2 x3 (ix3 (0 : Fin 1) r e)
        = ∑ k : Fin 2048, Cert.MHA.smax (fun k' => (∑ j : Fin 64, x0 (ix3 (0 : Fin 1) r (Cert.MHA.col (Cert.MHA.headOf e) j)) * x1 (ix3 (0 : Fin 1) k' (Cert.MHA.col (Cert.MHA.headOf e) j))) * Ideal.ofBits .f32 0x3E000000#32 + x3 (ix3 (0 : Fin 1) (0 : Fin 1) k')) k * x2 (ix3 (0 : Fin 1) k e))
    (c : Dev nD) (t : Fin cfg3.N) :
    (dat3 V c).flushed 4 t = ((cfg3.win 4).blk t).view.read (Elt Ideal)
      (Gatt (V c main_v10) (V c main_v11) (V c main_v12) (V c main_v15)) := by
  obtain ⟨-, -, -, -, -, -, -, -, -, -, -, -, e0, e1, e2⟩ := idx t
  have hN : cfg3.N = 8 := N_3
  have ht : t.val < 8 := hN ▸ t.isLt
  have hg : (⟨t.val / 4, by omega⟩ : Fin 2).val = t.val / 4 := rfl
  show (cfg3.win 4).cut (grid3.coords t) ((dat3 V c).after 4 t) = _
  rw [after3_4]
  funext y
  rw [View.read_apply]
  refine Gatt_block _ (iblk3 V c 0 t) (iblk3 V c 1 t) (iblk3 V c 2 t) (iblk3 V c 3 t)
    (hblk (iblk3 V c 0 t) (iblk3 V c 1 t) (iblk3 V c 2 t) (iblk3 V c 3 t)) _ _ _ _ ⟨t.val / 4, by omega⟩ (t.val % 4)
    (fun r e q hq => qblk V c t _ hg r e q hq) (fun k e => kblk V c t _ hg k e) (fun k e => vblk V c t _ hg k e)
    (fun k => bblk V c t _ hg k) y _ ?_ ?_ ?_
  · show win3_4.index t 0 * 1 + 1 * (y 0).val = t.val / 4
    have hy : (y 0).val < 1 := (y 0).isLt
    rw [e0]; omega
  · show win3_4.index t 1 * 512 + 1 * (y 1).val = 512 * (t.val % 4) + (y 1).val; rw [e1]; omega
  · show win3_4.index t 2 * 1024 + 1 * (y 2).val = (y 2).val; rw [e2]; omega

theorem mem_blk (t : Fin cfg3.N) (i : S2x2048x1024.Idx) :
    i ∈ ((cfg3.win 4).blk t).view.set ↔ ∀ a : Fin 3, win3_4.index t a * S1x512x1024.size a ≤ (i a).val ∧ (i a).val < win3_4.index t a * S1x512x1024.size a + S1x512x1024.size a := by
  show i ∈ ((View.whole main_v16).slice (win3_4.rect t)).set ↔ _
  rw [View.set_slice_whole, Rect.mem_set_unit]
  exact Iff.rfl

/-- The output array after the launch. -/
theorem final
    (hblk : ∀ (x0 : Vec Ideal S1x512x1024 .bf16) (x1 x2 : Vec Ideal S1x2048x1024 .bf16) (x3 : Vec Ideal S1x1x2048 .f32) (r : Fin 512) (e : Fin 1024),
      out3_4 (F := Ideal) x0 x1 x2 x3 (ix3 (0 : Fin 1) r e)
        = ∑ k : Fin 2048, Cert.MHA.smax (fun k' => (∑ j : Fin 64, x0 (ix3 (0 : Fin 1) r (Cert.MHA.col (Cert.MHA.headOf e) j)) * x1 (ix3 (0 : Fin 1) k' (Cert.MHA.col (Cert.MHA.headOf e) j))) * Ideal.ofBits .f32 0x3E000000#32 + x3 (ix3 (0 : Fin 1) (0 : Fin 1) k')) k * x2 (ix3 (0 : Fin 1) k e))
    (c : Dev nD) :
    (dat3 V c).arrAt 4 cfg3.N = Cert.MHA.Gatt (V c main_v10) (V c main_v11) (V c main_v12) (V c main_v15) :=
  (dat3 V c).arrAt_eq_of_cover 4 _ (fun t _ => flushed_eq V hblk c t) fun i => by
    have hi0 : (i 0).val < 2 := (i 0).isLt
    have hi1 : (i 1).val < 2048 := (i 1).isLt
    have hi2 : (i 2).val < 1024 := (i 2).isLt
    have hN : cfg3.N = 8 := N_3
    refine ⟨⟨4 * (i 0).val + (i 1).val / 512, by rw [hN]; omega⟩, flush3_4 _, ?_⟩
    rw [mem_blk]
    obtain ⟨-, -, -, -, -, -, -, -, -, -, -, -, e0, e1, e2⟩ := idx ⟨4 * (i 0).val + (i 1).val / 512, by rw [hN]; omega⟩
    intro a
    match a with
    | ⟨0, _⟩ =>
      show win3_4.index _ 0 * 1 ≤ (i 0).val ∧ (i 0).val < win3_4.index _ 0 * 1 + 1
      rw [e0]
      show (4 * (i 0).val + (i 1).val / 512) / 4 * 1 ≤ (i 0).val ∧ (i 0).val < (4 * (i 0).val + (i 1).val / 512) / 4 * 1 + 1
      omega
    | ⟨1, _⟩ =>
      show win3_4.index _ 1 * 512 ≤ (i 1).val ∧ (i 1).val < win3_4.index _ 1 * 512 + 512
      rw [e1]
      show (4 * (i 0).val + (i 1).val / 512) % 4 * 512 ≤ (i 1).val ∧ (i 1).val < (4 * (i 0).val + (i 1).val / 512) % 4 * 512 + 512
      omega
    | ⟨2, _⟩ =>
      show win3_4.index _ 2 * 1024 ≤ (i 2).val ∧ (i 2).val < win3_4.index _ 2 * 1024 + 1024
      rw [e2]; omega

end Cert.MHA.Reg3

end
-- ==== Proof.Reg4.lean ====
/-
  The last linear kernel (the output projection), from its blocks to its output array.

  Grid point t loads rows 512·t … 512·t + 511 of the flattened [4096, 1024] attention output, the whole weight matrix
  and the whole bias, and writes rows 512·t … 512·t + 511 of the result.  The eight points' blocks tile the result, so
  after the launch the result array is (∑ d, X(r,d) · W(d,f)) + B(f) at every (r, f), X, W, B the arrays as the launch
  finds them.
-/
import proofs.«126842_j55808805044352_2_alg».proof.Proof.LinBlock
import proofs.«126842_j55808805044352_2_alg».proof.Proof.Glin

noncomputable section

namespace Cert.MHA.Reg4

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The printed index maps over the grid: the activation and output blocks move with the point, the rest stay. -/
theorem idx : ∀ t : Fin cfg4.N, win4_0.index t (0 : Fin 2) = t.val ∧ win4_0.index t (1 : Fin 2) = 0
    ∧ win4_1.index t (0 : Fin 2) = 0 ∧ win4_1.index t (1 : Fin 2) = 0 ∧ win4_2.index t (0 : Fin 1) = 0
    ∧ win4_3.index t (0 : Fin 2) = t.val ∧ win4_3.index t (1 : Fin 2) = 0 :=
  (by decide +kernel : ∀ t : Fin grid4.N, _)

theorem xblk (c : Dev nD) (t : Fin cfg4.N) (p : Fin 512) (d : Fin 1024) (r : Fin 4096) (hr : r.val = 512 * t.val + p.val) :
    (iblk4 V c 0 t : Vec Ideal S512x1024 .bf16) (ix2 p d) = (V c main_v17 : S4096x1024.Idx → EReal) (ix2 r d) := by
  obtain ⟨e0, e1, -⟩ := idx t
  unfold iblk4
  rw [View.read_apply]
  show V c main_v17 _ = V c main_v17 _
  congr 1
  funext a
  apply Fin.ext
  match a with
  | ⟨0, _⟩ => show win4_0.index t 0 * 512 + 1 * p.val = r.val; rw [e0, hr]; omega
  | ⟨1, _⟩ => show win4_0.index t 1 * 1024 + 1 * d.val = d.val; rw [e1]; omega

theorem wblk (c : Dev nD) (t : Fin cfg4.N) (d f : Fin 1024) :
    (iblk4 V c 1 t : Vec Ideal S1024x1024 .f32) (ix2 d f) = (V c main_v3 : S1024x1024.Idx → EReal) (ix2 d f) := by
  obtain ⟨-, -, e2, e3, -⟩ := idx t
  unfold iblk4
  rw [View.read_apply]
  show V c main_v3 _ = V c main_v3 _
  congr 1
  funext a
  apply Fin.ext
  match a with
  | ⟨0, _⟩ => show win4_1.index t 0 * 1024 + 1 * d.val = d.val; rw [e2]; omega
  | ⟨1, _⟩ => show win4_1.index t 1 * 1024 + 1 * f.val = f.val; rw [e3]; omega

theorem bblk (c : Dev nD) (t : Fin cfg4.N) (f : Fin 1024) :
    (iblk4 V c 2 t : Vec Ideal S1024 .f32) (ix1 f) = (V c main_arg11 : S1024.Idx → EReal) (ix1 f) := by
  obtain ⟨-, -, -, -, e4, -⟩ := idx t
  unfold iblk4
  rw [View.read_apply]
  show V c main_arg11 _ = V c main_arg11 _
  congr 1
  funext a
  apply Fin.ext
  match a with
  | ⟨0, _⟩ => show win4_2.index t 0 * 1024 + 1 * f.val = f.val; rw [e4]; omega

/-- What point t writes back is block t of the layer's output. -/
theorem flushed_eq (c : Dev nD) (t : Fin cfg4.N) :
    (dat4 V c).flushed 3 t = ((cfg4.win 3).blk t).view.read (Elt Ideal) (Glin (V c main_v17) (V c main_v3) (V c main_arg11)) := by
  obtain ⟨-, -, -, -, -, e5, e6⟩ := idx t
  show (cfg4.win 3).cut (grid4.coords t) ((dat4 V c).after 3 t) = _
  rw [after4_3]
  funext y
  rw [View.read_apply]
  refine Glin_block _ (iblk4 V c 0 t) (iblk4 V c 1 t) (iblk4 V c 2 t) (LinBlock.out4_apply _ _ _) _ _ _ t.val
    (xblk V c t) (wblk V c t) (bblk V c t) y _ ?_ ?_
  · show win4_3.index t 0 * 512 + 1 * (y 0).val = 512 * t.val + (y 0).val; rw [e5]; omega
  · show win4_3.index t 1 * 1024 + 1 * (y 1).val = (y 1).val; rw [e6]; omega

theorem mem_blk (t : Fin cfg4.N) (i : S4096x1024.Idx) :
    i ∈ ((cfg4.win 3).blk t).view.set ↔ ∀ a : Fin 2, win4_3.index t a * S512x1024.size a ≤ (i a).val ∧ (i a).val < win4_3.index t a * S512x1024.size a + S512x1024.size a := by
  show i ∈ ((View.whole main_v18).slice (win4_3.rect t)).set ↔ _
  rw [View.set_slice_whole, Rect.mem_set_unit]
  exact Iff.rfl

/-- The result array after the launch. -/
theorem final (c : Dev nD) : (dat4 V c).arrAt 3 cfg4.N = Glin (V c main_v17) (V c main_v3) (V c main_arg11) :=
  (dat4 V c).arrAt_eq_of_cover 3 _ (fun t _ => flushed_eq V c t) fun i => by
    have hi0 : (i 0).val < 4096 := (i 0).isLt
    have hi1 : (i 1).val < 1024 := (i 1).isLt
    have hN : cfg4.N = 8 := N_4
    refine ⟨⟨(i 0).val / 512, by rw [hN]; omega⟩, flush4_3 _, ?_⟩
    rw [mem_blk]
    obtain ⟨-, -, -, -, -, e5, e6⟩ := idx ⟨(i 0).val / 512, by rw [hN]; omega⟩
    intro a
    match a with
    | ⟨0, _⟩ => show win4_3.index _ 0 * 512 ≤ (i 0).val ∧ (i 0).val < win4_3.index _ 0 * 512 + 512; rw [e5]; show (i 0).val / 512 * 512 ≤ (i 0).val ∧ (i 0).val < (i 0).val / 512 * 512 + 512; omega
    | ⟨1, _⟩ => show win4_3.index _ 1 * 1024 ≤ (i 1).val ∧ (i 1).val < win4_3.index _ 1 * 1024 + 1024; rw [e6]; omega

end Cert.MHA.Reg4

end
-- ==== Proof.LibRowDots.lean ====
/-
  Products of rows against rows, read at an index, on the extended reals.

  A contraction whose two operands are both contracted on their LAST axis — [M,K] against [N,K] (a `tpu.matmul`
  into the zero accumulator, or the host's `dot_general`), [B,M,K] against a shared [N,K], and the batched
  [B,M,K] against [B,N,K] — is, at the output index (p, f) or (g, p, f), the sum over d of the left row's entry d
  times the right row's entry d. Each statement holds for any dimension record equal to the literal one.
-/
import Idealize.ShloMosaic.PureOps.Ideal.Laws
import Idealize.ShloMosaic.Lib.ValueIdx

noncomputable section

namespace Cert.LibRowDots

open Idealize.ShloMosaic Idealize.ShloMosaic.ValueIdx

/-! ## [M,K] against [N,K] -/

section Rows

variable {M K N : Nat}
variable (wf : DotDims.WF ⟨2, ![M, K]⟩ ⟨2, ![N, K]⟩ ⟨2, ![M, N]⟩ [1] [1] [0] [0] [] [])

/-- The literal record: both operands contracted on axis 1, no batch axis. -/
abbrev rows : DotDims ⟨2, ![M, K]⟩ ⟨2, ![N, K]⟩ ⟨2, ![M, N]⟩ := ⟨[1], [1], [0], [0], [], [], wf⟩

theorem rows_lhs0 (i : (⟨2, ![M, N]⟩ : Shape).Idx) (q : (rows wf).contr.Idx) : ((rows wf).lhsIdx i q 0).val = (i 0).val := by
  unfold DotDims.lhsIdx
  rw [dif_neg (show ¬(0 : Fin 2) ∈ (rows wf).lhsBatch from (by decide : ¬(0 : Fin 2) ∈ ([] : List (Fin 2)))), dif_pos (show (0 : Fin 2) ∈ (rows wf).lhsNonContracting from (by decide : (0 : Fin 2) ∈ ([0] : List (Fin 2))))]
  rfl

theorem rows_lhs1 (i : (⟨2, ![M, N]⟩ : Shape).Idx) (q : (rows wf).contr.Idx) : ((rows wf).lhsIdx i q 1).val = (q ⟨0, Nat.one_pos⟩).val :=
  (rows wf).lhsIdx_val_of_single rfl i q

theorem rows_rhs0 (i : (⟨2, ![M, N]⟩ : Shape).Idx) (q : (rows wf).contr.Idx) : ((rows wf).rhsIdx i q 0).val = (i 1).val := by
  unfold DotDims.rhsIdx
  rw [dif_neg (show ¬(0 : Fin 2) ∈ (rows wf).rhsBatch from (by decide : ¬(0 : Fin 2) ∈ ([] : List (Fin 2)))), dif_pos (show (0 : Fin 2) ∈ (rows wf).rhsNonContracting from (by decide : (0 : Fin 2) ∈ ([0] : List (Fin 2))))]
  rfl

theorem rows_rhs1 (i : (⟨2, ![M, N]⟩ : Shape).Idx) (q : (rows wf).contr.Idx) : ((rows wf).rhsIdx i q 1).val = (q ⟨0, Nat.one_pos⟩).val :=
  (rows wf).rhsIdx_val_of_single rfl i q

/-- The sum over the contraction index is the sum over d of row p of the left times row f of the right. -/
theorem rows_sum {φ₁ φ₂ : FTy} (a : FVec Ideal ⟨2, ![M, K]⟩ φ₁) (w : FVec Ideal ⟨2, ![N, K]⟩ φ₂) (p : Fin M) (f : Fin N) :
    ∑ k : (rows wf).contr.Idx, a ((rows wf).lhsIdx (ix2 p f) k) * w ((rows wf).rhsIdx (ix2 p f) k)
      = ∑ d : Fin K, a (ix2 p d) * w (ix2 f d) := by
  rw [← Equiv.sum_comp (contrEquiv1 (rows wf) K rfl rfl).symm]
  refine Finset.sum_congr rfl fun k _ => ?_
  have hk := contrEquiv1_symm_val (rows wf) K rfl rfl k
  have el : (rows wf).lhsIdx (ix2 p f) ((contrEquiv1 (rows wf) K rfl rfl).symm k) = ix2 p k := funext fun x => Fin.ext (by
    match x with
    | ⟨0, _⟩ => exact rows_lhs0 wf _ _
    | ⟨1, _⟩ => exact (rows_lhs1 wf _ _).trans hk)
  have er : (rows wf).rhsIdx (ix2 p f) ((contrEquiv1 (rows wf) K rfl rfl).symm k) = ix2 f k := funext fun x => Fin.ext (by
    match x with
    | ⟨0, _⟩ => exact rows_rhs0 wf _ _
    | ⟨1, _⟩ => exact (rows_rhs1 wf _ _).trans hk)
  rw [el, er]

/-- A `tpu.matmul` of rows against rows into the zero accumulator, at (p, f). -/
theorem matmul_rows {φ₁ φ₂ : FTy} (D : DotDims ⟨2, ![M, K]⟩ ⟨2, ![N, K]⟩ ⟨2, ![M, N]⟩) (hD : D = rows wf)
    (prec : Option ContractPrecision) (a : FVec Ideal ⟨2, ![M, K]⟩ φ₁) (w : FVec Ideal ⟨2, ![N, K]⟩ φ₂) (p : Fin M) (f : Fin N) :
    matmul D prec a w (constant (F := Ideal) ⟨2, ![M, N]⟩ .f32 0x00000000#32) (ix2 p f) = ∑ d : Fin K, a (ix2 p d) * w (ix2 f d) := by
  subst hD
  exact (Ideal.matmul_constant_zero_apply _ prec a w (ix2 p f)).trans (rows_sum wf a w p f)

end Rows

/-! ## [B,M,K] against a shared [N,K] -/

section Shared

variable {B M K N : Nat}
variable (wf : DotDims.WF ⟨3, ![B, M, K]⟩ ⟨2, ![N, K]⟩ ⟨3, ![B, M, N]⟩ [2] [1] [0, 1] [0] [] [])

/-- The literal record: the left contracted on axis 2, the right on axis 1, no batch axis. -/
abbrev shared : DotDims ⟨3, ![B, M, K]⟩ ⟨2, ![N, K]⟩ ⟨3, ![B, M, N]⟩ := ⟨[2], [1], [0, 1], [0], [], [], wf⟩

theorem shared_lhs0 (i : (⟨3, ![B, M, N]⟩ : Shape).Idx) (q : (shared wf).contr.Idx) : ((shared wf).lhsIdx i q 0).val = (i 0).val := by
  unfold DotDims.lhsIdx
  rw [dif_neg (show ¬(0 : Fin 3) ∈ (shared wf).lhsBatch from (by decide : ¬(0 : Fin 3) ∈ ([] : List (Fin 3)))), dif_pos (show (0 : Fin 3) ∈ (shared wf).lhsNonContracting from (by decide : (0 : Fin 3) ∈ ([0, 1] : List (Fin 3))))]
  rfl

theorem shared_lhs1 (i : (⟨3, ![B, M, N]⟩ : Shape).Idx) (q : (shared wf).contr.Idx) : ((shared wf).lhsIdx i q 1).val = (i 1).val := by
  unfold DotDims.lhsIdx
  rw [dif_neg (show ¬(1 : Fin 3) ∈ (shared wf).lhsBatch from (by decide : ¬(1 : Fin 3) ∈ ([] : List (Fin 3)))), dif_pos (show (1 : Fin 3) ∈ (shared wf).lhsNonContracting from (by decide : (1 : Fin 3) ∈ ([0, 1] : List (Fin 3))))]
  rfl

theorem shared_lhs2 (i : (⟨3, ![B, M, N]⟩ : Shape).Idx) (q : (shared wf).contr.Idx) : ((shared wf).lhsIdx i q 2).val = (q ⟨0, Nat.one_pos⟩).val :=
  (shared wf).lhsIdx_val_of_single rfl i q

theorem shared_rhs0 (i : (⟨3, ![B, M, N]⟩ : Shape).Idx) (q : (shared wf).contr.Idx) : ((shared wf).rhsIdx i q 0).val = (i 2).val := by
  unfold DotDims.rhsIdx
  rw [dif_neg (show ¬(0 : Fin 2) ∈ (shared wf).rhsBatch from (by decide : ¬(0 : Fin 2) ∈ ([] : List (Fin 2)))), dif_pos (show (0 : Fin 2) ∈ (shared wf).rhsNonContracting from (by decide : (0 : Fin 2) ∈ ([0] : List (Fin 2))))]
  rfl

theorem shared_rhs1 (i : (⟨3, ![B, M, N]⟩ : Shape).Idx) (q : (shared wf).contr.Idx) : ((shared wf).rhsIdx i q 1).val = (q ⟨0, Nat.one_pos⟩).val :=
  (shared wf).rhsIdx_val_of_single rfl i q

/-- The host's `dot_general` of every chunk's rows against one shared table's rows, at (g, p, f). -/
theorem dot_shared {φ₁ φ₂ : FTy} (D : DotDims ⟨3, ![B, M, K]⟩ ⟨2, ![N, K]⟩ ⟨3, ![B, M, N]⟩) (hD : D = shared wf)
    (prec : Option ContractPrecision) (a : FVec Ideal ⟨3, ![B, M, K]⟩ φ₁) (w : FVec Ideal ⟨2, ![N, K]⟩ φ₂) (g : Fin B) (p : Fin M) (f : Fin N) :
    Host.dotGeneral D prec a w (ix3 g p f) = ∑ d : Fin K, a (ix3 g p d) * w (ix2 f d) := by
  subst hD
  refine (Ideal.dotGeneral_apply _ prec .single a w (ix3 g p f)).trans ?_
  rw [← Equiv.sum_comp (contrEquiv1 (shared wf) K rfl rfl).symm]
  refine Finset.sum_congr rfl fun k _ => ?_
  have hk := contrEquiv1_symm_val (shared wf) K rfl rfl k
  have el : (shared wf).lhsIdx (ix3 g p f) ((contrEquiv1 (shared wf) K rfl rfl).symm k) = ix3 g p k := funext fun x => Fin.ext (by
    match x with
    | ⟨0, _⟩ => exact shared_lhs0 wf _ _
    | ⟨1, _⟩ => exact shared_lhs1 wf _ _
    | ⟨2, _⟩ => exact (shared_lhs2 wf _ _).trans hk)
  have er : (shared wf).rhsIdx (ix3 g p f) ((contrEquiv1 (shared wf) K rfl rfl).symm k) = ix2 f k := funext fun x => Fin.ext (by
    match x with
    | ⟨0, _⟩ => exact shared_rhs0 wf _ _
    | ⟨1, _⟩ => exact (shared_rhs1 wf _ _).trans hk)
  rw [el, er]

end Shared

/-! ## [B,M,K] against [B,N,K], chunk by chunk -/

section Batched

variable {B M K N : Nat}
variable (wf : DotDims.WF ⟨3, ![B, M, K]⟩ ⟨3, ![B, N, K]⟩ ⟨3, ![B, M, N]⟩ [2] [2] [1] [1] [0] [0])

/-- The literal record: axis 0 the batch axis of both, both contracted on axis 2. -/
abbrev batched : DotDims ⟨3, ![B, M, K]⟩ ⟨3, ![B, N, K]⟩ ⟨3, ![B, M, N]⟩ := ⟨[2], [2], [1], [1], [0], [0], wf⟩

theorem batched_lhs0 (i : (⟨3, ![B, M, N]⟩ : Shape).Idx) (q : (batched wf).contr.Idx) : ((batched wf).lhsIdx i q 0).val = (i 0).val := by
  unfold DotDims.lhsIdx
  rw [dif_pos (show (0 : Fin 3) ∈ (batched wf).lhsBatch from (by decide : (0 : Fin 3) ∈ ([0] : List (Fin 3))))]
  rfl

theorem batched_lhs1 (i : (⟨3, ![B, M, N]⟩ : Shape).Idx) (q : (batched wf).contr.Idx) : ((batched wf).lhsIdx i q 1).val = (i 1).val := by
  unfold DotDims.lhsIdx
  rw [dif_neg (show ¬(1 : Fin 3) ∈ (batched wf).lhsBatch from (by decide : ¬(1 : Fin 3) ∈ ([0] : List (Fin 3)))), dif_pos (show (1 : Fin 3) ∈ (batched wf).lhsNonContracting from (by decide : (1 : Fin 3) ∈ ([1] : List (Fin 3))))]
  rfl

theorem batched_lhs2 (i : (⟨3, ![B, M, N]⟩ : Shape).Idx) (q : (batched wf).contr.Idx) : ((batched wf).lhsIdx i q 2).val = (q ⟨0, Nat.one_pos⟩).val :=
  (batched wf).lhsIdx_val_of_single rfl i q

theorem batched_rhs0 (i : (⟨3, ![B, M, N]⟩ : Shape).Idx) (q : (batched wf).contr.Idx) : ((batched wf).rhsIdx i q 0).val = (i 0).val := by
  unfold DotDims.rhsIdx
  rw [dif_pos (show (0 : Fin 3) ∈ (batched wf).rhsBatch from (by decide : (0 : Fin 3) ∈ ([0] : List (Fin 3))))]
  rfl

theorem batched_rhs1 (i : (⟨3, ![B, M, N]⟩ : Shape).Idx) (q : (batched wf).contr.Idx) : ((batched wf).rhsIdx i q 1).val = (i 2).val := by
  unfold DotDims.rhsIdx
  rw [dif_neg (show ¬(1 : Fin 3) ∈ (batched wf).rhsBatch from (by decide : ¬(1 : Fin 3) ∈ ([0] : List (Fin 3)))), dif_pos (show (1 : Fin 3) ∈ (batched wf).rhsNonContracting from (by decide : (1 : Fin 3) ∈ ([1] : List (Fin 3))))]
  rfl

theorem batched_rhs2 (i : (⟨3, ![B, M, N]⟩ : Shape).Idx) (q : (batched wf).contr.Idx) : ((batched wf).rhsIdx i q 2).val = (q ⟨0, Nat.one_pos⟩).val :=
  (batched wf).rhsIdx_val_of_single rfl i q

/-- The host's batched `dot_general`: chunk g's rows against chunk g's table's rows, at (g, p, f). -/
theorem dot_batched {φ₁ φ₂ : FTy} (D : DotDims ⟨3, ![B, M, K]⟩ ⟨3, ![B, N, K]⟩ ⟨3, ![B, M, N]⟩) (hD : D = batched wf)
    (prec : Option ContractPrecision) (a : FVec Ideal ⟨3, ![B, M, K]⟩ φ₁) (w : FVec Ideal ⟨3, ![B, N, K]⟩ φ₂) (g : Fin B) (p : Fin M) (f : Fin N) :
    Host.dotGeneral D prec a w (ix3 g p f) = ∑ d : Fin K, a (ix3 g p d) * w (ix3 g f d) := by
  subst hD
  refine (Ideal.dotGeneral_apply _ prec .single a w (ix3 g p f)).trans ?_
  rw [← Equiv.sum_comp (contrEquiv1 (batched wf) K rfl rfl).symm]
  refine Finset.sum_congr rfl fun k _ => ?_
  have hk := contrEquiv1_symm_val (batched wf) K rfl rfl k
  have el : (batched wf).lhsIdx (ix3 g p f) ((contrEquiv1 (batched wf) K rfl rfl).symm k) = ix3 g p k := funext fun x => Fin.ext (by
    match x with
    | ⟨0, _⟩ => exact batched_lhs0 wf _ _
    | ⟨1, _⟩ => exact batched_lhs1 wf _ _
    | ⟨2, _⟩ => exact (batched_lhs2 wf _ _).trans hk)
  have er : (batched wf).rhsIdx (ix3 g p f) ((contrEquiv1 (batched wf) K rfl rfl).symm k) = ix3 g f k := funext fun x => Fin.ext (by
    match x with
    | ⟨0, _⟩ => exact batched_rhs0 wf _ _
    | ⟨1, _⟩ => exact batched_rhs1 wf _ _
    | ⟨2, _⟩ => exact (batched_rhs2 wf _ _).trans hk)
  rw [el, er]

end Batched

end Cert.LibRowDots

end
-- ==== Proof.LibRowSoftmax.lean ====
/-
  A row-wise softmax, read one row at a time on the extended reals.

  The maximum of row p is the supremum of its entries; taking it once more against −∞ changes nothing and is kept as
  written.  The shifted row is exponentiated, summed along the row, and each exponential divided by that sum.  A kernel
  writes this on an [M, n] block with lane reductions, a cast of the [M] results to a column [M, 1] and a broadcast back
  to [M, n]; the host writes it on an [M, n] array with reduce, two broadcasts and divide.  At (p, q) both are the
  softmax of row p at q.
-/
import Idealize.ShloMosaic.PureOps.Ideal.Laws
import Idealize.ShloMosaic.Lib.ValueIdx
import Idealize.ShloMosaic.Lib.Pipeline.Value
import proofs.«126842_j55808805044352_2_alg».proof.Proof.LibKeepdims
import proofs.«126842_j55808805044352_2_alg».proof.Proof.LibInDimLayout
import proofs.«126842_j55808805044352_2_alg».proof.Proof.LibExtremeReduce
import proofs.«126842_j55808805044352_2_alg».proof.Proof.LibDenseRows

noncomputable section

namespace Cert.DenseRows

open Idealize.ShloMosaic Idealize.ShloMosaic.ValueIdx
open scoped BigOperators

/-- Putting coordinate k back on the last axis of the row index p gives (p, k). -/
theorem lift_ix1 {M n : ℕ} (h : (⟨2, ![M, n]⟩ : Shape).Reduces [1] ⟨1, ![M]⟩) (p : Fin M) (k : Fin n) :
    h.lift (ix1 p) k = ix2 p k := by
  funext c
  apply Fin.ext
  match c with
  | ⟨0, _⟩ => rfl
  | ⟨1, _⟩ => rfl

/-- A scalar spread over a vector reads the scalar everywhere. -/
theorem inDim_scalar_apply {M : ℕ} {α : Type} (v : (⟨0, ![]⟩ : Shape).Idx → α)
    (h : (⟨0, ![]⟩ : Shape).BroadcastsInDim ⟨1, ![M]⟩ ![]) (j : (⟨1, ![M]⟩ : Shape).Idx) :
    broadcastInDim ⟨1, ![M]⟩ ![] h v j = v ix0 :=
  broadcastInDim_apply _ h v j ix0 fun a => a.elim0

/-- The kernel's softmax of an [M, n] block at (p, q). -/
theorem softmax_kernel_apply {M n : ℕ} (src : FVec Ideal ⟨2, ![M, n]⟩ .f32)
    (h : (⟨2, ![M, n]⟩ : Shape).Reduces [1] ⟨1, ![M]⟩) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, n]⟩)
    (p : Fin M) (q : Fin n) :
    divf (exp (subf src (broadcastTo ⟨2, ![M, n]⟩ (shapeCast ⟨2, ![M, 1]⟩
            (maximumf (broadcast ⟨1, ![M]⟩ (Scalar.ofBits (F := Ideal) .f32 0xFF800000#32))
              (multiReduction .maximumf [1] ⟨1, ![M]⟩ src 0xFF800000#32 h hφ hmax)) hc) hb)))
        (broadcastTo ⟨2, ![M, n]⟩ (shapeCast ⟨2, ![M, 1]⟩
          (multiReduction .add [1] ⟨1, ![M]⟩
            (exp (subf src (broadcastTo ⟨2, ![M, n]⟩ (shapeCast ⟨2, ![M, 1]⟩
              (maximumf (broadcast ⟨1, ![M]⟩ (Scalar.ofBits (F := Ideal) .f32 0xFF800000#32))
                (multiReduction .maximumf [1] ⟨1, ![M]⟩ src 0xFF800000#32 h hφ hmax)) hc) hb)))
            0x00000000#32 h hφ hadd) hc) hb) (ix2 p q)
      = softmax (fun k => src (ix2 p k)) q := by
  -- the row maximum, spread back over the row, read at any entry of row p
  have hm : ∀ k : Fin n, broadcastTo ⟨2, ![M, n]⟩ (shapeCast ⟨2, ![M, 1]⟩
        (maximumf (broadcast ⟨1, ![M]⟩ (Scalar.ofBits (F := Ideal) .f32 0xFF800000#32))
          (multiReduction .maximumf [1] ⟨1, ![M]⟩ src 0xFF800000#32 h hφ hmax)) hc) hb (ix2 p k)
        = max ⊥ (⨆ j : Fin n, src (ix2 p j)) := by
    intro k
    rw [Cert.LibKeepdims.broadcastTo_a1_ab_apply _ hb p k, Cert.LibKeepdims.shapeCast_a_a1_apply _ hc p 0]
    show max (Ideal.ofBits .f32 0xFF800000#32) (multiReduction .maximumf [1] ⟨1, ![M]⟩ src 0xFF800000#32 h hφ hmax (ix1 p)) = _
    rw [ExtremeReduce.ofBits_negInf, ExtremeReduce.multiReduction_max_single src h hφ hmax (ix1 p)]
    show max ⊥ (⨆ j : Fin n, src (h.lift (ix1 p) j)) = _
    simp only [lift_ix1]
  -- the exponential of the shifted row, at any entry of row p
  have he : ∀ k : Fin n, exp (subf src (broadcastTo ⟨2, ![M, n]⟩ (shapeCast ⟨2, ![M, 1]⟩
        (maximumf (broadcast ⟨1, ![M]⟩ (Scalar.ofBits (F := Ideal) .f32 0xFF800000#32))
          (multiReduction .maximumf [1] ⟨1, ![M]⟩ src 0xFF800000#32 h hφ hmax)) hc) hb)) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibKeepdims.broadcastTo_a1_ab_apply _ hb p q, Cert.LibKeepdims.shapeCast_a_a1_apply _ hc p 0,
    Ideal.multiReduction_add_single _ _ h hφ hadd (ix1 p)]
  unfold softmax
  refine congrArg (Ideal.div _) ?_
  show ∑ k : Fin n, _ = _
  refine Finset.sum_congr rfl fun k _ => ?_
  rw [lift_ix1 h p k, he k]

/-- The host's softmax of an [M, n] array at (p, q). -/
theorem softmax_host_apply {M n : ℕ} (src : FVec Ideal ⟨2, ![M, n]⟩ .f32)
    (h' : (⟨2, ![M, n]⟩ : Shape).ReducesTo [1] ⟨1, ![M]⟩) (h : (⟨2, ![M, n]⟩ : Shape).Reduces [1] ⟨1, ![M]⟩)
    (hu : 0 < (⟨0, ![]⟩ : Shape).numel) (hs : (⟨0, ![]⟩ : Shape).BroadcastsInDim ⟨1, ![M]⟩ ![])
    (h1 : (⟨1, ![M]⟩ : Shape).BroadcastsInDim ⟨2, ![M, 1]⟩ ![0]) (h2 : (⟨2, ![M, 1]⟩ : Shape).BroadcastsInDim ⟨2, ![M, n]⟩ ![0, 1])
    (p : Fin M) (q : Fin n) :
    Host.divf (Host.exp (subf src (broadcastInDim ⟨2, ![M, n]⟩ ![0, 1] h2 (broadcastInDim ⟨2, ![M, 1]⟩ ![0] h1
            (maximumf (broadcastInDim ⟨1, ![M]⟩ ![] hs (constant (F := Ideal) ⟨0, ![]⟩ .f32 0xFF800000#32))
              (Host.reduce FloatOps.maximumf src (constant (F := Ideal) ⟨0, ![]⟩ .f32 0xFF800000#32) h' hu))))))
        (broadcastInDim ⟨2, ![M, n]⟩ ![0, 1] h2 (broadcastInDim ⟨2, ![M, 1]⟩ ![0] h1
          (Host.reduceAdd
            (Host.exp (subf src (broadcastInDim ⟨2, ![M, n]⟩ ![0, 1] h2 (broadcastInDim ⟨2, ![M, 1]⟩ ![0] h1
              (maximumf (broadcastInDim ⟨1, ![M]⟩ ![] hs (constant (F := Ideal) ⟨0, ![]⟩ .f32 0xFF800000#32))
                (Host.reduce FloatOps.maximumf src (constant (F := Ideal) ⟨0, ![]⟩ .f32 0xFF800000#32) h' hu))))))
            (constant (F := Ideal) ⟨0, ![]⟩ .f32 0x00000000#32) h' hu))) (ix2 p q)
      = softmax (fun k => src (ix2 p k)) q := by
  have hm : ∀ k : Fin n, broadcastInDim ⟨2, ![M, n]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf src (constant (F := Ideal) ⟨0, ![]⟩ .f32 0xFF800000#32) h' hu))) (ix2 p k)
        = max ⊥ (⨆ j : Fin n, src (ix2 p j)) := by
    intro k
    rw [Cert.LibInDimLayout.inDim_a1_ab_apply _ h2 p k, Cert.LibInDimLayout.inDim_a_a1_apply _ h1 p 0]
    show max (broadcastInDim ⟨1, ![M]⟩ ![] hs (constant (F := Ideal) ⟨0, ![]⟩ .f32 0xFF800000#32) (ix1 p))
      (Host.reduce FloatOps.maximumf src (constant (F := Ideal) ⟨0, ![]⟩ .f32 0xFF800000#32) h' hu (ix1 p)) = _
    rw [inDim_scalar_apply _ hs (ix1 p), ExtremeReduce.hostReduce_max_single src h' h hu (ix1 p)]
    show max (Ideal.ofBits .f32 0xFF800000#32) (⨆ j : Fin n, src (h.lift (ix1 p) j)) = _
    rw [ExtremeReduce.ofBits_negInf]
    simp only [lift_ix1]
  have he : ∀ k : Fin n, Host.exp (subf src (broadcastInDim ⟨2, ![M, n]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf src (constant (F := Ideal) ⟨0, ![]⟩ .f32 0xFF800000#32) h' hu))))) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibInDimLayout.inDim_a1_ab_apply _ h2 p q, Cert.LibInDimLayout.inDim_a_a1_apply _ h1 p 0]
  unfold softmax
  refine congrArg (Ideal.div _) ?_
  show Ideal.hostReduceAdd h' _ (Ideal.ofBits .f32 0x00000000#32) (ix1 p) = _
  rw [Ideal.hostReduceAdd_single h' h _ _ (ix1 p), Ideal.ofBits_zero_f32, zero_add]
  show ∑ k : Fin n, _ = _
  refine Finset.sum_congr rfl fun k _ => ?_
  rw [lift_ix1 h p k, he k]

end Cert.DenseRows

end
-- ==== Proof.AttnBlockA.lean ====
/-
  One attention head on a block of 512 query rows, read entry by entry on the extended reals.

  The scores of query row r against the 2048 keys are the inner products of the 64 lanes, times 1/8, plus the key's
  additive bias.  Each score row is shifted by its supremum, exponentiated, and divided by the sum of the row's
  exponentials; the resulting weights average the value rows.  Narrowing format changes are the identity on the
  extended reals, so the head's output at (r, l) is the sum over the keys c of the softmax weight of c in row r
  times the value entry (c, l).
-/
import proofs.«126842_j55808805044352_2_alg».proof.Proof.Gen.KernelIdeal.Frame
import proofs.«126842_j55808805044352_2_alg».proof.Proof.Spec
import proofs.«126842_j55808805044352_2_alg».proof.Proof.LibRowDots
import proofs.«126842_j55808805044352_2_alg».proof.Proof.LibInnerProducts
import proofs.«126842_j55808805044352_2_alg».proof.Proof.LibExtremeReduce
import proofs.«126842_j55808805044352_2_alg».proof.Proof.LibKeepdims
import proofs.«126842_j55808805044352_2_alg».proof.Proof.LibRowSoftmax
import Idealize.ShloMosaic.Lib.ValueLayout

noncomputable section

namespace Cert.MHA.AttnBlock

open Idealize.ShloMosaic Idealize.ShloMosaic.ValueIdx Cert.KernelIdeal Cert.KernelIdeal.Gen
open scoped BigOperators

/-- The score block: rows against rows over the 64 lanes, scaled by 1/8, plus the bias row spread over the rows. -/
def scores (q : FVec Ideal S512x64 .bf16) (k : FVec Ideal S2048x64 .bf16) (bias : FVec Ideal S1x2048 .f32) :
    FVec Ideal S512x2048 .f32 :=
  addf (mulf (matmul dot_S512x64_S2048x64_S512x2048_1_1_0_0_n_n none q k (constant S512x2048 .f32 0x00000000#32))
      (broadcast S512x2048 (Scalar.ofBits .f32 0x3E000000#32)))
    (broadcastTo S512x2048 bias broadcasts_S1x2048_S512x2048)

theorem scores_apply (q : FVec Ideal S512x64 .bf16) (k : FVec Ideal S2048x64 .bf16) (bias : FVec Ideal S1x2048 .f32)
    (r : Fin 512) (c : Fin 2048) :
    scores q k bias (ix2 r c)
      = (∑ j : Fin 64, q (ix2 r j) * k (ix2 c j)) * Ideal.ofBits .f32 0x3E000000#32 + bias (ix2 (0 : Fin 1) c) := by
  show matmul dot_S512x64_S2048x64_S512x2048_1_1_0_0_n_n none q k (constant S512x2048 .f32 0x00000000#32) (ix2 r c)
      * Ideal.ofBits .f32 0x3E000000#32 + broadcastTo S512x2048 bias broadcasts_S1x2048_S512x2048 (ix2 r c) = _
  rw [Cert.LibRowDots.matmul_rows dot_S512x64_S2048x64_S512x2048_1_1_0_0_n_n_wf
      dot_S512x64_S2048x64_S512x2048_1_1_0_0_n_n rfl none q k r c,
    broadcastTo_1b_ab_apply bias broadcasts_S1x2048_S512x2048 r c]

/-- The supremum of each score row, spread back over the row. -/
def rowMax (s : FVec Ideal S512x2048 .f32) : FVec Ideal S512x2048 .f32 :=
  broadcastTo S512x2048 (shapeCast S512x1
    (multiReduction .maximumf [1] S512 s 0xFF800000#32 reduces_S512x2048_S512 (.inl rfl) rfl)
    shapeCasts_S512_S512x1) broadcasts_S512x1_S512x2048

theorem rowMax_apply (s : FVec Ideal S512x2048 .f32) (r : Fin 512) (c : Fin 2048) :
    rowMax s (ix2 r c) = ⨆ c' : Fin 2048, s (ix2 r c') := by
  unfold rowMax
  rw [Cert.LibKeepdims.broadcastTo_a1_ab_apply _ broadcasts_S512x1_S512x2048 r c,
    Cert.LibKeepdims.shapeCast_a_a1_apply _ shapeCasts_S512_S512x1 r 0]
  refine (ExtremeReduce.multiReduction_max_single s reduces_S512x2048_S512 (.inl rfl) rfl (ix1 r)).trans ?_
  show (⨆ j : Fin 2048, s (reduces_S512x2048_S512.lift (ix1 r) j)) = _
  simp only [Cert.DenseRows.lift_ix1]

/-- The exponential of each score less its row's supremum. -/
def expo (s : FVec Ideal S512x2048 .f32) : FVec Ideal S512x2048 .f32 := exp (subf s (rowMax s))

theorem expo_apply (s : FVec Ideal S512x2048 .f32) (r : Fin 512) (c : Fin 2048) :
    expo s (ix2 r c) = Ideal.exp (s (ix2 r c) - ⨆ c' : Fin 2048, s (ix2 r c')) := by
  show Ideal.exp (s (ix2 r c) - rowMax s (ix2 r c)) = _
  rw [rowMax_apply]

/-- The sum of each row, spread back over the row. -/
def rowSum (e : FVec Ideal S512x2048 .f32) : FVec Ideal S512x2048 .f32 :=
  broadcastTo S512x2048 (shapeCast S512x1
    (multiReduction .add [1] S512 e 0x00000000#32 reduces_S512x2048_S512 (.inl rfl) rfl)
    shapeCasts_S512_S512x1) broadcasts_S512x1_S512x2048

theorem rowSum_apply (e : FVec Ideal S512x2048 .f32) (r : Fin 512) (c : Fin 2048) :
    rowSum e (ix2 r c) = ∑ c' : Fin 2048, e (ix2 r c') := by
  unfold rowSum
  rw [Cert.LibKeepdims.broadcastTo_a1_ab_apply _ broadcasts_S512x1_S512x2048 r c,
    Cert.LibKeepdims.shapeCast_a_a1_apply _ shapeCasts_S512_S512x1 r 0]
  refine (Ideal.multiReduction_add_single e 0x00000000#32 reduces_S512x2048_S512 (.inl rfl) rfl (ix1 r)).trans ?_
  show (∑ j : Fin 2048, e (reduces_S512x2048_S512.lift (ix1 r) j)) = _
  simp only [Cert.DenseRows.lift_ix1]

/-- The softmax weights of a score block, row by row. -/
def probs (s : FVec Ideal S512x2048 .f32) : FVec Ideal S512x2048 .f32 := divf (expo s) (rowSum (expo s))

theorem probs_apply (s : FVec Ideal S512x2048 .f32) (r : Fin 512) (c : Fin 2048) :
    probs s (ix2 r c) = Cert.MHA.smax (fun c' => s (ix2 r c')) c := by
  show Ideal.div (expo s (ix2 r c)) (rowSum (expo s) (ix2 r c)) = _
  rw [expo_apply, rowSum_apply]
  unfold Cert.MHA.smax
  refine congrArg (Ideal.div _) ?_
  exact Finset.sum_congr rfl fun c' _ => expo_apply s r c'

/-- One head: the weights of the score block average the value rows; the result is a [1, 512, 64] block. -/
def headOut (q : FVec Ideal S512x64 .bf16) (k v : FVec Ideal S2048x64 .bf16) (bias : FVec Ideal S1x2048 .f32) :
    FVec Ideal S1x512x64 .bf16 :=
  shapeCast S1x512x64 (truncf .bf16
    (matmul dot_S512x2048_S2048x64_S512x64_1_0_0_1_n_n none (truncf .bf16 (probs (scores q k bias)) bitsLt_bf16_f32) v
      (constant S512x64 .f32 0x00000000#32)) bitsLt_bf16_f32) shapeCasts_S512x64_S1x512x64

theorem headOut_apply (q : FVec Ideal S512x64 .bf16) (k v : FVec Ideal S2048x64 .bf16) (bias : FVec Ideal S1x2048 .f32)
    (r : Fin 512) (l : Fin 64) :
    headOut q k v bias (ix3 (0 : Fin 1) r l)
      = ∑ c : Fin 2048, Cert.MHA.smax (fun c' => scores q k bias (ix2 r c')) c * v (ix2 c l) := by
  unfold headOut
  rw [shapeCast_ab_1ab_apply _ shapeCasts_S512x64_S1x512x64 0 r l]
  show matmul dot_S512x2048_S2048x64_S512x64_1_0_0_1_n_n none (truncf .bf16 (probs (scores q k bias)) bitsLt_bf16_f32) v
      (constant S512x64 .f32 0x00000000#32) (ix2 r l) = _
  rw [InnerProducts.matmul_zero_apply dot_S512x2048_S2048x64_S512x64_1_0_0_1_n_n rfl none _ v r l]
  refine Finset.sum_congr rfl fun c _ => ?_
  show probs (scores q k bias) (ix2 r c) * v (ix2 c l) = _
  rw [probs_apply]

/-- The head whose operands are the 64 columns from column 64·h of a query block, a key block and a value block. -/
theorem headOut_slices (Q : FVec Ideal S512x1024 .bf16) (K V : FVec Ideal S2048x1024 .bf16) (B : FVec Ideal S1x2048 .f32)
    (off : ℕ) (hq : S512x1024.Slices ![0, off] S512x64) (hk : S2048x1024.Slices ![0, off] S2048x64)
    (hv : S2048x1024.Slices ![0, off] S2048x64) (h : Fin 16) (hoff : off = 64 * h.val) (r : Fin 512) (l : Fin 64) :
    headOut (extractStridedSlice S512x64 ![0, off] Q hq) (extractStridedSlice S2048x64 ![0, off] K hk)
        (extractStridedSlice S2048x64 ![0, off] V hv) B (ix3 (0 : Fin 1) r l)
      = ∑ c : Fin 2048, Cert.MHA.smax (fun c' => (∑ j : Fin 64, Q (ix2 r (Cert.MHA.col h j)) * K (ix2 c' (Cert.MHA.col h j)))
            * Ideal.ofBits .f32 0x3E000000#32 + B (ix2 (0 : Fin 1) c')) c * V (ix2 c (Cert.MHA.col h l)) := by
  have hcol : ∀ j : Fin 64, (Cert.MHA.col h j).val = off + j.val := fun j => by
    show 64 * h.val + j.val = off + j.val
    rw [hoff]
  rw [headOut_apply]
  have hs : (fun c' : Fin 2048 => scores (extractStridedSlice S512x64 ![0, off] Q hq)
        (extractStridedSlice S2048x64 ![0, off] K hk) B (ix2 r c'))
      = fun c' => (∑ j : Fin 64, Q (ix2 r (Cert.MHA.col h j)) * K (ix2 c' (Cert.MHA.col h j)))
            * Ideal.ofBits .f32 0x3E000000#32 + B (ix2 (0 : Fin 1) c') := by
    funext c'
    rw [scores_apply]
    refine congrArg (fun t => t * Ideal.ofBits .f32 0x3E000000#32 + B (ix2 (0 : Fin 1) c')) ?_
    refine Finset.sum_congr rfl fun j _ => ?_
    rw [slice2_axis1_apply off Q hq r j (Cert.MHA.col h j) (hcol j),
      slice2_axis1_apply off K hk c' j (Cert.MHA.col h j) (hcol j)]
  rw [hs]
  refine Finset.sum_congr rfl fun c _ => ?_
  rw [slice2_axis1_apply off V hv c l (Cert.MHA.col h l) (hcol l)]

end Cert.MHA.AttnBlock

end
-- ==== Proof.AttnBlockB.lean ====
/-
  One head of the attention block read from the block's four operands.

  The query block [1, 512, 1024], the key and value blocks [1, 2048, 1024] and the additive key bias [1, 1, 2048]
  reach the head with their leading unit axis dropped and the head's 64 columns cut out.  So the head's output at
  (r, l) is the softmax of the score row of block row r in head h, averaged against column 64·h + l of the value
  block: the block's result at (r, 64·h + l).
-/
import proofs.«126842_j55808805044352_2_alg».proof.Proof.AttnBlockA

noncomputable section

namespace Cert.MHA.AttnBlock

open Idealize.ShloMosaic Idealize.ShloMosaic.ValueIdx Cert.KernelIdeal Cert.KernelIdeal.Gen
open scoped BigOperators

/-- The score row of block row r in head h as the kernel forms it: the scaled inner product over the head's lanes
    plus the additive bias of the key. -/
def srow (x0 : Vec Ideal S1x512x1024 .bf16) (x1 : Vec Ideal S1x2048x1024 .bf16) (x3 : Vec Ideal S1x1x2048 .f32)
    (h : Fin 16) (r : Fin 512) (k : Fin 2048) : EReal :=
  (∑ j : Fin 64, x0 (ix3 (0 : Fin 1) r (Cert.MHA.col h j)) * x1 (ix3 (0 : Fin 1) k (Cert.MHA.col h j)))
    * Ideal.ofBits .f32 0x3E000000#32 + x3 (ix3 (0 : Fin 1) (0 : Fin 1) k)

/-- The block's result at row r and column e: the softmax weights of e's head average column e of the value rows. -/
def blockOut (x0 : Vec Ideal S1x512x1024 .bf16) (x1 x2 : Vec Ideal S1x2048x1024 .bf16) (x3 : Vec Ideal S1x1x2048 .f32)
    (r : Fin 512) (e : Fin 1024) : EReal :=
  ∑ k : Fin 2048, Cert.MHA.smax (srow x0 x1 x3 (Cert.MHA.headOf e) r) k * x2 (ix3 (0 : Fin 1) k e)

theorem headOf_col (h : Fin 16) (l : Fin 64) : Cert.MHA.headOf (Cert.MHA.col h l) = h :=
  Fin.ext (by show (64 * h.val + l.val) / 64 = h.val; omega)

theorem hz3 : (![0, 0, 0] : Fin 3 → Nat) = fun _ => 0 := funext fun a => by
  match a with
  | ⟨0, _⟩ => rfl
  | ⟨1, _⟩ => rfl
  | ⟨2, _⟩ => rfl

/-- The query block with its unit axis dropped, at (r, e). -/
theorem q_apply (x0 : Vec Ideal S1x512x1024 .bf16) (r : Fin 512) (e : Fin 1024) :
    k3_pay2 (F := Ideal) (View.ld x0 r3_0) (ix2 r e) = x0 (ix3 (0 : Fin 1) r e) := by
  unfold k3_pay2
  rw [View.ld_unit_zero hz3]
  exact shapeCast_1ab_ab_apply x0 shapeCasts_S1x512x1024_S512x1024 r e

/-- The key block with its unit axis dropped, at (k, e). -/
theorem k_apply (x1 : Vec Ideal S1x2048x1024 .bf16) (k : Fin 2048) (e : Fin 1024) :
    k3_pay3 (F := Ideal) (View.ld x1 r3_1) (ix2 k e) = x1 (ix3 (0 : Fin 1) k e) := by
  unfold k3_pay3
  rw [View.ld_unit_zero hz3]
  exact shapeCast_1ab_ab_apply x1 shapeCasts_S1x2048x1024_S2048x1024 k e

/-- The value block with its unit axis dropped, at (k, e). -/
theorem v_apply (x2 : Vec Ideal S1x2048x1024 .bf16) (k : Fin 2048) (e : Fin 1024) :
    k3_pay4 (F := Ideal) (View.ld x2 r3_1) (ix2 k e) = x2 (ix3 (0 : Fin 1) k e) := by
  unfold k3_pay4
  rw [View.ld_unit_zero hz3]
  exact shapeCast_1ab_ab_apply x2 shapeCasts_S1x2048x1024_S2048x1024 k e

/-- The bias with its leading unit axis dropped, at (0, k). -/
theorem b_apply (x3 : Vec Ideal S1x1x2048 .f32) (k : Fin 2048) :
    k3_pay5 (F := Ideal) (View.ld x3 r3_2) (ix2 (0 : Fin 1) k) = x3 (ix3 (0 : Fin 1) (0 : Fin 1) k) := by
  unfold k3_pay5
  rw [View.ld_unit_zero hz3]
  exact shapeCast_1ab_ab_apply x3 shapeCasts_S1x1x2048_S1x2048 0 k

/-- Head h of the block, cut from the block's operands at column 64·h, at (r, l): the block's result at
    (r, 64·h + l). -/
theorem head_block (x0 : Vec Ideal S1x512x1024 .bf16) (x1 x2 : Vec Ideal S1x2048x1024 .bf16) (x3 : Vec Ideal S1x1x2048 .f32)
    (off : ℕ) (hq : S512x1024.Slices ![0, off] S512x64) (hk : S2048x1024.Slices ![0, off] S2048x64)
    (hv : S2048x1024.Slices ![0, off] S2048x64) (h : Fin 16) (hoff : off = 64 * h.val) (r : Fin 512) (l : Fin 64) :
    headOut (extractStridedSlice S512x64 ![0, off] (k3_pay2 (F := Ideal) (View.ld x0 r3_0)) hq)
        (extractStridedSlice S2048x64 ![0, off] (k3_pay3 (F := Ideal) (View.ld x1 r3_1)) hk)
        (extractStridedSlice S2048x64 ![0, off] (k3_pay4 (F := Ideal) (View.ld x2 r3_1)) hv)
        (k3_pay5 (F := Ideal) (View.ld x3 r3_2)) (ix3 (0 : Fin 1) r l)
      = blockOut x0 x1 x2 x3 r (Cert.MHA.col h l) := by
  refine (headOut_slices _ _ _ _ off hq hk hv h hoff r l).trans ?_
  unfold blockOut
  rw [headOf_col]
  have hs : (fun c' : Fin 2048 => (∑ j : Fin 64, k3_pay2 (F := Ideal) (View.ld x0 r3_0) (ix2 r (Cert.MHA.col h j))
          * k3_pay3 (F := Ideal) (View.ld x1 r3_1) (ix2 c' (Cert.MHA.col h j)))
        * Ideal.ofBits .f32 0x3E000000#32 + k3_pay5 (F := Ideal) (View.ld x3 r3_2) (ix2 (0 : Fin 1) c'))
      = srow x0 x1 x3 h r := by
    funext c'
    unfold srow
    rw [b_apply]
    refine congrArg (fun t => t * Ideal.ofBits .f32 0x3E000000#32 + x3 (ix3 (0 : Fin 1) (0 : Fin 1) c')) ?_
    refine Finset.sum_congr rfl fun j _ => ?_
    rw [q_apply, k_apply]
  rw [hs]
  refine Finset.sum_congr rfl fun c _ => ?_
  rw [v_apply]

/-- The buffer's index under a piece's index (r, l), the piece being the 64 columns from column 64·h: row r,
    column 64·h + l. -/
theorem emb_coords (off : ℕ) (inb : ∀ a, (![0, 0, off] : Fin 3 → Nat) a + S1x512x64.size a ≤ S1x512x1024.size a)
    (h : Fin 16) (hoff : off = 64 * h.val) (u : Fin 1) (r : Fin 512) (l : Fin 64) :
    (Rect.unit (s := S1x512x1024) ![0, 0, off] S1x512x64.size inb).emb (ix3 u r l)
      = ix3 (0 : Fin 1) r (Cert.MHA.col h l) := by
  funext a
  apply Fin.ext
  match a with
  | ⟨0, _⟩ => show 0 + 1 * u.val = 0; omega
  | ⟨1, _⟩ => show 0 + 1 * r.val = r.val; omega
  | ⟨2, _⟩ => show off + 1 * l.val = 64 * h.val + l.val; omega

end Cert.MHA.AttnBlock

end
-- ==== Proof.AttnBlockC.lean ====
/-
  The sixteen stores of the attention block, head by head.

  The block's body computes head h from the 64 columns at column 64·h of its query, key and value operands and the
  bias row, and stores the result at the same columns.  Each stored value is the one-head function of those slices:
  the same operations in the same order, so the two terms agree by unfolding their definitions.
-/
import proofs.«126842_j55808805044352_2_alg».proof.Proof.AttnBlockA

noncomputable section

namespace Cert.MHA.AttnBlock

open Idealize.ShloMosaic Idealize.ShloMosaic.ValueIdx Cert.KernelIdeal Cert.KernelIdeal.Gen
open scoped BigOperators

variable (Q : FVec Ideal S512x1024 .bf16) (K V : FVec Ideal S2048x1024 .bf16) (B : FVec Ideal S1x2048 .f32)

/-- Head 0: the stored value is formed from the operands as loaded; their unit axes are dropped inside. -/
theorem piece0 (v0 : Vec Ideal S1x512x1024 .bf16) (v2 v4 : Vec Ideal S1x2048x1024 .bf16) (v6 : Vec Ideal S1x1x2048 .f32) :
    k3_pay6 (F := Ideal) v0 v2 v4 v6
      = headOut (extractStridedSlice S512x64 ![0, 0] (k3_pay2 v0) slices_S512x1024_o0_0_S512x64)
        (extractStridedSlice S2048x64 ![0, 0] (k3_pay3 v2) slices_S2048x1024_o0_0_S2048x64)
        (extractStridedSlice S2048x64 ![0, 0] (k3_pay4 v4) slices_S2048x1024_o0_0_S2048x64) (k3_pay5 v6) := rfl

/-- Head 1: its query-key product is formed before the rest of the head. -/
theorem piece1 (v0 : Vec Ideal S1x512x1024 .bf16) (v2 v4 : Vec Ideal S1x2048x1024 .bf16) :
    k3_pay9 (F := Ideal) B (k3_pay7 v4) (k3_pay8 v0 v2) (Scalar.ofBits .f32 0x3E000000#32)
      = headOut (extractStridedSlice S512x64 ![0, 64] (k3_pay2 v0) slices_S512x1024_o0_64_S512x64)
        (extractStridedSlice S2048x64 ![0, 64] (k3_pay3 v2) slices_S2048x1024_o0_64_S2048x64)
        (extractStridedSlice S2048x64 ![0, 64] (k3_pay4 v4) slices_S2048x1024_o0_64_S2048x64) B := rfl

/-- Head 2: the columns from column 128. -/
theorem piece2 :
    k3_pay10 (F := Ideal) Q K V B
      = headOut (extractStridedSlice S512x64 ![0, 128] Q slices_S512x1024_o0_128_S512x64)
        (extractStridedSlice S2048x64 ![0, 128] K slices_S2048x1024_o0_128_S2048x64)
        (extractStridedSlice S2048x64 ![0, 128] V slices_S2048x1024_o0_128_S2048x64) B := rfl

/-- Head 3: the columns from column 192. -/
theorem piece3 :
    k3_pay13 (F := Ideal) V B (k3_pay11 Q) (k3_pay12 K)
      = headOut (extractStridedSlice S512x64 ![0, 192] Q slices_S512x1024_o0_192_S512x64)
        (extractStridedSlice S2048x64 ![0, 192] K slices_S2048x1024_o0_192_S2048x64)
        (extractStridedSlice S2048x64 ![0, 192] V slices_S2048x1024_o0_192_S2048x64) B := rfl

/-- Head 4: the columns from column 256. -/
theorem piece4 :
    k3_pay15 (F := Ideal) (k3_pay14 Q K V B)
      = headOut (extractStridedSlice S512x64 ![0, 256] Q slices_S512x1024_o0_256_S512x64)
        (extractStridedSlice S2048x64 ![0, 256] K slices_S2048x1024_o0_256_S2048x64)
        (extractStridedSlice S2048x64 ![0, 256] V slices_S2048x1024_o0_256_S2048x64) B := rfl

/-- Head 5: the columns from column 320. -/
theorem piece5 :
    k3_pay16 (F := Ideal) Q K V B
      = headOut (extractStridedSlice S512x64 ![0, 320] Q slices_S512x1024_o0_320_S512x64)
        (extractStridedSlice S2048x64 ![0, 320] K slices_S2048x1024_o0_320_S2048x64)
        (extractStridedSlice S2048x64 ![0, 320] V slices_S2048x1024_o0_320_S2048x64) B := rfl

/-- Head 6: the columns from column 384. -/
theorem piece6 :
    k3_pay18 (F := Ideal) (k3_pay17 Q K V B)
      = headOut (extractStridedSlice S512x64 ![0, 384] Q slices_S512x1024_o0_384_S512x64)
        (extractStridedSlice S2048x64 ![0, 384] K slices_S2048x1024_o0_384_S2048x64)
        (extractStridedSlice S2048x64 ![0, 384] V slices_S2048x1024_o0_384_S2048x64) B := rfl

/-- Head 7: the columns from column 448. -/
theorem piece7 :
    k3_pay19 (F := Ideal) Q K V B
      = headOut (extractStridedSlice S512x64 ![0, 448] Q slices_S512x1024_o0_448_S512x64)
        (extractStridedSlice S2048x64 ![0, 448] K slices_S2048x1024_o0_448_S2048x64)
        (extractStridedSlice S2048x64 ![0, 448] V slices_S2048x1024_o0_448_S2048x64) B := rfl

/-- Head 8: the columns from column 512. -/
theorem piece8 :
    k3_pay22 (F := Ideal) (k3_pay20 V) (k3_pay21 Q K B)
      = headOut (extractStridedSlice S512x64 ![0, 512] Q slices_S512x1024_o0_512_S512x64)
        (extractStridedSlice S2048x64 ![0, 512] K slices_S2048x1024_o0_512_S2048x64)
        (extractStridedSlice S2048x64 ![0, 512] V slices_S2048x1024_o0_512_S2048x64) B := rfl

/-- Head 9: the columns from column 576. -/
theorem piece9 :
    k3_pay23 (F := Ideal) Q K V B
      = headOut (extractStridedSlice S512x64 ![0, 576] Q slices_S512x1024_o0_576_S512x64)
        (extractStridedSlice S2048x64 ![0, 576] K slices_S2048x1024_o0_576_S2048x64)
        (extractStridedSlice S2048x64 ![0, 576] V slices_S2048x1024_o0_576_S2048x64) B := rfl

/-- Head 10: the columns from column 640. -/
theorem piece10 :
    k3_pay27 (F := Ideal) (k3_pay24 V) (k3_pay25 Q K B) (k3_pay26 Q K B)
      = headOut (extractStridedSlice S512x64 ![0, 640] Q slices_S512x1024_o0_640_S512x64)
        (extractStridedSlice S2048x64 ![0, 640] K slices_S2048x1024_o0_640_S2048x64)
        (extractStridedSlice S2048x64 ![0, 640] V slices_S2048x1024_o0_640_S2048x64) B := rfl

/-- Head 11: the columns from column 704. -/
theorem piece11 :
    k3_pay28 (F := Ideal) Q K V B
      = headOut (extractStridedSlice S512x64 ![0, 704] Q slices_S512x1024_o0_704_S512x64)
        (extractStridedSlice S2048x64 ![0, 704] K slices_S2048x1024_o0_704_S2048x64)
        (extractStridedSlice S2048x64 ![0, 704] V slices_S2048x1024_o0_704_S2048x64) B := rfl

/-- Head 12: the columns from column 768. -/
theorem piece12 :
    k3_pay32 (F := Ideal) (k3_pay29 V) (k3_pay30 Q K B) (k3_pay31 Q K B)
      = headOut (extractStridedSlice S512x64 ![0, 768] Q slices_S512x1024_o0_768_S512x64)
        (extractStridedSlice S2048x64 ![0, 768] K slices_S2048x1024_o0_768_S2048x64)
        (extractStridedSlice S2048x64 ![0, 768] V slices_S2048x1024_o0_768_S2048x64) B := rfl

/-- Head 13: the columns from column 832. -/
theorem piece13 :
    k3_pay33 (F := Ideal) Q K V B
      = headOut (extractStridedSlice S512x64 ![0, 832] Q slices_S512x1024_o0_832_S512x64)
        (extractStridedSlice S2048x64 ![0, 832] K slices_S2048x1024_o0_832_S2048x64)
        (extractStridedSlice S2048x64 ![0, 832] V slices_S2048x1024_o0_832_S2048x64) B := rfl

/-- Head 14: the columns from column 896. -/
theorem piece14 :
    k3_pay36 (F := Ideal) (k3_pay34 V) (k3_pay35 Q K B)
      = headOut (extractStridedSlice S512x64 ![0, 896] Q slices_S512x1024_o0_896_S512x64)
        (extractStridedSlice S2048x64 ![0, 896] K slices_S2048x1024_o0_896_S2048x64)
        (extractStridedSlice S2048x64 ![0, 896] V slices_S2048x1024_o0_896_S2048x64) B := rfl

/-- Head 15: the columns from column 960. -/
theorem piece15 :
    k3_pay1 (F := Ideal) (k3_pay37 Q K V B)
      = headOut (extractStridedSlice S512x64 ![0, 960] Q slices_S512x1024_o0_960_S512x64)
        (extractStridedSlice S2048x64 ![0, 960] K slices_S2048x1024_o0_960_S2048x64)
        (extractStridedSlice S2048x64 ![0, 960] V slices_S2048x1024_o0_960_S2048x64) B := rfl

end Cert.MHA.AttnBlock

end
-- ==== Proof.AttnBlock.lean ====
/-
  The attention block's output buffer, entry by entry.

  The body's sixteen stores tile the [1, 512, 1024] buffer by heads: store h writes the 64 columns from column 64·h
  with head h's result.  Every store's value at its own (r, l) is one function of the buffer's index, the block's
  result at (r, 64·h + l); so the buffer holds that function everywhere.
-/
import proofs.«126842_j55808805044352_2_alg».proof.Proof.AttnBlockB
import proofs.«126842_j55808805044352_2_alg».proof.Proof.AttnBlockC

noncomputable section

namespace Cert.MHA.AttnBlock

open Idealize.ShloMosaic Idealize.ShloMosaic.ValueIdx Cert.KernelIdeal Cert.KernelIdeal.Gen
open scoped BigOperators

/-- The block's result as a function of the buffer's index. -/
def blockFn (x0 : Vec Ideal S1x512x1024 .bf16) (x1 x2 : Vec Ideal S1x2048x1024 .bf16) (x3 : Vec Ideal S1x1x2048 .f32) :
    Vec Ideal S1x512x1024 .bf16 := fun y => blockOut x0 x1 x2 x3 (y 1) (y 2)

/-- A store of head h's result through the rectangle of the 64 columns from column 64·h agrees with the block's
    result at every index of the rectangle. -/
theorem piece_read (x0 : Vec Ideal S1x512x1024 .bf16) (x1 x2 : Vec Ideal S1x2048x1024 .bf16) (x3 : Vec Ideal S1x1x2048 .f32)
    (off : ℕ) (inb : ∀ a, (![0, 0, off] : Fin 3 → Nat) a + S1x512x64.size a ≤ S1x512x1024.size a)
    (hq : S512x1024.Slices ![0, off] S512x64) (hk : S2048x1024.Slices ![0, off] S2048x64)
    (hv : S2048x1024.Slices ![0, off] S2048x64) (h : Fin 16) (hoff : off = 64 * h.val)
    (pay : FVec Ideal S1x512x64 .bf16)
    (hpay : pay = headOut (extractStridedSlice S512x64 ![0, off] (k3_pay2 (F := Ideal) (View.ld x0 r3_0)) hq)
        (extractStridedSlice S2048x64 ![0, off] (k3_pay3 (F := Ideal) (View.ld x1 r3_1)) hk)
        (extractStridedSlice S2048x64 ![0, off] (k3_pay4 (F := Ideal) (View.ld x2 r3_1)) hv)
        (k3_pay5 (F := Ideal) (View.ld x3 r3_2)))
    (x : S1x512x64.Idx) :
    pay x = blockFn x0 x1 x2 x3 ((Rect.unit (s := S1x512x1024) ![0, 0, off] S1x512x64.size inb).emb x) := by
  obtain ⟨u, r, l, rfl⟩ : ∃ (u : Fin 1) (r : Fin 512) (l : Fin 64), x = ix3 u r l := ⟨x 0, x 1, x 2, eq_ix3 x⟩
  obtain rfl : u = 0 := Subsingleton.elim u 0
  rw [emb_coords off inb h hoff 0 r l, hpay]
  exact head_block x0 x1 x2 x3 off hq hk hv h hoff r l

/-- The buffer after the body, at (0, r, e): the softmax weights of e's head in row r average column e of the value
    rows. -/
theorem out3_4_apply (x0 : Vec Ideal S1x512x1024 .bf16) (x1 x2 : Vec Ideal S1x2048x1024 .bf16) (x3 : Vec Ideal S1x1x2048 .f32)
    (r : Fin 512) (e : Fin 1024) :
    Cert.KernelIdeal.Gen.out3_4 (F := Ideal) x0 x1 x2 x3 (ix3 (0 : Fin 1) r e)
      = ∑ k : Fin 2048, Cert.MHA.smax (srow x0 x1 x3 (Cert.MHA.headOf e) r) k * x2 (ix3 (0 : Fin 1) k e) := by
  show _ = blockFn x0 x1 x2 x3 (ix3 (0 : Fin 1) r e)
  unfold out3_4
  refine View.canon_apply_of_pieces (blockFn x0 x1 x2 x3) _ (fun p hp x => ?_) (ix3 (0 : Fin 1) r e)
    (cover3_4 _ _ _ _ _ _ _ _ _ _ _ _ _ _ _ _ (ix3 (0 : Fin 1) r e))
  simp only [List.mem_cons, List.mem_nil_iff, or_false] at hp
  rcases hp with rfl | rfl | rfl | rfl | rfl | rfl | rfl | rfl | rfl | rfl | rfl | rfl | rfl | rfl | rfl | rfl
  · exact piece_read x0 x1 x2 x3 960 inb_S1x512x1024_S1x512x64_0_0_960 slices_S512x1024_o0_960_S512x64
      slices_S2048x1024_o0_960_S2048x64 slices_S2048x1024_o0_960_S2048x64 15 rfl _
      (piece15 (k3_pay2 (F := Ideal) (View.ld x0 r3_0)) (k3_pay3 (F := Ideal) (View.ld x1 r3_1)) (k3_pay4 (F := Ideal) (View.ld x2 r3_1)) (k3_pay5 (F := Ideal) (View.ld x3 r3_2))) x
  · exact piece_read x0 x1 x2 x3 896 inb_S1x512x1024_S1x512x64_0_0_896 slices_S512x1024_o0_896_S512x64
      slices_S2048x1024_o0_896_S2048x64 slices_S2048x1024_o0_896_S2048x64 14 rfl _
      (piece14 (k3_pay2 (F := Ideal) (View.ld x0 r3_0)) (k3_pay3 (F := Ideal) (View.ld x1 r3_1)) (k3_pay4 (F := Ideal) (View.ld x2 r3_1)) (k3_pay5 (F := Ideal) (View.ld x3 r3_2))) x
  · exact piece_read x0 x1 x2 x3 832 inb_S1x512x1024_S1x512x64_0_0_832 slices_S512x1024_o0_832_S512x64
      slices_S2048x1024_o0_832_S2048x64 slices_S2048x1024_o0_832_S2048x64 13 rfl _
      (piece13 (k3_pay2 (F := Ideal) (View.ld x0 r3_0)) (k3_pay3 (F := Ideal) (View.ld x1 r3_1)) (k3_pay4 (F := Ideal) (View.ld x2 r3_1)) (k3_pay5 (F := Ideal) (View.ld x3 r3_2))) x
  · exact piece_read x0 x1 x2 x3 768 inb_S1x512x1024_S1x512x64_0_0_768 slices_S512x1024_o0_768_S512x64
      slices_S2048x1024_o0_768_S2048x64 slices_S2048x1024_o0_768_S2048x64 12 rfl _
      (piece12 (k3_pay2 (F := Ideal) (View.ld x0 r3_0)) (k3_pay3 (F := Ideal) (View.ld x1 r3_1)) (k3_pay4 (F := Ideal) (View.ld x2 r3_1)) (k3_pay5 (F := Ideal) (View.ld x3 r3_2))) x
  · exact piece_read x0 x1 x2 x3 704 inb_S1x512x1024_S1x512x64_0_0_704 slices_S512x1024_o0_704_S512x64
      slices_S2048x1024_o0_704_S2048x64 slices_S2048x1024_o0_704_S2048x64 11 rfl _
      (piece11 (k3_pay2 (F := Ideal) (View.ld x0 r3_0)) (k3_pay3 (F := Ideal) (View.ld x1 r3_1)) (k3_pay4 (F := Ideal) (View.ld x2 r3_1)) (k3_pay5 (F := Ideal) (View.ld x3 r3_2))) x
  · exact piece_read x0 x1 x2 x3 640 inb_S1x512x1024_S1x512x64_0_0_640 slices_S512x1024_o0_640_S512x64
      slices_S2048x1024_o0_640_S2048x64 slices_S2048x1024_o0_640_S2048x64 10 rfl _
      (piece10 (k3_pay2 (F := Ideal) (View.ld x0 r3_0)) (k3_pay3 (F := Ideal) (View.ld x1 r3_1)) (k3_pay4 (F := Ideal) (View.ld x2 r3_1)) (k3_pay5 (F := Ideal) (View.ld x3 r3_2))) x
  · exact piece_read x0 x1 x2 x3 576 inb_S1x512x1024_S1x512x64_0_0_576 slices_S512x1024_o0_576_S512x64
      slices_S2048x1024_o0_576_S2048x64 slices_S2048x1024_o0_576_S2048x64 9 rfl _
      (piece9 (k3_pay2 (F := Ideal) (View.ld x0 r3_0)) (k3_pay3 (F := Ideal) (View.ld x1 r3_1)) (k3_pay4 (F := Ideal) (View.ld x2 r3_1)) (k3_pay5 (F := Ideal) (View.ld x3 r3_2))) x
  · exact piece_read x0 x1 x2 x3 512 inb_S1x512x1024_S1x512x64_0_0_512 slices_S512x1024_o0_512_S512x64
      slices_S2048x1024_o0_512_S2048x64 slices_S2048x1024_o0_512_S2048x64 8 rfl _
      (piece8 (k3_pay2 (F := Ideal) (View.ld x0 r3_0)) (k3_pay3 (F := Ideal) (View.ld x1 r3_1)) (k3_pay4 (F := Ideal) (View.ld x2 r3_1)) (k3_pay5 (F := Ideal) (View.ld x3 r3_2))) x
  · exact piece_read x0 x1 x2 x3 448 inb_S1x512x1024_S1x512x64_0_0_448 slices_S512x1024_o0_448_S512x64
      slices_S2048x1024_o0_448_S2048x64 slices_S2048x1024_o0_448_S2048x64 7 rfl _
      (piece7 (k3_pay2 (F := Ideal) (View.ld x0 r3_0)) (k3_pay3 (F := Ideal) (View.ld x1 r3_1)) (k3_pay4 (F := Ideal) (View.ld x2 r3_1)) (k3_pay5 (F := Ideal) (View.ld x3 r3_2))) x
  · exact piece_read x0 x1 x2 x3 384 inb_S1x512x1024_S1x512x64_0_0_384 slices_S512x1024_o0_384_S512x64
      slices_S2048x1024_o0_384_S2048x64 slices_S2048x1024_o0_384_S2048x64 6 rfl _
      (piece6 (k3_pay2 (F := Ideal) (View.ld x0 r3_0)) (k3_pay3 (F := Ideal) (View.ld x1 r3_1)) (k3_pay4 (F := Ideal) (View.ld x2 r3_1)) (k3_pay5 (F := Ideal) (View.ld x3 r3_2))) x
  · exact piece_read x0 x1 x2 x3 320 inb_S1x512x1024_S1x512x64_0_0_320 slices_S512x1024_o0_320_S512x64
      slices_S2048x1024_o0_320_S2048x64 slices_S2048x1024_o0_320_S2048x64 5 rfl _
      (piece5 (k3_pay2 (F := Ideal) (View.ld x0 r3_0)) (k3_pay3 (F := Ideal) (View.ld x1 r3_1)) (k3_pay4 (F := Ideal) (View.ld x2 r3_1)) (k3_pay5 (F := Ideal) (View.ld x3 r3_2))) x
  · exact piece_read x0 x1 x2 x3 256 inb_S1x512x1024_S1x512x64_0_0_256 slices_S512x1024_o0_256_S512x64
      slices_S2048x1024_o0_256_S2048x64 slices_S2048x1024_o0_256_S2048x64 4 rfl _
      (piece4 (k3_pay2 (F := Ideal) (View.ld x0 r3_0)) (k3_pay3 (F := Ideal) (View.ld x1 r3_1)) (k3_pay4 (F := Ideal) (View.ld x2 r3_1)) (k3_pay5 (F := Ideal) (View.ld x3 r3_2))) x
  · exact piece_read x0 x1 x2 x3 192 inb_S1x512x1024_S1x512x64_0_0_192 slices_S512x1024_o0_192_S512x64
      slices_S2048x1024_o0_192_S2048x64 slices_S2048x1024_o0_192_S2048x64 3 rfl _
      (piece3 (k3_pay2 (F := Ideal) (View.ld x0 r3_0)) (k3_pay3 (F := Ideal) (View.ld x1 r3_1)) (k3_pay4 (F := Ideal) (View.ld x2 r3_1)) (k3_pay5 (F := Ideal) (View.ld x3 r3_2))) x
  · exact piece_read x0 x1 x2 x3 128 inb_S1x512x1024_S1x512x64_0_0_128 slices_S512x1024_o0_128_S512x64
      slices_S2048x1024_o0_128_S2048x64 slices_S2048x1024_o0_128_S2048x64 2 rfl _
      (piece2 (k3_pay2 (F := Ideal) (View.ld x0 r3_0)) (k3_pay3 (F := Ideal) (View.ld x1 r3_1)) (k3_pay4 (F := Ideal) (View.ld x2 r3_1)) (k3_pay5 (F := Ideal) (View.ld x3 r3_2))) x
  · exact piece_read x0 x1 x2 x3 64 inb_S1x512x1024_S1x512x64_0_0_64 slices_S512x1024_o0_64_S512x64
      slices_S2048x1024_o0_64_S2048x64 slices_S2048x1024_o0_64_S2048x64 1 rfl _
      (piece1 (k3_pay5 (F := Ideal) (View.ld x3 r3_2)) (View.ld x0 r3_0) (View.ld x1 r3_1) (View.ld x2 r3_1)) x
  · exact piece_read x0 x1 x2 x3 0 inb_S1x512x1024_S1x512x64_0_0_0 slices_S512x1024_o0_0_S512x64
      slices_S2048x1024_o0_0_S2048x64 slices_S2048x1024_o0_0_S2048x64 0 rfl _
      (piece0 (View.ld x0 r3_0) (View.ld x1 r3_1) (View.ld x2 r3_1) (View.ld x3 r3_2)) x

end Cert.MHA.AttnBlock

end
-- ==== Proof.LinCongr.lean ====
/-
  The output layer applied to the attention output.

  A linear layer at (g, l, e) depends on its activation only through row (g, l).  The whole layer of the
  specification is the output layer applied to the attention output read as an array.
-/
import proofs.«126842_j55808805044352_2_alg».proof.Proof.Spec

noncomputable section

namespace Cert.MHA

open Idealize.ShloMosaic Idealize.ShloMosaic.ValueIdx
open scoped BigOperators

/-- A linear layer at (g, l, e) reads row (g, l) of its activation only. -/
theorem lin_congr (X X' : Act) (W : Wt) (B : Bias) (g : Fin 2) (l : Fin 2048) (e : Fin 1024)
    (h : ∀ d : Fin 1024, X (ix3 g l d) = X' (ix3 g l d)) : lin X W B g l e = lin X' W B g l e := by
  unfold lin
  refine congrArg (· + B (ix1 e)) (Finset.sum_congr rfl fun d _ => ?_)
  rw [h d]

/-- The attention output as an array. -/
def attnArr (Q K V : Proj) (mask : Mask) : Act := fun i => attn Q K V mask (i 0) (i 1) (i 2)

theorem attnArr_apply (Q K V : Proj) (mask : Mask) (g : Fin 2) (l : Fin 2048) (d : Fin 1024) :
    attnArr Q K V mask (ix3 g l d) = attn Q K V mask g l d := rfl

/-- The specification at (g, l, e) is the output layer on the attention output. -/
theorem mha_apply (x0 x1 x2 : Act) (mask : Mask) (Wq : Wt) (bq : Bias) (Wk : Wt) (bk : Bias) (Wv : Wt) (bv : Bias)
    (Wo : Wt) (bo : Bias) (g : Fin 2) (l : Fin 2048) (e : Fin 1024) :
    mha x0 x1 x2 mask Wq bq Wk bk Wv bv Wo bo (ix3 g l e)
      = lin (attnArr (lin x0 Wq bq) (lin x1 Wk bk) (lin x2 Wv bv) mask) Wo bo g l e := rfl

end Cert.MHA

end
-- ==== Proof.KernelValue.lean ====
/-
  The idealized kernel program's result is the attention layer of its arguments.

  Reading the buffers backwards from the return: the result is the last linear kernel's output folded to
  [2, 2048, 1024]; that kernel read the flattened attention output, the transposed output weights and the output
  bias; the attention kernel read the three projections folded to [2, 2048, 1024] and the additive bias built from
  the mask; each projection is a linear kernel's output on a flattened argument with a transposed weight matrix.  At
  every index these compose to the specification: the projections are the linear layers, the biased score is the
  masked score, and the output layer is applied to the attention output.
-/
import proofs.«126842_j55808805044352_2_alg».proof.Proof.HostReads
import proofs.«126842_j55808805044352_2_alg».proof.Proof.Reg0
import proofs.«126842_j55808805044352_2_alg».proof.Proof.Reg1
import proofs.«126842_j55808805044352_2_alg».proof.Proof.Reg2
import proofs.«126842_j55808805044352_2_alg».proof.Proof.Reg3
import proofs.«126842_j55808805044352_2_alg».proof.Proof.Reg4
import proofs.«126842_j55808805044352_2_alg».proof.Proof.Gatt
import proofs.«126842_j55808805044352_2_alg».proof.Proof.AttnBlock
import proofs.«126842_j55808805044352_2_alg».proof.Proof.Spec
import proofs.«126842_j55808805044352_2_alg».proof.Proof.LinCongr

noncomputable section

namespace Cert.MHA.KernelValue

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg) (c : Dev nD)

/-- The attention kernel's block, as the block lemma states it. -/
theorem hblk (x0 : Vec Ideal S1x512x1024 .bf16) (x1 x2 : Vec Ideal S1x2048x1024 .bf16) (x3 : Vec Ideal S1x1x2048 .f32)
    (r : Fin 512) (e : Fin 1024) :
    out3_4 (F := Ideal) x0 x1 x2 x3 (ix3 (0 : Fin 1) r e)
      = ∑ k : Fin 2048, smax (fun k' => (∑ j : Fin 64, x0 (ix3 (0 : Fin 1) r (col (headOf e) j)) * x1 (ix3 (0 : Fin 1) k' (col (headOf e) j)))
          * Ideal.ofBits .f32 0x3E000000#32 + x3 (ix3 (0 : Fin 1) (0 : Fin 1) k')) k * x2 (ix3 (0 : Fin 1) k e) :=
  AttnBlock.out3_4_apply x0 x1 x2 x3 r e

/-- The query projection as the attention kernel finds it. -/
theorem q_at (g : Fin 2) (q : Fin 2048) (e : Fin 1024) :
    (W7 m ρ c (Proc.devRef .tc main_v10) : S2x2048x1024.Idx → EReal) (ix3 g q e)
      = lin (m ((c : Thread nD τ).loc main_arg0)) (m ((c : Thread nD τ).loc main_arg4)) (m ((c : Thread nD τ).loc main_arg5)) g q e := by
  rw [Chain.w7_v10, Chain.w4_v7, Reg0.final (V1 m ρ) c]
  show shapeCast S2x2048x1024 (Glin (W1 m ρ c (Proc.devRef .tc main_v4)) (W1 m ρ c (Proc.devRef .tc main_v0)) (W1 m ρ c (Proc.devRef .tc main_arg5))) _ (ix3 g q e) = _
  rw [Chain.w1_v4, Chain.w1_v0, Chain.w1_arg5]
  exact proj_eq _ _ _ _ _ _ g q e

/-- The key projection as the attention kernel finds it. -/
theorem k_at (g : Fin 2) (q : Fin 2048) (e : Fin 1024) :
    (W7 m ρ c (Proc.devRef .tc main_v11) : S2x2048x1024.Idx → EReal) (ix3 g q e)
      = lin (m ((c : Thread nD τ).loc main_arg1)) (m ((c : Thread nD τ).loc main_arg6)) (m ((c : Thread nD τ).loc main_arg7)) g q e := by
  rw [Chain.w7_v11, Chain.w4_v8, Reg1.final (V2 m ρ) c]
  show shapeCast S2x2048x1024 (Glin (W2 m ρ c (Proc.devRef .tc main_v5)) (W2 m ρ c (Proc.devRef .tc main_v1)) (W2 m ρ c (Proc.devRef .tc main_arg7))) _ (ix3 g q e) = _
  rw [Chain.w2_v5, Chain.w2_v1, Chain.w2_arg7, Chain.w1_v5, Chain.w1_v1, Chain.w1_arg7]
  exact proj_eq _ _ _ _ _ _ g q e

/-- The value projection as the attention kernel finds it. -/
theorem v_at (g : Fin 2) (q : Fin 2048) (e : Fin 1024) :
    (W7 m ρ c (Proc.devRef .tc main_v12) : S2x2048x1024.Idx → EReal) (ix3 g q e)
      = lin (m ((c : Thread nD τ).loc main_arg2)) (m ((c : Thread nD τ).loc main_arg8)) (m ((c : Thread nD τ).loc main_arg9)) g q e := by
  rw [Chain.w7_v12, Chain.w4_v9, Reg2.final (V3 m ρ) c]
  show shapeCast S2x2048x1024 (Glin (W3 m ρ c (Proc.devRef .tc main_v6)) (W3 m ρ c (Proc.devRef .tc main_v2)) (W3 m ρ c (Proc.devRef .tc main_arg9))) _ (ix3 g q e) = _
  rw [Chain.w3_v6, Chain.w3_v2, Chain.w3_arg9, Chain.w1_v6, Chain.w1_v2, Chain.w1_arg9]
  exact proj_eq _ _ _ _ _ _ g q e

/-- The additive bias as the attention kernel finds it: the −∞ word at a masked key, the zero word elsewhere. -/
theorem bias_at (g : Fin 2) (k : Fin 2048) :
    (W7 m ρ c (Proc.devRef .tc main_v15) : S2x1x2048.Idx → EReal) (ix3 g (0 : Fin 1) k)
      = Scalar.select ((m ((c : Thread nD τ).loc main_arg3) : S2x2048.Idx → BitVec 1) (ix2 g k))
          (Ideal.ofBits .f32 0xFF800000#32) (Ideal.ofBits .f32 0x00000000#32) := by
  rw [Chain.w7_v15, Chain.w4_arg3]
  rw [shapeCast_apply _ shapeCasts_S2x2048_S2x1x2048 (ix3 g (0 : Fin 1) k) (ix2 g k) (by
    rw [Shape.rowMajor_val_two, Shape.rowMajor_val_three]
    show g.val * 2048 + k.val = (g.val * 1 + 0) * 2048 + k.val
    omega)]
  rw [select_apply, broadcastInDim_apply _ bcast_S_S2x2048 _ (ix2 g k) ix0 (fun a => a.elim0),
    broadcastInDim_apply _ bcast_S_S2x2048 _ (ix2 g k) ix0 (fun a => a.elim0)]
  rfl

/-- The attention kernel's output array is the attention of the three projections. -/
theorem att_at (g : Fin 2) (q : Fin 2048) (e : Fin 1024) :
    ((dat3 (V7 m ρ) c).arrAt 4 cfg3.N : S2x2048x1024.Idx → EReal) (ix3 g q e)
      = attn (lin (m ((c : Thread nD τ).loc main_arg0)) (m ((c : Thread nD τ).loc main_arg4)) (m ((c : Thread nD τ).loc main_arg5)))
          (lin (m ((c : Thread nD τ).loc main_arg1)) (m ((c : Thread nD τ).loc main_arg6)) (m ((c : Thread nD τ).loc main_arg7)))
          (lin (m ((c : Thread nD τ).loc main_arg2)) (m ((c : Thread nD τ).loc main_arg8)) (m ((c : Thread nD τ).loc main_arg9)))
          (m ((c : Thread nD τ).loc main_arg3)) g q e := by
  rw [Reg3.final (V7 m ρ) hblk c]
  show ∑ k : Fin 2048, smax (krow (W7 m ρ c (Proc.devRef .tc main_v10)) (W7 m ρ c (Proc.devRef .tc main_v11)) (W7 m ρ c (Proc.devRef .tc main_v15)) g (headOf e) q) k
      * (W7 m ρ c (Proc.devRef .tc main_v12) : S2x2048x1024.Idx → EReal) (ix3 g k e) = _
  unfold attn
  refine Finset.sum_congr rfl fun k _ => ?_
  rw [v_at m ρ c g k e]
  refine congrArg (fun s => smax s k * _) (funext fun k' => ?_)
  unfold krow score dotQK
  rw [bias_at m ρ c g k', add_bias]
  refine congrArg (Scalar.select _ _) (congrArg (· * Ideal.ofBits .f32 0x3E000000#32) (Finset.sum_congr rfl fun j _ => ?_))
  rw [q_at m ρ c g q _, k_at m ρ c g k' _]

/-- The result buffer at the return holds the attention layer of the argument arrays. -/
theorem kernel_eq :
    W11 m ρ c (Proc.devRef .tc main_v19)
      = mha (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  funext i
  obtain ⟨g, l, e, rfl⟩ : ∃ (g : Fin 2) (l : Fin 2048) (e : Fin 1024), i = ix3 g l e := ⟨i 0, i 1, i 2, eq_ix3 i⟩
  show (W11 m ρ c (Proc.devRef .tc main_v19) : S2x2048x1024.Idx → EReal) (ix3 g l e) = _
  rw [Chain.w11_v19, Reg4.final (V9 m ρ) c]
  show shapeCast S2x2048x1024 (Glin (W9 m ρ c (Proc.devRef .tc main_v17)) (W9 m ρ c (Proc.devRef .tc main_v3)) (W9 m ρ c (Proc.devRef .tc main_arg11))) _ (ix3 g l e) = _
  rw [Chain.w9_v17, Chain.w9_v3, Chain.w1_v3, Chain.w9_arg11, proj_eq, mha_apply]
  exact lin_congr _ _ _ _ g l e fun d => (att_at m ρ c g l d).trans (attnArr_apply _ _ _ _ g l d).symm

end Cert.MHA.KernelValue

end
-- ==== Proof.RefValue.lean ====
/-
  The reference program computes multi-head attention: its last stage, read index by index, is the specification.

  Each stage of the reference is read at explicit coordinates, outermost operation first.  A projection is
  x Wᵀ + b.  The reference views the 1024 columns of a projection as 16 heads of 64 lanes and moves the head axis in
  front of the row axis: entry (g, h, l, j) is column 64·h + j of row (g, l), because the row-major position of
  (g, l, h, j) in [2, 2048, 16, 64] is the row-major position of (g, l, 64·h + j) in [2, 2048, 1024].  Scores are
  inner products over a head's lanes times 1/8, with −∞ at masked keys; a score row's maximum is its supremum, and
  taking it once more against −∞ changes nothing; the exponentials of the shifted row are summed from 0 and divided
  through.  The weights average the value rows' lanes, the head axis goes back behind the row axis and the heads are
  laid side by side again (column e is lane e mod 64 of head e div 64), and the output layer is one more x Wᵀ + b.
-/
import proofs.«126842_j55808805044352_2_alg».proof.Proof.Gen.ReferenceIdeal.Read
import proofs.«126842_j55808805044352_2_alg».proof.Proof.Spec
import proofs.«126842_j55808805044352_2_alg».proof.Proof.LibExtremeReduce

noncomputable section

namespace Cert.MHA.RefValue

open Cert.ReferenceIdeal Cert.ReferenceIdeal.Gen Cert.ReferenceIdeal.Read Idealize.ShloMosaic Idealize.ShloMosaic.ValueIdx
open scoped BigOperators

/-! ## The projections -/

/-- A projection at (g, l, e). -/
theorem proj_at (x0 : (⟨S2x2048x1024, .f32⟩ : BufTy).Contents (Elt Ideal)) (x4 : (⟨S1024x1024, .f32⟩ : BufTy).Contents (Elt Ideal))
    (x5 : (⟨S1024, .f32⟩ : BufTy).Contents (Elt Ideal)) (g : Fin 2) (l : Fin 2048) (e : Fin 1024) :
    val_main_v3 (F := Ideal) x0 x4 x5 (ix3 g l e) = lin x0 x4 x5 g l e := by
  rw [val_main_v3_apply, val_main_v0_apply, val_main_v2_apply, val_main_v1_apply]
  have el : ∀ k : Fin 1024, lidx_main_v0 (ix3 g l e) k = ix3 g l k := fun k => funext fun a => Fin.ext (by
    match a with | ⟨0, _⟩ => rfl | ⟨1, _⟩ => rfl | ⟨2, _⟩ => rfl)
  have er : ∀ k : Fin 1024, ridx_main_v0 (ix3 g l e) k = ix2 e k := fun k => funext fun a => Fin.ext (by
    match a with | ⟨0, _⟩ => rfl | ⟨1, _⟩ => rfl)
  have eb : idx_main_v1 (idx_main_v2 (ix3 g l e)) = ix1 e := funext fun a => Fin.ext (by
    match a with | ⟨0, _⟩ => rfl)
  simp only [el, er, eb]
  rfl

/-- The key projection is the same operations on its own arguments. -/
theorem keyProj_eq (x1 : (⟨S2x2048x1024, .f32⟩ : BufTy).Contents (Elt Ideal)) (x6 : (⟨S1024x1024, .f32⟩ : BufTy).Contents (Elt Ideal))
    (x7 : (⟨S1024, .f32⟩ : BufTy).Contents (Elt Ideal)) :
    val_main_v11 (F := Ideal) x1 x6 x7 = val_main_v5 (F := Ideal) x1 x6 x7 := rfl

/-- The value projection is the same operations on its own arguments. -/
theorem valueProj_eq (x2 : (⟨S2x2048x1024, .f32⟩ : BufTy).Contents (Elt Ideal)) (x8 : (⟨S1024x1024, .f32⟩ : BufTy).Contents (Elt Ideal))
    (x9 : (⟨S1024, .f32⟩ : BufTy).Contents (Elt Ideal)) :
    val_main_v17 (F := Ideal) x2 x8 x9 = val_main_v5 (F := Ideal) x2 x8 x9 := rfl

/-- Row-major position of (g, l, h, j) in [2, 2048, 16, 64], read back in [2, 2048, 1024], is (g, l, 64·h + j). -/
theorem split_idx (g : Fin 2) (h : Fin 16) (l : Fin 2048) (j : Fin 64) :
    idx_main_v4 (idx_main_v5 (ix4 g h l j)) = ix3 g l (col h j) := by
  have hg := g.isLt; have hh := h.isLt; have hl := l.isLt; have hj := j.isLt
  funext a
  apply Fin.ext
  match a with
  | ⟨0, _⟩ => show (((g.val * 2048 + l.val) * 16 + h.val) * 64 + j.val) / 2097152 = g.val; omega
  | ⟨1, _⟩ => show (((g.val * 2048 + l.val) * 16 + h.val) * 64 + j.val) / 1024 % 2048 = l.val; omega
  | ⟨2, _⟩ => show (((g.val * 2048 + l.val) * 16 + h.val) * 64 + j.val) % 1024 = 64 * h.val + j.val; omega

/-- A projection split into heads, at (g, h, l, j): lane j of head h of row (g, l). -/
theorem heads_at (x0 : (⟨S2x2048x1024, .f32⟩ : BufTy).Contents (Elt Ideal)) (x4 : (⟨S1024x1024, .f32⟩ : BufTy).Contents (Elt Ideal))
    (x5 : (⟨S1024, .f32⟩ : BufTy).Contents (Elt Ideal)) (g : Fin 2) (h : Fin 16) (l : Fin 2048) (j : Fin 64) :
    val_main_v5 (F := Ideal) x0 x4 x5 (ix4 g h l j) = lin x0 x4 x5 g l (col h j) := by
  rw [val_main_v5_apply, val_main_v4_apply, split_idx, proj_at]

/-! ## The scores -/

/-- The scaled inner product of query row q and key row k over the lanes of head h. -/
theorem qk_at (x0 x1 : (⟨S2x2048x1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal)) (g : Fin 2) (h : Fin 16) (q k : Fin 2048) :
    val_main_v20 (F := Ideal) x0 x1 x4 x5 x6 x7 (ix4 g h q k)
      = dotQK (lin x0 x4 x5) (lin x1 x6 x7) g h q k := by
  rw [val_main_v20_apply, val_main_v18_apply, val_main_v19_apply, val_main_cst_apply]
  have el : ∀ j : Fin 64, lidx_main_v18 (ix4 g h q k) j = ix4 g h q j := fun j => funext fun a => Fin.ext (by
    match a with | ⟨0, _⟩ => rfl | ⟨1, _⟩ => rfl | ⟨2, _⟩ => rfl | ⟨3, _⟩ => rfl)
  have er : ∀ j : Fin 64, ridx_main_v18 (ix4 g h q k) j = ix4 g h k j := fun j => funext fun a => Fin.ext (by
    match a with | ⟨0, _⟩ => rfl | ⟨1, _⟩ => rfl | ⟨2, _⟩ => rfl | ⟨3, _⟩ => rfl)
  simp only [el, er, keyProj_eq, heads_at]
  rfl

/-- The score: the −∞ word at a masked key, else the scaled inner product. -/
theorem score_at (x0 x1 : (⟨S2x2048x1024, .f32⟩ : BufTy).Contents (Elt Ideal)) (x3 : (⟨S2x2048, .i1⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal)) (g : Fin 2) (h : Fin 16) (q k : Fin 2048) :
    val_main_v22 (F := Ideal) x0 x1 x3 x4 x5 x6 x7 (ix4 g h q k)
      = score (lin x0 x4 x5) (lin x1 x6 x7) x3 g h q k := by
  rw [val_main_v22_apply, val_main_call0_v1_apply, val_main_v21_apply, val_main_call0_v2_apply,
    val_main_call0_v0_apply, val_main_cst_0_apply, qk_at]
  have em : idx_main_v21 (idx_main_call0_v1 (ix4 g h q k)) = ix2 g k := funext fun a => Fin.ext (by
    match a with | ⟨0, _⟩ => rfl | ⟨1, _⟩ => rfl)
  rw [em]
  rfl

/-! ## The softmax of a score row -/

/-- Putting coordinate k back on the last axis of (g, h, q) gives (g, h, q, k). -/
theorem lift_ix3 (hr : S2x16x2048x2048.Reduces [3] S2x16x2048) (g : Fin 2) (h : Fin 16) (q k : Fin 2048) :
    hr.lift (ix3 g h q) k = ix4 g h q k := by
  funext a
  apply Fin.ext
  match a with | ⟨0, _⟩ => rfl | ⟨1, _⟩ => rfl | ⟨2, _⟩ => rfl | ⟨3, _⟩ => rfl

/-- A maximum over the last axis from the −∞ word is the supremum of the row. -/
theorem hostMax_at (y : (⟨S2x16x2048x2048, .f32⟩ : BufTy).Contents (Elt Ideal)) (g : Fin 2) (h : Fin 16) (q : Fin 2048) :
    Host.reduce FloatOps.maximumf y (constant (F := Ideal) S_ .f32 0xFF800000#32)
        reducesTo_S2x16x2048x2048_S2x16x2048_d3 h_S_ (ix3 g h q)
      = ⨆ k : Fin 2048, y (ix4 g h q k) := by
  have hr : S2x16x2048x2048.Reduces [3] S2x16x2048 := by decide
  refine (ExtremeReduce.hostReduce_max_single y reducesTo_S2x16x2048x2048_S2x16x2048_d3 hr h_S_ (ix3 g h q)).trans ?_
  show (⨆ k : Fin 2048, y (hr.lift (ix3 g h q) k)) = _
  simp only [lift_ix3]

/-- The maximum of score row (g, h, q); the reference takes it once more against −∞, which changes nothing. -/
theorem rowMax_at (x0 x1 : (⟨S2x2048x1024, .f32⟩ : BufTy).Contents (Elt Ideal)) (x3 : (⟨S2x2048, .i1⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal)) (g : Fin 2) (h : Fin 16) (q : Fin 2048) :
    val_main_v25 (F := Ideal) x0 x1 x3 x4 x5 x6 x7 (ix3 g h q)
      = ⨆ k : Fin 2048, score (lin x0 x4 x5) (lin x1 x6 x7) x3 g h q k := by
  rw [val_main_v25_apply, val_main_v24_apply, val_main_cst_2_apply]
  have hm : val_main_v23 (F := Ideal) x0 x1 x3 x4 x5 x6 x7 (ix3 g h q)
      = ⨆ k : Fin 2048, val_main_v22 (F := Ideal) x0 x1 x3 x4 x5 x6 x7 (ix4 g h q k) :=
    hostMax_at (val_main_v22 (F := Ideal) x0 x1 x3 x4 x5 x6 x7) g h q
  rw [hm]
  simp only [score_at]
  show max (Ideal.ofBits .f32 0xFF800000#32) _ = _
  rw [ExtremeReduce.ofBits_negInf]
  exact max_eq_right bot_le

/-- The exponential of a shifted score. -/
theorem exp_at (x0 x1 : (⟨S2x2048x1024, .f32⟩ : BufTy).Contents (Elt Ideal)) (x3 : (⟨S2x2048, .i1⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal)) (g : Fin 2) (h : Fin 16) (q k : Fin 2048) :
    val_main_v29 (F := Ideal) x0 x1 x3 x4 x5 x6 x7 (ix4 g h q k)
      = Ideal.exp (score (lin x0 x4 x5) (lin x1 x6 x7) x3 g h q k
          - ⨆ k' : Fin 2048, score (lin x0 x4 x5) (lin x1 x6 x7) x3 g h q k') := by
  rw [val_main_v29_apply, val_main_v28_apply, val_main_v27_apply, val_main_v26_apply]
  have em : idx_main_v26 (idx_main_v27 (ix4 g h q k)) = ix3 g h q := funext fun a => Fin.ext (by
    match a with | ⟨0, _⟩ => rfl | ⟨1, _⟩ => rfl | ⟨2, _⟩ => rfl)
  rw [em, rowMax_at, score_at]
  rfl

/-- The softmax weight of key k in score row (g, h, q). -/
theorem weight_at (x0 x1 : (⟨S2x2048x1024, .f32⟩ : BufTy).Contents (Elt Ideal)) (x3 : (⟨S2x2048, .i1⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal)) (g : Fin 2) (h : Fin 16) (q k : Fin 2048) :
    val_main_v33 (F := Ideal) x0 x1 x3 x4 x5 x6 x7 (ix4 g h q k)
      = smax (score (lin x0 x4 x5) (lin x1 x6 x7) x3 g h q) k := by
  rw [val_main_v33_apply, val_main_v32_apply, val_main_v31_apply, val_main_v30_apply, val_main_cst_3_apply]
  have es : ∀ k' : Fin 2048, idx_main_v30 (idx_main_v31 (idx_main_v32 (ix4 g h q k))) k' = ix4 g h q k' :=
    fun k' => funext fun a => Fin.ext (by
      match a with | ⟨0, _⟩ => rfl | ⟨1, _⟩ => rfl | ⟨2, _⟩ => rfl | ⟨3, _⟩ => rfl)
  simp only [es, exp_at]
  show Ideal.div _ (Ideal.ofBits .f32 0x00000000#32 + _) = _
  rw [Ideal.ofBits_zero_f32, zero_add]
  rfl

/-! ## Attention and the output layer -/

/-- The weights of score row (g, h, q) average lane j of head h of the value rows. -/
theorem mix_at (x0 x1 x2 : (⟨S2x2048x1024, .f32⟩ : BufTy).Contents (Elt Ideal)) (x3 : (⟨S2x2048, .i1⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal)) (g : Fin 2) (h : Fin 16) (q : Fin 2048) (j : Fin 64) :
    val_main_v34 (F := Ideal) x0 x1 x2 x3 x4 x5 x6 x7 x8 x9 (ix4 g h q j)
      = ∑ k : Fin 2048, smax (score (lin x0 x4 x5) (lin x1 x6 x7) x3 g h q) k * lin x2 x8 x9 g k (col h j) := by
  rw [val_main_v34_apply]
  have el : ∀ k : Fin 2048, lidx_main_v34 (ix4 g h q j) k = ix4 g h q k := fun k => funext fun a => Fin.ext (by
    match a with | ⟨0, _⟩ => rfl | ⟨1, _⟩ => rfl | ⟨2, _⟩ => rfl | ⟨3, _⟩ => rfl)
  have er : ∀ k : Fin 2048, ridx_main_v34 (ix4 g h q j) k = ix4 g h k j := fun k => funext fun a => Fin.ext (by
    match a with | ⟨0, _⟩ => rfl | ⟨1, _⟩ => rfl | ⟨2, _⟩ => rfl | ⟨3, _⟩ => rfl)
  simp only [el, er, weight_at, valueProj_eq, heads_at]

/-- Row-major position of (g, q, e) in [2, 2048, 1024], read back in [2, 2048, 16, 64] and with the head axis moved
    in front of the row axis, is (g, head of e, q, lane of e). -/
theorem merge_idx (g : Fin 2) (q : Fin 2048) (e : Fin 1024) :
    idx_main_v35 (idx_main_v36 (ix3 g q e)) = ix4 g (headOf e) q (laneOf e) := by
  have hg := g.isLt; have hq := q.isLt; have he := e.isLt
  funext a
  apply Fin.ext
  match a with
  | ⟨0, _⟩ => show ((g.val * 2048 + q.val) * 1024 + e.val) / 2097152 = g.val; omega
  | ⟨1, _⟩ => show ((g.val * 2048 + q.val) * 1024 + e.val) / 64 % 16 = e.val / 64; omega
  | ⟨2, _⟩ => show ((g.val * 2048 + q.val) * 1024 + e.val) / 1024 % 2048 = q.val; omega
  | ⟨3, _⟩ => show ((g.val * 2048 + q.val) * 1024 + e.val) % 64 = e.val % 64; omega

/-- The attention output at (g, q, e). -/
theorem attn_at (x0 x1 x2 : (⟨S2x2048x1024, .f32⟩ : BufTy).Contents (Elt Ideal)) (x3 : (⟨S2x2048, .i1⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal)) (g : Fin 2) (q : Fin 2048) (e : Fin 1024) :
    val_main_v36 (F := Ideal) x0 x1 x2 x3 x4 x5 x6 x7 x8 x9 (ix3 g q e)
      = attn (lin x0 x4 x5) (lin x1 x6 x7) (lin x2 x8 x9) x3 g q e := by
  rw [val_main_v36_apply, val_main_v35_apply, merge_idx, mix_at, col_headOf_laneOf]
  rfl

/-- The whole layer at (g, l, e). -/
theorem out_at (x0 x1 x2 : (⟨S2x2048x1024, .f32⟩ : BufTy).Contents (Elt Ideal)) (x3 : (⟨S2x2048, .i1⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal)) (g : Fin 2) (l : Fin 2048) (e : Fin 1024) :
    val_main_v40 (F := Ideal) x0 x1 x2 x3 x4 x5 x6 x7 x8 x9 x10 x11 (ix3 g l e)
      = mha x0 x1 x2 x3 x4 x5 x6 x7 x8 x9 x10 x11 (ix3 g l e) := by
  rw [val_main_v40_apply, val_main_v37_apply, val_main_v39_apply, val_main_v38_apply]
  have el : ∀ d : Fin 1024, lidx_main_v37 (ix3 g l e) d = ix3 g l d := fun d => funext fun a => Fin.ext (by
    match a with | ⟨0, _⟩ => rfl | ⟨1, _⟩ => rfl | ⟨2, _⟩ => rfl)
  have er : ∀ d : Fin 1024, ridx_main_v37 (ix3 g l e) d = ix2 e d := fun d => funext fun a => Fin.ext (by
    match a with | ⟨0, _⟩ => rfl | ⟨1, _⟩ => rfl)
  have eb : idx_main_v38 (idx_main_v39 (ix3 g l e)) = ix1 e := funext fun a => Fin.ext (by
    match a with | ⟨0, _⟩ => rfl)
  simp only [el, er, eb, attn_at]
  rfl

/-- The reference computes multi-head attention. -/
theorem reference_eq
    (x0 x1 x2 : (⟨Cert.ReferenceIdeal.S2x2048x1024, .f32⟩ : BufTy).Contents (Elt Ideal))
    (x3 : (⟨Cert.ReferenceIdeal.S2x2048, .i1⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal))
    (x6 : (⟨Cert.ReferenceIdeal.S1024x1024, .f32⟩ : BufTy).Contents (Elt Ideal)) (x7 : (⟨Cert.ReferenceIdeal.S1024, .f32⟩ : BufTy).Contents (Elt Ideal))
    (x8 : (⟨Cert.ReferenceIdeal.S1024x1024, .f32⟩ : BufTy).Contents (Elt Ideal)) (x9 : (⟨Cert.ReferenceIdeal.S1024, .f32⟩ : BufTy).Contents (Elt Ideal))
    (x10 : (⟨Cert.ReferenceIdeal.S1024x1024, .f32⟩ : BufTy).Contents (Elt Ideal)) (x11 : (⟨Cert.ReferenceIdeal.S1024, .f32⟩ : BufTy).Contents (Elt Ideal)) :
    Cert.ReferenceIdeal.Read.val_main_v40 (F := Ideal) x0 x1 x2 x3 x4 x5 x6 x7 x8 x9 x10 x11
      = Cert.MHA.mha x0 x1 x2 x3 x4 x5 x6 x7 x8 x9 x10 x11 := by
  funext i
  rw [eq_ix3 i]
  exact out_at x0 x1 x2 x3 x4 x5 x6 x7 x8 x9 x10 x11 (i 0) (i 1) (i 2)

end Cert.MHA.RefValue

end
-- ==== Proof.lean ====
/-
  Multi-head attention: the kernel program against the reference, on the extended reals.

  The kernel program runs five kernels — the query, key and value projections, the attention itself, the output
  projection — among host reshapes and transposes; the reference is one line of array operations.  Both are read as
  the same function of the twelve argument arrays (Proof/Spec.lean): every projection is x Wᵀ + b, the score of a
  query against a key in a head is the scaled inner product over the head's 64 lanes, −∞ where the key is masked
  (the kernel adds a bias that is −∞ or 0, the reference selects: on the extended reals these agree), each score row
  goes through a softmax, the weights average the value rows, and the output layer follows.  Nothing in the argument
  depends on the inputs being finite.  The frames of the two kernel programs are the generated ones; the reference's
  frame is its generated run with the result dropped; no rewrite was applied in idealizing the kernel, so the
  idealization claim is trivial.
-/
import proofs.«126842_j55808805044352_2_alg».proof.Defs
import proofs.«126842_j55808805044352_2_alg».proof.Proof.Gen.Kernel
import proofs.«126842_j55808805044352_2_alg».proof.Proof.Gen.Kernel.Skeleton
import proofs.«126842_j55808805044352_2_alg».proof.Proof.Gen.Kernel.Launch
import proofs.«126842_j55808805044352_2_alg».proof.Proof.Gen.Kernel.Points
import proofs.«126842_j55808805044352_2_alg».proof.Proof.Gen.Kernel.Frame
import proofs.«126842_j55808805044352_2_alg».proof.Proof.Gen.KernelIdeal
import proofs.«126842_j55808805044352_2_alg».proof.Proof.Gen.KernelIdeal.Skeleton
import proofs.«126842_j55808805044352_2_alg».proof.Proof.Gen.KernelIdeal.Launch
import proofs.«126842_j55808805044352_2_alg».proof.Proof.Gen.KernelIdeal.Points
import proofs.«126842_j55808805044352_2_alg».proof.Proof.Gen.KernelIdeal.Frame
import proofs.«126842_j55808805044352_2_alg».proof.Proof.Gen.ReferenceIdeal
import proofs.«126842_j55808805044352_2_alg».proof.Proof.Gen.Pre_finite_inputs
import proofs.«126842_j55808805044352_2_alg».proof.Proof.Gen.ReferenceIdeal.Run
import proofs.«126842_j55808805044352_2_alg».proof.Proof.Gen.ReferenceIdeal.Read
import proofs.«126842_j55808805044352_2_alg».proof.Proof.RunValue
import proofs.«126842_j55808805044352_2_alg».proof.Proof.KernelValue
import proofs.«126842_j55808805044352_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result at the attention layer of the argument arrays, which agree. -/
theorem algebraic : Cert.algebraic_KernelIdeal_ReferenceIdeal := by
  intro m ρ m' ρ' _ hagree
  refine ⟨fun c => Cert.MHA.mha
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.MHA.KernelValue.kernel_eq m ρ c), (h c).2⟩)
      (Cert.KernelIdeal.RunValue.run (F := Ideal) m ρ)
  · refine (θ_run Cert.ReferenceIdeal.defs _ _).mono (fun _ h c => ⟨?_, (h c).2⟩)
      (Cert.ReferenceIdeal.Value.run (F := Ideal) m' ρ')
    obtain ⟨h0, h1, h2, h3, h4, h5, h6, h7, h8, h9, h10, h11⟩ := hagree c
    rw [(h c).1, Cert.ReferenceIdeal.Read.val_main_v40_eq, Cert.MHA.RefValue.reference_eq,
      h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
